-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_sqrt_emb" .f32 0x3D13CD3A#32 ((524288 / 14529495 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S_ : Shape := ⟨0, ![]⟩
abbrev S8x2048 : Shape := ⟨2, ![8, 2048]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S8x2048x2048 : S_.BroadcastsInDim S8x2048x2048 (![] : Fin 0 → Fin S8x2048x2048.rank)
  reducesTo_S8x2048x2048_S8x2048_d2 : S8x2048x2048.ReducesTo [2] S8x2048
  reducesTo_S8x2048_S_d0_1 : S8x2048.ReducesTo [0, 1] S_

variable [Facts]

def fn_part1 {F : FTy → Type} [FloatOps F] (main_arg3 : IVec S8x2048x2048 32) (main_arg5 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_c_8 : IVec S_ 32 := constantI S_ 32 1#32
  let main_v24 : IVec S8x2048x2048 32 := broadcastInDim S8x2048x2048 ![] bcast_S_S8x2048x2048 main_c_8
  let main_v25 : IVec S8x2048x2048 1 := cmpi .ne main_arg3 main_v24
  let main_c_9 : IVec S_ 1 := constantI S_ 1 0#1
  let main_v26 : IVec S8x2048 1 := (fun x v => Host.reduce IntOp.ori x v reducesTo_S8x2048x2048_S8x2048_d2 h_S_) main_v25 main_c_9
  let main_c_10 : IVec S_ 1 := constantI S_ 1 1#1
  let main_v27 : IVec S_ 1 := (fun x v => Host.reduce IntOp.andi x v reducesTo_S8x2048_S_d0_1 h_S_) main_v26 main_c_10
  let main_v28 : IVec S_ 1 := andi main_v23 main_v27
  main_v28

def fn {F : FTy → Type} [FloatOps F] (main_arg0 : FVec F S8x2048x768 .f32) (main_arg1 : FVec F S8x2048x768 .f32) (main_arg2 : FVec F S8x2048x768 .f32) (main_arg3 : IVec S8x2048x2048 32) (main_arg4 : FVec F S768x768 .f32) (main_arg5 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8x2048x768 .f32 := Host.absf main_arg1
  let main_cst_0 : FVec F S_ .f32 := constant S_ .f32 0x7F800000#32
  let main_v5 : FVec F S8x2048x768 .f32 := broadcastInDim S8x2048x768 ![] bcast_S_S8x2048x768 main_cst_0
  let main_v6 : IVec S8x2048x768 1 := cmpf .olt main_v4 main_v5
  let main_c_1 : IVec S_ 1 := constantI S_ 1 1#1
  let main_v7 : IVec S_ 1 := (fun x v => Host.reduce IntOp.andi x v reducesTo_S8x2048x768_S_d0_1_2 h_S_) main_v6 main_c_1
  let main_v8 : IVec S_ 1 := andi main_v3 main_v7
  let main_v9 : FVec F S8x2048x768 .f32 := Host.absf main_arg2
  let main_cst_2 : FVec F S_ .f32 := constant S_ .f32 0x7F800000#32
  let main_v10 : FVec F S8x2048x768 .f32 := broadcastInDim S8x2048x768 ![] bcast_S_S8x2048x768 main_cst_2
  let main_v11 : IVec S8x2048x768 1 := cmpf .olt main_v9 main_v10
  let main_c_3 : IVec S_ 1 := constantI S_ 1 1#1
  let main_v12 : IVec S_ 1 := (fun x v => Host.reduce IntOp.andi x v reducesTo_S8x2048x768_S_d0_1_2 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg3 main_arg5 main_v13 main_v16
-- ==== Kernel.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S16384x768 : Shape := ⟨2, ![16384, 768]⟩
abbrev S1x768 : Shape := ⟨2, ![1, 768]⟩
abbrev S2048x768 : Shape := ⟨2, ![2048, 768]⟩
abbrev S1x1024x768 : Shape := ⟨3, ![1, 1024, 768]⟩
abbrev S1x512x768 : Shape := ⟨3, ![1, 512, 768]⟩
abbrev S1x1024x512 : Shape := ⟨3, ![1, 1024, 512]⟩
abbrev S1x1024x1 : Shape := ⟨3, ![1, 1024, 1]⟩
abbrev S1024x768 : Shape := ⟨2, ![1024, 768]⟩
abbrev S1x1024 : Shape := ⟨2, ![1, 1024]⟩

abbrev nBuf : Space → Nat
  | .hbm => 16
  | .vmem => 28
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x768, .f32⟩
  | .hbm, ⟨3, _⟩ => ⟨S8x2048x2048, .i32⟩
  | .hbm, ⟨4, _⟩ => ⟨S768x768, .f32⟩
  | .hbm, ⟨5, _⟩ => ⟨S768, .f32⟩
  | .hbm, ⟨6, _⟩ => ⟨S16384x768, .f32⟩
  | .hbm, ⟨7, _⟩ => ⟨S16384x768, .f32⟩
  | .hbm, ⟨8, _⟩ => ⟨S768x768, .f32⟩
  | .hbm, ⟨9, _⟩ => ⟨S768x768, .bf16⟩
  | .hbm, ⟨10, _⟩ => ⟨S1x768, .f32⟩
  | .hbm, ⟨11, _⟩ => ⟨S16384x768, .bf16⟩
  | .hbm, ⟨12, _⟩ => ⟨S8x2048x768, .bf16⟩
  | .hbm, ⟨13, _⟩ => ⟨S16384x768, .bf16⟩
  | .hbm, ⟨14, _⟩ => ⟨S8x2048x768, .bf16⟩
  | .hbm, ⟨15, _⟩ => ⟨S8x2048x768, .f32⟩
  | .local _ .vmem, ⟨0, _⟩ => ⟨S2048x768, .f32⟩
  | .local _ .vmem, ⟨1, _⟩ => ⟨S2048x768, .f32⟩
  | .local _ .vmem, ⟨2, _⟩ => ⟨S768x768, .bf16⟩
  | .local _ .vmem, ⟨3, _⟩ => ⟨S1x768, .f32⟩
  | .local _ .vmem, ⟨4, _⟩ => ⟨S2048x768, .bf16⟩
  | .local _ .vmem, ⟨5, _⟩ => ⟨S2048x768, .bf16⟩
  | .local _ .vmem, ⟨6, _⟩ => ⟨S2048x768, .f32⟩
  | .local _ .vmem, ⟨7, _⟩ => ⟨S2048x768, .f32⟩
  | .local _ .vmem, ⟨8, _⟩ => ⟨S768x768, .bf16⟩
  | .local _ .vmem, ⟨9, _⟩ => ⟨S1x768, .f32⟩
  | .local _ .vmem, ⟨10, _⟩ => ⟨S2048x768, .bf16⟩
  | .local _ .vmem, ⟨11, _⟩ => ⟨S2048x768, .bf16⟩
  | .local _ .vmem, ⟨12, _⟩ => ⟨S1x1024x768, .f32⟩
  | .local _ .vmem, ⟨13, _⟩ => ⟨S1x1024x768, .f32⟩
  | .local _ .vmem, ⟨14, _⟩ => ⟨S1x512x768, .bf16⟩
  | .local _ .vmem, ⟨15, _⟩ => ⟨S1x512x768, .bf16⟩
  | .local _ .vmem, ⟨16, _⟩ => ⟨S1x512x768, .bf16⟩
  | .local _ .vmem, ⟨17, _⟩ => ⟨S1x512x768, .bf16⟩
  | .local _ .vmem, ⟨18, _⟩ => ⟨S1x1024x512, .i32⟩
  | .local _ .vmem, ⟨19, _⟩ => ⟨S1x1024x512, .i32⟩
  | .local _ .vmem, ⟨20, _⟩ => ⟨S768x768, .bf16⟩
  | .local _ .vmem, ⟨21, _⟩ => ⟨S1x768, .f32⟩
  | .local _ .vmem, ⟨22, _⟩ => ⟨S1x1024x768, .f32⟩
  | .local _ .vmem, ⟨23, _⟩ => ⟨S1x1024x768, .f32⟩
  | .local _ .vmem, ⟨24, _⟩ => ⟨S1x1024x1, .f32⟩
  | .local _ .vmem, ⟨25, _⟩ => ⟨S1x1024x1, .f32⟩
  | .local _ .vmem, ⟨26, _⟩ => ⟨S1x1024x768, .f32⟩
  | .local _ .vmem, ⟨27, _⟩ => ⟨S1x1024x768, .bf16⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_scratch0 : Ref sig .tc := ⟨.vmem, 24, rfl⟩
abbrev cc2_scratch1 : Ref sig .tc := ⟨.vmem, 25, rfl⟩
abbrev cc2_scratch2 : Ref sig .tc := ⟨.vmem, 26, rfl⟩
abbrev cc2_scratch3 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![8, 2, 4], ![false, false, false]⟩

def k2_cond2 (i : grid2.Coords) : BitVec 1 :=
  let arg2 : BitVec 32 := BitVec.ofNat 32 (i 2).val
  let c3_i32 : BitVec 32 := 3#32
  let v46 : BitVec 1 := Scalar.cmpi .eq arg2 c3_i32
  let v47 : BitVec 32 := Scalar.extui v46
  let c0_i32_38 : BitVec 32 := 0#32
  let v48 : BitVec 1 := Scalar.cmpi .ne v47 c0_i32_38
  v48

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1024x512 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 1 → Memref sig .tc .vmem S768x768 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 2 → Memref sig .tc .vmem S1x1024x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

class Facts₀ : Prop where
  shapeCasts_S8x2048x768_S16384x768 : S8x2048x768.ShapeCasts S16384x768
  transposes_S768x768_S768x768_1_0 : S768x768.Transposes [1, 0] S768x768
  bitsLt_bf16_f32 : FTy.bits .bf16 < FTy.bits .f32
  shapeCasts_S768_S1x768 : S768.ShapeCasts S1x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  packedbf16_S2048x768_S2048x768_0_0 : (Rect.unit (s := S2048x768) ![0, 0] S2048x768.size inb_S2048x768_S2048x768_0_0).PackedRows (EltTy.packing .bf16)
  shapeCasts_S16384x768_S8x2048x768 : S16384x768.ShapeCasts S8x2048x768
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1x1024x768 : S1x1024x768.ShapeCasts S1x1024x768
  shapeCasts_S1x1024x768_S1024x768 : S1x1024x768.ShapeCasts S1024x768
  broadcasts_S1x768_S1024x768 : S1x768.Broadcasts S1024x768
  shapeCasts_S1024x768_S1x1024x768 : S1024x768.ShapeCasts S1x1024x768
  packedbf16_S1x1024x768_S1x1024x768_0_0_0 : (Rect.unit (s := S1x1024x768) ![0, 0, 0] S1x1024x768.size inb_S1x1024x768_S1x1024x768_0_0_0).PackedRows (EltTy.packing .bf16)
  inb_S1x512x768_S1x512x768_0_0_0 : ∀ a, (![0, 0, 0] : Fin 3 → Nat) a + S1x512x768.size a ≤ S1x512x768.size a
  h_S1x512x768 : 0 < S1x512x768.numel
  shapeCasts_S1x512x768_S1x512x768 : S1x512x768.ShapeCasts S1x512x768
  inb_S1x1024x512_S1x1024x512_0_0_0 : ∀ a, (![0, 0, 0] : Fin 3 → Nat) a + S1x1024x512.size a ≤ S1x1024x512.size a
  h_S1x1024x512 : 0 < S1x1024x512.numel
  reduces_S1x1024x512_S1x1024 : S1x1024x512.Reduces [2] S1x1024
  shapeCasts_S1x1024_S1x1024x1 : S1x1024.ShapeCasts S1x1024x1
  broadcasts_S1x1024x1_S1x1024x512 : S1x1024x1.Broadcasts S1x1024x512
  broadcasts_S1x1024x1_S1x1024x768 : S1x1024x1.Broadcasts S1x1024x768
  dot_S2048x768_S768x768_S2048x768_1_0_0_1_n_n_wf : DotDims.WF S2048x768 S768x768 S2048x768 [1] [0] [0] [1] [] []
  dot_S1024x768_S768x768_S1024x768_1_0_0_1_n_n_wf : DotDims.WF S1024x768 S768x768 S1024x768 [1] [0] [0] [1] [] []
  dot_S1x1024x768_S1x512x768_S1x1024x512_2_2_1_1_0_0_wf : DotDims.WF S1x1024x768 S1x512x768 S1x1024x512 [2] [2] [1] [1] [0] [0]
  dot_S1x1024x512_S1x512x768_S1x1024x768_2_1_1_2_0_0_wf : DotDims.WF S1x1024x512 S1x512x768 S1x1024x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S16384x768.size a
  hwx0_0 : ∀ i : grid0.Coords, EltTy.bits .f32 = 32 ∨ (Rect.block (s := S16384x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S16384x768.size a
  hwx0_3 : ∀ i : grid0.Coords, EltTy.bits .bf16 = 32 ∨ (Rect.block (s := S16384x768) S2048x768.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x768.size a ≤ S16384x768.size a
  hwx1_0 : ∀ i : grid1.Coords, EltTy.bits .f32 = 32 ∨ (Rect.block (s := S16384x768) S2048x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x768.size a ≤ S16384x768.size a
  hwx1_3 : ∀ i : grid1.Coords, EltTy.bits .bf16 = 32 ∨ (Rect.block (s := S16384x768) S2048x768.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x768.size a ≤ S8x2048x768.size a
  hwx2_0 : ∀ i : grid2.Coords, EltTy.bits .f32 = 32 ∨ (Rect.block (s := S8x2048x768) S1x1024x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x768.size a ≤ S8x2048x768.size a
  hwx2_1 : ∀ i : grid2.Coords, EltTy.bits .bf16 = 32 ∨ (Rect.block (s := S8x2048x768) S1x512x768.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x768.size a ≤ S8x2048x768.size a
  hwx2_2 : ∀ i : grid2.Coords, EltTy.bits .bf16 = 32 ∨ (Rect.block (s := S8x2048x768) S1x512x768.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x512.size a ≤ S8x2048x2048.size a
  hwx2_3 : ∀ i : grid2.Coords, EltTy.bits .i32 = 32 ∨ (Rect.block (s := S8x2048x2048) S1x1024x512.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S768x768.size a ≤ S768x768.size a
  hwx2_4 : ∀ i : grid2.Coords, EltTy.bits .bf16 = 32 ∨ (Rect.block (s := S768x768) S768x768.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x768.size a ≤ S1x768.size a
  hwx2_5 : ∀ i : grid2.Coords, EltTy.bits .f32 = 32 ∨ (Rect.block (s := S1x768) S1x768.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024x768.size a ≤ S8x2048x768.size a
  hwx2_6 : ∀ i : grid2.Coords, EltTy.bits .f32 = 32 ∨ (Rect.block (s := S8x2048x768) S1x1024x768.size (cc2_transform_6 i) (hinb2_6 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1x1024x768_S1x512x768_S1x1024x512_2_2_1_1_0_0 : DotDims S1x1024x768 S1x512x768 S1x1024x512 where
  lhsContracting := [2]
  rhsContracting := [2]
  lhsNonContracting := [1]
  rhsNonContracting := [1]
  lhsBatch := [0]
  rhsBatch := [0]
  wf := dot_S1x1024x768_S1x512x768_S1x1024x512_2_2_1_1_0_0_wf
def dot_S1x1024x512_S1x512x768_S1x1024x768_2_1_1_2_0_0 : DotDims S1x1024x512 S1x512x768 S1x1024x768 where
  lhsContracting := [2]
  rhsContracting := [1]
  lhsNonContracting := [1]
  rhsNonContracting := [2]
  lhsBatch := [0]
  rhsBatch := [0]
  wf := dot_S1x1024x512_S1x512x768_S1x1024x768_2_1_1_2_0_0_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2048x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x512x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x512x768.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1x1024x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S768x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1x1024x768.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x768, .f32⟩
  | .hbm, ⟨3, _⟩ => ⟨S8x2048x2048, .i32⟩
  | .hbm, ⟨4, _⟩ => ⟨S768x768, .f32⟩
  | .hbm, ⟨5, _⟩ => ⟨S768, .f32⟩
  | .hbm, ⟨6, _⟩ => ⟨S8x2048x768, .f32⟩
  | .hbm, ⟨7, _⟩ => ⟨S1x1x768, .f32⟩
  | .hbm, ⟨8, _⟩ => ⟨S8x2048x768, .f32⟩
  | .hbm, ⟨9, _⟩ => ⟨S8x2048x768, .f32⟩
  | .hbm, ⟨10, _⟩ => ⟨S8x2048x768, .f32⟩
  | .hbm, ⟨11, _⟩ => ⟨S1x1x768, .f32⟩
  | .hbm, ⟨12, _⟩ => ⟨S8x2048x768, .f32⟩
  | .hbm, ⟨13, _⟩ => ⟨S8x2048x768, .f32⟩
  | .hbm, ⟨14, _⟩ => ⟨S8x2048x768, .f32⟩
  | .hbm, ⟨15, _⟩ => ⟨S1x1x768, .f32⟩
  | .hbm, ⟨16, _⟩ => ⟨S8x2048x768, .f32⟩
  | .hbm, ⟨17, _⟩ => ⟨S8x2048x768, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S_, .i32⟩
  | .hbm, ⟨23, _⟩ => ⟨S8x2048x2048, .i32⟩
  | .hbm, ⟨24, _⟩ => ⟨S8x2048x2048, .i1⟩
  | .hbm, ⟨25, _⟩ => ⟨S_, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S768x768_S8x2048x768_2_1_01_0_n_n_wf : DotDims.WF S8x2048x768 S768x768 S8x2048x768 [2] [1] [0, 1] [0] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S768x768_S8x2048x768_2_1_01_0_n_n : DotDims S8x2048x768 S768x768 S8x2048x768 where
  lhsContracting := [2]
  rhsContracting := [1]
  lhsNonContracting := [0, 1]
  rhsNonContracting := [0]
  lhsBatch := []
  rhsBatch := []
  wf := dot_S8x2048x768_S768x768_S8x2048x768_2_1_01_0_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.LibSoftmaxSpec.lean ====
/-
  Softmax attention pooling of one query row, two ways, on the extended reals.

  A row of scores arrives in `n` chunks of keys, `s j k` the score of key `k` of chunk `j`: a real number, or `⊥`
  for a key the mask removes. `v j k` is the (real) value that key carries.

  * `Whole`: the textbook form. `M` is the largest score, `w = exp (s - M)` the weights, `L` their sum, and the
    result is `∑ (w / L) · v`.
  * `Online`: the streaming form. A running maximum `m`, a running denominator `l` and a running numerator `a`
    are carried from chunk to chunk; when the maximum moves from `m` to `m'` the two sums are rescaled by
    `exp (m - m')`. The result is `a / l` after the last chunk.

  The two agree as soon as one key of the row is kept (`Attn.Soft.online_eq_whole`, proved in LibOnlineSoftmax.lean).
-/
import Idealize.ShloMosaic.PureOps.Ideal

noncomputable section

namespace Attn.Soft

open Idealize.ShloMosaic

variable {n : ℕ} {K : Type} [Fintype K]

/-- The largest score of chunk `j` (`⊥` when the mask removes every key of the chunk). -/
def chunkMax (s : Fin n → K → EReal) (j : Fin n) : EReal := Finset.univ.sup (s j)

/-- The streaming state after the first `j` chunks: running maximum, running denominator, running numerator. -/
def online (s : Fin n → K → EReal) (v : Fin n → K → EReal) : (j : ℕ) → j ≤ n → EReal × EReal × EReal
  | 0, _ => (⊥, 0, 0)
  | j + 1, h =>
    let p := online s v j (Nat.le_of_succ_le h)
    let m' := max p.1 (chunkMax s ⟨j, h⟩)
    (m',
     Ideal.exp (p.1 - m') * p.2.1 + ∑ k, Ideal.exp (s ⟨j, h⟩ k - m'),
     Ideal.exp (p.1 - m') * p.2.2 + ∑ k, Ideal.exp (s ⟨j, h⟩ k - m') * v ⟨j, h⟩ k)

/-- The streaming form's result: numerator over denominator after the last chunk. -/
def onlineOut (s : Fin n → K → EReal) (v : Fin n → K → EReal) : EReal :=
  Ideal.div (online s v n le_rfl).2.2 (online s v n le_rfl).2.1

/-- The largest score of the whole row. -/
def rowMax (s : Fin n → K → EReal) : EReal := Finset.univ.sup fun jk : Fin n × K => s jk.1 jk.2

/-- The textbook weight of key `(j, k)`. -/
def weight (s : Fin n → K → EReal) (j : Fin n) (k : K) : EReal := Ideal.exp (s j k - rowMax s)

/-- The textbook denominator. -/
def denom (s : Fin n → K → EReal) : EReal := ∑ jk : Fin n × K, weight s jk.1 jk.2

/-- The textbook form's result. -/
def wholeOut (s : Fin n → K → EReal) (v : Fin n → K → EReal) : EReal :=
  ∑ jk : Fin n × K, Ideal.div (weight s jk.1 jk.2) (denom s) * v jk.1 jk.2

end Attn.Soft

end
-- ==== Proof.AttnSpec.lean ====
/-
  Masked single-head attention with a shared linear layer, as one function of the six argument arrays.

  `proj x W b` is the linear layer `x · Wᵀ + b` applied to queries, keys and values alike. The score of query
  position `p` against key position `t` is the dot product of the two projected rows divided by `D = √768` as the
  reference's single-precision literal spells it, or `-∞` where the mask holds a one. The 2048 key positions of a
  row are taken as 4 chunks of 512 (`key j k = 512·j + k`), the tiling both programs are compared over; the result at
  `(batch, p, o)` is the softmax-weighted sum of the projected values' feature `o` (LibSoftmaxSpec.lean's `wholeOut`).
-/
import Idealize.ShloMosaic.Lib.ValueIdx
import proofs.«113779_j37349035606587_2_alg».proof.Proof.LibSoftmaxSpec

noncomputable section

namespace Attn.Spec

open Idealize.ShloMosaic Idealize.ShloMosaic.ValueIdx

/-- [batch, position, feature]. -/
abbrev Sbpf : Shape := ⟨3, ![8, 2048, 768]⟩
/-- [batch, query position, key position]. -/
abbrev Sbqk : Shape := ⟨3, ![8, 2048, 2048]⟩
/-- [out feature, in feature]. -/
abbrev Soi : Shape := ⟨2, ![768, 768]⟩
/-- [feature]. -/
abbrev Sf : Shape := ⟨1, ![768]⟩

/-- The linear layer `x · Wᵀ + b` at (batch, position, out feature). -/
def proj (x : Sbpf.Idx → EReal) (W : Soi.Idx → EReal) (b : Sf.Idx → EReal) (bb : Fin 8) (p : Fin 2048) (o : Fin 768) : EReal :=
  (∑ e : Fin 768, x (ix3 bb p e) * W (ix2 o e)) + b (ix1 o)

/-- Key position `k` of chunk `j`. -/
def key (j : Fin 4) (k : Fin 512) : Fin 2048 := ⟨512 * j.val + k.val, by omega⟩

/-- The reference's divisor: the single-precision word nearest `√768`. -/
def D : EReal := Ideal.ofBits .f32 0x41DDB3D7#32

/-- The masked, scaled score of query position `p` against key `k` of chunk `j`. -/
def score (q k : Sbpf.Idx → EReal) (mask : Sbqk.Idx → BitVec 32) (W : Soi.Idx → EReal) (b : Sf.Idx → EReal)
    (bb : Fin 8) (p : Fin 2048) (j : Fin 4) (kk : Fin 512) : EReal :=
  if mask (ix3 bb p (key j kk)) = 1#32 then ⊥
  else Ideal.div (∑ e : Fin 768, proj q W b bb p e * proj k W b bb (key j kk) e) D

/-- Feature `o` of the projected value at key `k` of chunk `j`. -/
def value (v : Sbpf.Idx → EReal) (W : Soi.Idx → EReal) (b : Sf.Idx → EReal) (bb : Fin 8) (o : Fin 768)
    (j : Fin 4) (kk : Fin 512) : EReal :=
  proj v W b bb (key j kk) o

/-- The attention output at (batch, query position, feature). -/
def outAt (q k v : Sbpf.Idx → EReal) (mask : Sbqk.Idx → BitVec 32) (W : Soi.Idx → EReal) (b : Sf.Idx → EReal)
    (bb : Fin 8) (p : Fin 2048) (o : Fin 768) : EReal :=
  Attn.Soft.wholeOut (score q k mask W b bb p) (value v W b bb o)

/-- The attention output as an array. -/
def out (q k v : Sbpf.Idx → EReal) (mask : Sbqk.Idx → BitVec 32) (W : Soi.Idx → EReal) (b : Sf.Idx → EReal) :
    Sbpf.Idx → EReal :=
  fun i => outAt q k v mask W b (i 0) (i 1) (i 2)

end Attn.Spec

end
-- ==== Proof.RefIsSpec.lean ====
/-
  The reference program is the attention function of AttnSpec.lean.

  Read at an index (batch, query position, feature), the reference's last operation is a sum over the 2048 key
  positions of a softmax weight times a projected value. Each stage below is one of the reference's intermediate
  arrays read at explicit coordinates: the three projections, the masked and scaled score, the row maximum (a fold
  of maxima from minus infinity), the shifted exponential, its row sum and the quotient. The 2048 key positions are
  then listed as 4 chunks of 512, position 512·j + k being key k of chunk j, which turns the sums and the
  maximum over positions into the sums and the supremum over pairs (chunk, key) that the specification is written with.
-/
import proofs.«113779_j37349035606587_2_alg».proof.Proof.Gen.ReferenceIdeal.Read
import proofs.«113779_j37349035606587_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx Attn.Spec

/-! ## Key positions as pairs (chunk, key) -/

/-- Position 512·j + k is key k of chunk j: a bijection between the pairs and the 2048 positions. -/
def keyEquiv : Fin 4 × Fin 512 ≃ Fin 2048 where
  toFun jk := key jk.1 jk.2
  invFun t := (⟨t.val / 512, by have := t.isLt; omega⟩, ⟨t.val % 512, Nat.mod_lt _ (by decide)⟩)
  left_inv := by
    rintro ⟨j, k⟩
    have hj := j.isLt
    have hk := k.isLt
    refine Prod.ext (Fin.ext ?_) (Fin.ext ?_)
    · show (512 * j.val + k.val) / 512 = j.val
      omega
    · show (512 * j.val + k.val) % 512 = k.val
      omega
  right_inv := by
    intro t
    refine Fin.ext ?_
    show 512 * (t.val / 512) + t.val % 512 = t.val
    omega

/-- A sum over the positions is the sum over the pairs. -/
theorem sum_keys (f : Fin 2048 → EReal) : ∑ t, f t = ∑ jk : Fin 4 × Fin 512, f (key jk.1 jk.2) :=
  (Equiv.sum_comp keyEquiv f).symm

/-- A supremum over the positions is the supremum over the pairs. -/
theorem sup_keys (f : Fin 2048 → EReal) :
    Finset.univ.sup f = Finset.univ.sup fun jk : Fin 4 × Fin 512 => f (key jk.1 jk.2) := by
  rw [← Finset.map_univ_equiv keyEquiv, Finset.sup_map]
  rfl

/-- A fold of maxima from minus infinity is the supremum. -/
theorem fold_max_eq_sup (f : Fin 2048 → EReal) : (Finset.univ : Finset (Fin 2048)).fold max ⊥ f = Finset.univ.sup f := rfl

/-- The reference's softmax-weighted sum over the positions, in the form its operations give it (the maximum taken
    once more against minus infinity, the row sum started from zero), is the specification's pooled value over the
    pairs. -/
theorem pooled_eq_wholeOut (S P : Fin 2048 → EReal) :
    ∑ t, Ideal.div (Ideal.exp (S t - max ⊥ ((Finset.univ : Finset (Fin 2048)).fold max ⊥ S)))
          (0 + ∑ t', Ideal.exp (S t' - max ⊥ ((Finset.univ : Finset (Fin 2048)).fold max ⊥ S))) * P t
      = Attn.Soft.wholeOut (fun j k => S (key j k)) (fun j k => P (key j k)) := by
  have hM : max ⊥ ((Finset.univ : Finset (Fin 2048)).fold max ⊥ S) = Attn.Soft.rowMax (fun j k => S (key j k)) := by
    rw [max_eq_right bot_le, fold_max_eq_sup, sup_keys]
    rfl
  rw [hM, zero_add, sum_keys, sum_keys]
  rfl

/-! ## The reference's arrays read at coordinates -/

section Stages

variable (x0 x1 x2 : (⟨S8x2048x768, .f32⟩ : BufTy).Contents (Elt Ideal)) (x3 : (⟨S8x2048x2048, .i32⟩ : BufTy).Contents (Elt Ideal))
  (x4 : (⟨S768x768, .f32⟩ : BufTy).Contents (Elt Ideal)) (x5 : (⟨S768, .f32⟩ : BufTy).Contents (Elt Ideal))

/-- The projected queries. -/
theorem v3_at (bb : Fin 8) (p : Fin 2048) (o : Fin 768) :
    val_main_v3 (F := Ideal) x0 x4 x5 (ix3 bb p o) = proj x0 x4 x5 bb p o := by
  rw [val_main_v3_apply, val_main_v0_apply, val_main_v2_apply, val_main_v1_apply]
  have h1 : ∀ e : Fin 768, lidx_main_v0 (ix3 bb p o) e = ix3 bb p e := fun e => by
    funext a; match a with | ⟨0, _⟩ => rfl | ⟨1, _⟩ => rfl | ⟨2, _⟩ => rfl
  have h2 : ∀ e : Fin 768, ridx_main_v0 (ix3 bb p o) e = ix2 o e := fun e => by
    funext a; match a with | ⟨0, _⟩ => rfl | ⟨1, _⟩ => rfl
  have h3 : idx_main_v1 (idx_main_v2 (ix3 bb p o)) = ix1 o := by
    funext a; match a with | ⟨0, _⟩ => rfl
  simp only [h1, h2, h3, Ideal.addf_def]
  rfl

/-- The projected keys. -/
theorem v7_at (bb : Fin 8) (p : Fin 2048) (o : Fin 768) :
    val_main_v7 (F := Ideal) x1 x4 x5 (ix3 bb p o) = proj x1 x4 x5 bb p o := by
  rw [val_main_v7_apply, val_main_v4_apply, val_main_v6_apply, val_main_v5_apply]
  have h1 : ∀ e : Fin 768, lidx_main_v4 (ix3 bb p o) e = ix3 bb p e := fun e => by
    funext a; match a with | ⟨0, _⟩ => rfl | ⟨1, _⟩ => rfl | ⟨2, _⟩ => rfl
  have h2 : ∀ e : Fin 768, ridx_main_v4 (ix3 bb p o) e = ix2 o e := fun e => by
    funext a; match a with | ⟨0, _⟩ => rfl | ⟨1, _⟩ => rfl
  have h3 : idx_main_v5 (idx_main_v6 (ix3 bb p o)) = ix1 o := by
    funext a; match a with | ⟨0, _⟩ => rfl
  simp only [h1, h2, h3, Ideal.addf_def]
  rfl

/-- The projected values. -/
theorem v11_at (bb : Fin 8) (p : Fin 2048) (o : Fin 768) :
    val_main_v11 (F := Ideal) x2 x4 x5 (ix3 bb p o) = proj x2 x4 x5 bb p o := by
  rw [val_main_v11_apply, val_main_v8_apply, val_main_v10_apply, val_main_v9_apply]
  have h1 : ∀ e : Fin 768, lidx_main_v8 (ix3 bb p o) e = ix3 bb p e := fun e => by
    funext a; match a with | ⟨0, _⟩ => rfl | ⟨1, _⟩ => rfl | ⟨2, _⟩ => rfl
  have h2 : ∀ e : Fin 768, ridx_main_v8 (ix3 bb p o) e = ix2 o e := fun e => by
    funext a; match a with | ⟨0, _⟩ => rfl | ⟨1, _⟩ => rfl
  have h3 : idx_main_v9 (idx_main_v10 (ix3 bb p o)) = ix1 o := by
    funext a; match a with | ⟨0, _⟩ => rfl
  simp only [h1, h2, h3, Ideal.addf_def]
  rfl

/-- The word of minus infinity. -/
theorem neg_inf_word : Ideal.ofBits .f32 0xFF800000#32 = ⊥ := by simp [Ideal.ofBits, Ideal.ieee]

/-- The masked, scaled score of query position p against key position t. -/
def scoreAt (bb : Fin 8) (p t : Fin 2048) : EReal :=
  if x3 (ix3 bb p t) = 1#32 then ⊥
  else Ideal.div (∑ e : Fin 768, proj x0 x4 x5 bb p e * proj x1 x4 x5 bb t e) D

/-- The reference's masked scores are those. -/
theorem v17_at (bb : Fin 8) (p t : Fin 2048) :
    val_main_v17 (F := Ideal) x0 x1 x3 x4 x5 (ix3 bb p t) = scoreAt x0 x1 x3 x4 x5 bb p t := by
  rw [val_main_v17_apply, val_main_v16_apply, val_main_v15_apply, val_main_c_apply, val_main_call0_v1_apply,
    val_main_call0_v0_apply, val_main_cst_0_apply, val_main_v14_apply, val_main_v12_apply, val_main_v13_apply,
    val_main_cst_apply]
  have h1 : ∀ e : Fin 768, lidx_main_v12 (ix3 bb p t) e = ix3 bb p e := fun e => by
    funext a; match a with | ⟨0, _⟩ => rfl | ⟨1, _⟩ => rfl | ⟨2, _⟩ => rfl
  have h2 : ∀ e : Fin 768, ridx_main_v12 (ix3 bb p t) e = ix3 bb t e := fun e => by
    funext a; match a with | ⟨0, _⟩ => rfl | ⟨1, _⟩ => rfl | ⟨2, _⟩ => rfl
  simp only [h1, h2, v3_at, v7_at, Ideal.hostDivf_def, Ideal.ofBits_def]
  unfold scoreAt
  by_cases hm : x3 (ix3 bb p t) = 1#32
  · rw [if_pos hm, IntOp.cmpi_eq.mpr hm, select_one]
    exact neg_inf_word
  · rw [if_neg hm, eq_zero_of_ne_one (mt IntOp.cmpi_eq.mp hm), select_zero]
    rfl

end Stages

section Softmax

variable (x0 x1 x2 : (⟨S8x2048x768, .f32⟩ : BufTy).Contents (Elt Ideal)) (x3 : (⟨S8x2048x2048, .i32⟩ : BufTy).Contents (Elt Ideal))
  (x4 : (⟨S768x768, .f32⟩ : BufTy).Contents (Elt Ideal)) (x5 : (⟨S768, .f32⟩ : BufTy).Contents (Elt Ideal))

/-- Row (bb, p) of a [8, 2048, 2048] array with key position t put back on the last axis is (bb, p, t). -/
theorem lift_row (h : S8x2048x2048.Reduces [2] S8x2048) (bb : Fin 8) (p : Fin 2048) (t : Fin 2048) :
    h.lift (ix2 bb p) t = ix3 bb p t := by
  funext c; apply Fin.ext
  fin_cases c <;> rfl

/-- The reduce by maximum over the key axis is, at row (bb, p), the fold of maxima of that row's scores from minus
    infinity. -/
theorem v18_at (bb : Fin 8) (p : Fin 2048) :
    val_main_v18 (F := Ideal) x0 x1 x3 x4 x5 (ix2 bb p)
      = (Finset.univ : Finset (Fin 2048)).fold max ⊥ (scoreAt x0 x1 x3 x4 x5 bb p) := by
  unfold val_main_v18
  have h : S8x2048x2048.Reduces [2] S8x2048 := by decide
  rw [Host.reduce_eq_fold_single FloatOps.maximumf _ _ reducesTo_S8x2048x2048_S8x2048_d2 h h_S_]
  have hf : (val_main_v17 (F := Ideal) x0 x1 x3 x4 x5 ∘ h.lift (ix2 bb p)) = scoreAt x0 x1 x3 x4 x5 bb p :=
    funext fun t => (congrArg _ (lift_row h bb p t)).trans (v17_at x0 x1 x3 x4 x5 bb p t)
  have hi : val_main_cst_1 (F := Ideal) (Shape.Idx.first h_S_) = (⊥ : EReal) := neg_inf_word
  rw [hi]
  exact congrArg (fun f => Finset.fold max (⊥ : EReal) f (Finset.univ : Finset (Fin 2048))) hf

/-- The row maximum the reference subtracts. -/
theorem v20_at (bb : Fin 8) (p : Fin 2048) :
    val_main_v20 (F := Ideal) x0 x1 x3 x4 x5 (ix2 bb p)
      = max ⊥ ((Finset.univ : Finset (Fin 2048)).fold max ⊥ (scoreAt x0 x1 x3 x4 x5 bb p)) := by
  rw [val_main_v20_apply, val_main_v19_apply, val_main_cst_2_apply, v18_at, Ideal.ofBits_def, neg_inf_word]
  rfl

/-- The shifted exponential of a score. -/
theorem v24_at (bb : Fin 8) (p t : Fin 2048) :
    val_main_v24 (F := Ideal) x0 x1 x3 x4 x5 (ix3 bb p t)
      = Ideal.exp (scoreAt x0 x1 x3 x4 x5 bb p t
          - max ⊥ ((Finset.univ : Finset (Fin 2048)).fold max ⊥ (scoreAt x0 x1 x3 x4 x5 bb p))) := by
  rw [val_main_v24_apply, val_main_v23_apply, val_main_v22_apply, val_main_v21_apply, v17_at]
  have h1 : idx_main_v21 (idx_main_v22 (ix3 bb p t)) = ix2 bb p := by
    funext a; match a with | ⟨0, _⟩ => rfl | ⟨1, _⟩ => rfl
  rw [h1, v20_at]
  rfl

/-- The row sum of the shifted exponentials, started from zero. -/
theorem v25_at (bb : Fin 8) (p : Fin 2048) :
    val_main_v25 (F := Ideal) x0 x1 x3 x4 x5 (ix2 bb p)
      = 0 + ∑ t : Fin 2048, Ideal.exp (scoreAt x0 x1 x3 x4 x5 bb p t
          - max ⊥ ((Finset.univ : Finset (Fin 2048)).fold max ⊥ (scoreAt x0 x1 x3 x4 x5 bb p))) := by
  rw [val_main_v25_apply, val_main_cst_3_apply, Ideal.ofBits_def, Ideal.ofBits_zero_f32]
  have h1 : ∀ t : Fin 2048, idx_main_v25 (ix2 bb p) t = ix3 bb p t := fun t => by
    funext a; match a with | ⟨0, _⟩ => rfl | ⟨1, _⟩ => rfl | ⟨2, _⟩ => rfl
  simp only [h1, v24_at]

/-- The softmax weight of key position t in row (bb, p). -/
theorem v28_at (bb : Fin 8) (p t : Fin 2048) :
    val_main_v28 (F := Ideal) x0 x1 x3 x4 x5 (ix3 bb p t)
      = Ideal.div (Ideal.exp (scoreAt x0 x1 x3 x4 x5 bb p t
            - max ⊥ ((Finset.univ : Finset (Fin 2048)).fold max ⊥ (scoreAt x0 x1 x3 x4 x5 bb p))))
          (0 + ∑ t' : Fin 2048, Ideal.exp (scoreAt x0 x1 x3 x4 x5 bb p t'
            - max ⊥ ((Finset.univ : Finset (Fin 2048)).fold max ⊥ (scoreAt x0 x1 x3 x4 x5 bb p)))) := by
  rw [val_main_v28_apply, val_main_v27_apply, val_main_v26_apply, v24_at]
  have h1 : idx_main_v26 (idx_main_v27 (ix3 bb p t)) = ix2 bb p := by
    funext a; match a with | ⟨0, _⟩ => rfl | ⟨1, _⟩ => rfl
  rw [h1, v25_at]
  rfl

end Softmax

/-- THE REFERENCE IS THE SPECIFICATION: the reference program's result is masked single-head attention with the shared
    linear layer, the softmax taken over the keys as 4 chunks of 512. -/
theorem ref_eq_spec (x0 x1 x2 : (⟨S8x2048x768, .f32⟩ : BufTy).Contents (Elt Ideal)) (x3 : (⟨S8x2048x2048, .i32⟩ : BufTy).Contents (Elt Ideal))
    (x4 : (⟨S768x768, .f32⟩ : BufTy).Contents (Elt Ideal)) (x5 : (⟨S768, .f32⟩ : BufTy).Contents (Elt Ideal)) :
    Cert.ReferenceIdeal.Read.val_main_v29 (F := Ideal) x0 x1 x2 x3 x4 x5 = Attn.Spec.out x0 x1 x2 x3 x4 x5 := by
  funext i
  obtain ⟨bb, p, o, rfl⟩ : ∃ (bb : Fin 8) (p : Fin 2048) (o : Fin 768), i = ix3 bb p o := ⟨i 0, i 1, i 2, eq_ix3 i⟩
  rw [val_main_v29_apply]
  have h1 : ∀ t : Fin 2048, lidx_main_v29 (ix3 bb p o) t = ix3 bb p t := fun t => by
    funext a; match a with | ⟨0, _⟩ => rfl | ⟨1, _⟩ => rfl | ⟨2, _⟩ => rfl
  have h2 : ∀ t : Fin 2048, ridx_main_v29 (ix3 bb p o) t = ix3 bb t o := fun t => by
    funext a; match a with | ⟨0, _⟩ => rfl | ⟨1, _⟩ => rfl | ⟨2, _⟩ => rfl
  simp only [h1, h2, v28_at, v11_at]
  exact pooled_eq_wholeOut (scoreAt x0 x1 x3 x4 x5 bb p) (fun t => proj x2 x4 x5 bb t o)

end Cert.ReferenceIdeal.RefValue

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.PreReal.lean ====
/-
  What the precondition says, in plain terms.

  The precondition is a conjunction of six tests, each an "all" over an array:
  five of the form "every entry `x` has `|x| < +∞`" — that entry is then a real number — and one of the form
  "every row of the mask has an entry different from `1`", printed as an "or" over the last axis of the
  comparison `mask ≠ 1` under an "and" over the two remaining axes.

  An "and" that came out `1` met only `1`s. An "or" started at `0` that came out `1` met a `1`: there is an
  entry of the reduced row at which the comparison holds; the two kept coordinates of that entry are the row's.
-/
import proofs.«113779_j37349035606587_2_alg».proof.Pre_finite_inputs
import proofs.«113779_j37349035606587_2_alg».proof.Proof.LibEReal
import Idealize.ShloMosaic.Lib.ReduceAll
import Idealize.ShloMosaic.Lib.ValueIdx

noncomputable section

namespace Cert.PreReal

open Idealize.ShloMosaic Cert.Pre_finite_inputs

/-- A left fold by `or` over one-bit words that came out 1 started at 1 or met a 1. -/
theorem foldl_ori_eq_one {ι : Type} (f : ι → BitVec 1) :
    ∀ (l : List ι) (init : BitVec 1),
      l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

variable {s t u : Shape} {axes : List (Fin s.rank)}

/-- A reduction by `or` from an initial value other than 1 that is 1 at `j` had a 1 at some operand index that
    reduces into `j`. -/
theorem reduce_ori_eq_one (x : s.Idx → BitVec 1) (init : u.Idx → BitVec 1) (h : s.ReducesTo axes t) (hu : 0 < u.numel)
    (j : t.Idx) (hinit : init (Shape.Idx.first hu) ≠ 1#1) (e : Host.reduce IntOp.ori x init h hu j = 1#1) :
    ∃ i, h.drop i = j ∧ x i = 1#1 := by
  rw [Host.reduce_eq_foldl] at e
  rcases foldl_ori_eq_one x _ _ e with h0 | ⟨i, hi, hx⟩
  · exact absurd h0 hinit
  · rw [List.mem_filter] at hi
    exact ⟨i, by simpa using hi.2, hx⟩

instance : Subsingleton S_.Idx := ⟨fun a b => funext fun d => d.elim0⟩

/-- An array whose test "every entry has absolute value below +∞" came out 1 holds real numbers. -/
theorem real_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi (cmpf .olt (Host.absf x) (broadcastInDim S ![] hb (constant S_ .f32 0x7F800000#32)))
          (constantI S_ 1 1#1) hr hu ValueIdx.ix0 = 1#1) (i : S.Idx) : ∃ r : ℝ, x i = (r : EReal) := by
  have hi := Host.reduce_andi_all _ _ hr hu _ e i
  have hlt : Ideal.cmp .olt (max (x i) (-(x i))) (Ideal.ofBits .f32 0x7F800000#32) = 1#1 := hi
  exact Cert.LibEReal.real_of_abs_lt_top (x i) (Cert.LibEReal.lt_top_of_cmp _ hlt)

/-- A mask whose test "every row has an entry other than 1" came out 1 has such an entry in every row. -/
theorem row_has_ne_one (a3 : IVec S8x2048x2048 32)
    (hb : S_.BroadcastsInDim S8x2048x2048 (![] : Fin 0 → Fin S8x2048x2048.rank))
    (hr2 : S8x2048x2048.ReducesTo [2] S8x2048) (hr01 : S8x2048.ReducesTo [0, 1] S_) (hu : 0 < S_.numel)
    (e : Host.reduce IntOp.andi
          (Host.reduce IntOp.ori (cmpi .ne a3 (broadcastInDim S8x2048x2048 ![] hb (constantI S_ 32 1#32)))
            (constantI S_ 1 0#1) hr2 hu)
          (constantI S_ 1 1#1) hr01 hu ValueIdx.ix0 = 1#1)
    (bb : Fin 8) (p : Fin 2048) : ∃ t : Fin 2048, a3 (ValueIdx.ix3 bb p t) ≠ 1#32 := by
  have hrow := Host.reduce_andi_all _ _ hr01 hu _ e (ValueIdx.ix2 bb p)
  obtain ⟨i, hdrop, hi⟩ := reduce_ori_eq_one _ _ hr2 hu _ (show (0#1 : BitVec 1) ≠ 1#1 by decide) hrow
  have hne : a3 i ≠ 1#32 := IntOp.cmpi_ne.1 hi
  have e0 : ((hr2.drop i) 0 : Nat) = i 0 := Shape.ReducesTo.drop_apply_val_of_eq hr2 i 0 0
  have e1 : ((hr2.drop i) 1 : Nat) = i 1 := Shape.ReducesTo.drop_apply_val_of_eq hr2 i 1 1
  rw [hdrop] at e0 e1
  have h0 : i 0 = bb := Fin.ext e0.symm
  have h1 : i 1 = p := Fin.ext e1.symm
  have hi3 : i = ValueIdx.ix3 bb p (i 2) := by
    funext a
    match a with
    | ⟨0, _⟩ => exact h0
    | ⟨1, _⟩ => exact h1
    | ⟨2, _⟩ => rfl
  exact ⟨i 2, fun hcon => hne ((congrArg a3 hi3).trans hcon)⟩

/-- The precondition: every float input holds real numbers, and every mask row has an entry other than 1. -/
theorem pre_real [Cert.Pre_finite_inputs.Facts] (a0 a1 a2 : FVec Ideal Cert.Pre_finite_inputs.S8x2048x768 .f32)
    (a3 : IVec Cert.Pre_finite_inputs.S8x2048x2048 32) (a4 : FVec Ideal Cert.Pre_finite_inputs.S768x768 .f32)
    (a5 : FVec Ideal Cert.Pre_finite_inputs.S768 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a4 i = (r : EReal)) ∧ (∀ i, ∃ r : ℝ, a5 i = (r : EReal))
      ∧ (∀ (bb : Fin 8) (p : Fin 2048), ∃ t : Fin 2048, a3 (Idealize.ShloMosaic.ValueIdx.ix3 bb p t) ≠ 1#32) := by
  have h0 := congrFun h ValueIdx.ix0
  dsimp only [fn, fn_part1] at h0
  obtain ⟨h01245, h3⟩ := IntOp.andi_eq_one.1 h0
  obtain ⟨h0124, h5⟩ := IntOp.andi_eq_one.1 h01245
  obtain ⟨h012, h4⟩ := IntOp.andi_eq_one.1 h0124
  obtain ⟨h01, h2⟩ := IntOp.andi_eq_one.1 h012
  obtain ⟨h0', h1⟩ := IntOp.andi_eq_one.1 h01
  exact ⟨real_of_all a0 _ _ _ h0', real_of_all a1 _ _ _ h1, real_of_all a2 _ _ _ h2, real_of_all a4 _ _ _ h4,
    real_of_all a5 _ _ _ h5, row_has_ne_one a3 _ _ _ _ h3⟩

end Cert.PreReal

end
-- ==== Proof.FrameCondNamed.lean ====
/-
  The three launches of the program run one after the other, separated by host lines; the run below chains one segment
  record per launch and states, besides the arguments, that the result array `main_v9` ends at what the last launch
  leaves in it. Every argument array ends as launched because no host line and no launch writes one.
-/
import proofs.«113779_j37349035606587_2_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

variable (m : (ℓ : Loc nD τ sig) → Buf (Elt F) ℓ)

-- the implicit arguments are determined by the conclusion
set_option backward.isDefEq.respectTransparency.types false in
/-- The run of the three launches with the result named. Given, per kernel region, a segment record entered from the
    thread state before it and left at the one after it, every weakly fair execution of the program from memory `m`
    with zero counters terminates; every final memory holds each argument array as launched, and the result array
    `main_v9` at what the last region leaves in it (`outs 6 main_v9`). -/
theorem frame_cond_named {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v9) = outs 6 main_v9 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => s.mem ((c.tc : Thread nD τ).loc main_v9) = outs 6 main_v9 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- at the launch every unscoped buffer is held at its launch contents and the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end each buffer is read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨(h (Proc.devRef .tc main_v9) (Finset.mem_filter.mpr ⟨StableHlo.devRef_mem_tcRefs main_v9, by decide⟩)).trans (by simp only [V6, Function.update_self]),
        (h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c),
        (h (Proc.devRef .tc main_arg3) (Finset.mem_filter.mpr ⟨StableHlo.devRef_mem_tcRefs main_arg3, by decide⟩)).trans (V6_main_arg3 m outs c),
        (h (Proc.devRef .tc main_arg4) (Finset.mem_filter.mpr ⟨StableHlo.devRef_mem_tcRefs main_arg4, by decide⟩)).trans (V6_main_arg4 m outs c),
        (h (Proc.devRef .tc main_arg5) (Finset.mem_filter.mpr ⟨StableHlo.devRef_mem_tcRefs main_arg5, by decide⟩)).trans (V6_main_arg5 m outs c)⟩
    · iexact HSI

end Cert.KernelIdeal.Hand

end
-- ==== Proof.FrameProj.lean ====
import proofs.«113779_j37349035606587_2_alg».proof.Proof.Gen.KernelIdeal.Launch
import proofs.«113779_j37349035606587_2_alg».proof.Proof.Gen.KernelIdeal.Skeleton
import proofs.«113779_j37349035606587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! ## The bodies' accesses: each load and the store is of a whole buffer -/

abbrev rX : Rect S2048x768 := Rect.unit (s := S2048x768) ![0, 0] S2048x768.size inb_S2048x768_S2048x768_0_0
abbrev rW : Rect S768x768 := Rect.unit (s := S768x768) ![0, 0] S768x768.size inb_S768x768_S768x768_0_0
abbrev rB : Rect S1x768 := Rect.unit (s := S1x768) ![0, 0] S1x768.size inb_S1x768_S1x768_0_0
abbrev rOut : Rect S2048x768 := Rect.unit (s := S2048x768) ![0, 0] S2048x768.size inb_S2048x768_S2048x768_0_0

theorem hzXY : (![0, 0] : Fin 2 → Nat) = fun _ => 0 := funext fun a => by fin_cases a <;> rfl

/-! # Region 0: the projection kernel of custom_call 0, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows to project, one block of 2048 rows per point): its current staging buffer holds its
    block at every point, for any proof data whose array is the entry contents and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, one block for the whole grid): fetched at the first point only, its block
    index never moves, so its buffer holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, one block for the whole grid): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The output buffer after the body, from the input windows' blocks: its one whole-buffer store, of the
    projection of the three loaded values. -/
def out0_3 (x0 : Vec F S2048x768 .f32) (x1 : Vec F S768x768 .bf16) (x2 : Vec F S1x768 .f32) : Vec F S2048x768 .bf16 :=
  View.canon [⟨rOut, k0_pay1 (View.ld x0 rX) (View.ld x1 rW) (View.ld x2 rB)⟩]

/-- The one store covers the buffer. -/
theorem cover0_3 (p0 : Vec F S2048x768 .bf16) (y : S2048x768.Idx) :
    ∃ pc ∈ ([⟨rOut, p0⟩] : List (View.Piece (Elt F) S2048x768 .bf16)), y ∈ pc.1.set :=
  View.cover_of_tiled [⟨rOut, p0⟩] S2048x768.size (by rfl) y

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords)
    (arg1 : Memref sig .tc .vmem S2048x768 .f32) (harg1 : arg1.IsWhole) (arg2 : Memref sig .tc .vmem S768x768 .bf16) (harg2 : arg2.IsWhole)
    (arg3 : Memref sig .tc .vmem S1x768 .f32) (harg3 : arg3.IsWhole) (arg4 : Memref sig .tc .vmem S2048x768 .bf16) (harg4 : arg4.IsWhole)
    (x0 : Vec F S2048x768 .f32) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output block as a value -/

/-- One whole-buffer store leaves its payload, and a load through the whole rectangle reads the buffer itself: the
    output block is the projection of the three input blocks. -/
theorem out0_3_eq (x0 : Vec F S2048x768 .f32) (x1 : Vec F S768x768 .bf16) (x2 : Vec F S1x768 .f32) :
    out0_3 (F := F) x0 x1 x2 = k0_pay1 x0 x1 x2 := by
  unfold out0_3
  rw [View.canon_unit_zero hzXY]
  simp only [View.ld_unit_zero (S := S2048x768) hzXY, View.ld_unit_zero (S := S768x768) hzXY, View.ld_unit_zero (S := S1x768) hzXY]

/-! # Region 1: the projection kernel of custom_call 1, at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows to project, one block of 2048 rows per point): its current staging buffer holds its
    block at every point, for any proof data whose array is the entry contents and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight matrix, one block for the whole grid): fetched at the first point only, its block
    index never moves, so its buffer holds the block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias row, one block for the whole grid): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The output buffer after the body, from the input windows' blocks: its one whole-buffer store, of the
    projection of the three loaded values. -/
def out1_3 (x0 : Vec F S2048x768 .f32) (x1 : Vec F S768x768 .bf16) (x2 : Vec F S1x768 .f32) : Vec F S2048x768 .bf16 :=
  View.canon [⟨rOut, k1_pay1 (View.ld x0 rX) (View.ld x1 rW) (View.ld x2 rB)⟩]

/-- The one store covers the buffer. -/
theorem cover1_3 (p0 : Vec F S2048x768 .bf16) (y : S2048x768.Idx) :
    ∃ pc ∈ ([⟨rOut, p0⟩] : List (View.Piece (Elt F) S2048x768 .bf16)), y ∈ pc.1.set :=
  View.cover_of_tiled [⟨rOut, p0⟩] S2048x768.size (by rfl) y

/-! ## The body's triple -/

set_option maxHeartbeats 1000000 in
/-- The kernel body on whole staging memrefs, the inputs' at read contents `x0 x1 x2` and the output's at anything,
    runs to the continuation holding the inputs' as they were and the output's at `out1_3` of the inputs'. -/
theorem sound_kernel1 (c : Dev nD) (E : Set ℕ) (i : grid1.Coords)
    (arg1 : Memref sig .tc .vmem S2048x768 .f32) (harg1 : arg1.IsWhole) (arg2 : Memref sig .tc .vmem S768x768 .bf16) (harg2 : arg2.IsWhole)
    (arg3 : Memref sig .tc .vmem S1x768 .f32) (harg3 : arg3.IsWhole) (arg4 : Memref sig .tc .vmem S2048x768 .bf16) (harg4 : arg4.IsWhole)
    (x0 : Vec F S2048x768 .f32) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__project_kernel i arg1 harg1 arg2 harg2 arg3 harg3 arg4 harg4) K := by
  simp only [cc1__project_kernel_eq_skeleton]; unfold cc1__project_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The output block as a value -/

/-- One whole-buffer store leaves its payload, and a load through the whole rectangle reads the buffer itself: the
    output block is the projection of the three input blocks. -/
theorem out1_3_eq (x0 : Vec F S2048x768 .f32) (x1 : Vec F S768x768 .bf16) (x2 : Vec F S1x768 .f32) :
    out1_3 (F := F) x0 x1 x2 = k1_pay1 x0 x1 x2 := by
  unfold out1_3
  rw [View.canon_unit_zero hzXY]
  simp only [View.ld_unit_zero (S := S2048x768) hzXY, View.ld_unit_zero (S := S768x768) hzXY, View.ld_unit_zero (S := S1x768) hzXY]

end Cert.KernelIdeal.Hand

end
-- ==== Proof.FrameAttnRuns.lean ====
import proofs.«113779_j37349035606587_2_alg».proof.Proof.Gen.KernelIdeal.Launch
import proofs.«113779_j37349035606587_2_alg».proof.Proof.Gen.KernelIdeal.Skeleton
import proofs.«113779_j37349035606587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! ## The attention kernel's branch conditions

The body has two conditionals, both on the innermost grid coordinate (the key-chunk index): the first key chunk
of a (batch, query-tile) pair resets the carried arrays and projects the query tile; the last one stores the output tile. -/

/-- The condition of the body's first conditional ("this is the first key chunk"), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 4) — decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second conditional ("this is the last key chunk"), from the grid coordinates. -/
abbrev cond2_1 (i : grid2.Coords) : Prop := k2_cond2 i = 1#1
/-- It holds at the points ≡ 3 (mod 4) — decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- Window 0 (the query tile) is never idle: an input. -/
theorem liveAt2_0 : ∀ t : Fin cfg2.N, cfg2.idle 0 (grid2.coords t) = false := by decide +kernel
/-- Window 1 (the key chunk) is never idle: an input. -/
theorem liveAt2_1 : ∀ t : Fin cfg2.N, cfg2.idle 1 (grid2.coords t) = false := by decide +kernel
/-- Window 2 (the value chunk) is never idle: an input. -/
theorem liveAt2_2 : ∀ t : Fin cfg2.N, cfg2.idle 2 (grid2.coords t) = false := by decide +kernel
/-- Window 3 (the mask tile) is never idle: an input. -/
theorem liveAt2_3 : ∀ t : Fin cfg2.N, cfg2.idle 3 (grid2.coords t) = false := by decide +kernel
/-- Window 4 (the projection matrix) is never idle: an input. -/
theorem liveAt2_4 : ∀ t : Fin cfg2.N, cfg2.idle 4 (grid2.coords t) = false := by decide +kernel
/-- Window 5 (the projection bias) is never idle: an input. -/
theorem liveAt2_5 : ∀ t : Fin cfg2.N, cfg2.idle 5 (grid2.coords t) = false := by decide +kernel
/-- At the first key chunk the output tile is idle: nothing is stored into it. -/
theorem idleAt2_6_A : ∀ t : Fin cfg2.N, cond2_0 (grid2.coords t) → ¬cond2_1 (grid2.coords t) → cfg2.idle 6 (grid2.coords t) = true := by decide +kernel
/-- At the first key chunk the output tile is not written back. -/
theorem noFlush2_6_A : ∀ t : Fin cfg2.N, cond2_0 (grid2.coords t) → ¬cond2_1 (grid2.coords t) → (cfg2.win 6).flush t = false := by decide +kernel
/-- At a middle key chunk the output tile is idle: nothing is stored into it. -/
theorem idleAt2_6_B : ∀ t : Fin cfg2.N, ¬cond2_0 (grid2.coords t) → ¬cond2_1 (grid2.coords t) → cfg2.idle 6 (grid2.coords t) = true := by decide +kernel
/-- At a middle key chunk the output tile is not written back. -/
theorem noFlush2_6_B : ∀ t : Fin cfg2.N, ¬cond2_0 (grid2.coords t) → ¬cond2_1 (grid2.coords t) → (cfg2.win 6).flush t = false := by decide +kernel
/-- At the last key chunk the output tile is live: the body stores into it. -/
theorem liveAt2_6_C : ∀ t : Fin cfg2.N, ¬cond2_0 (grid2.coords t) → cond2_1 (grid2.coords t) → cfg2.idle 6 (grid2.coords t) = false := by decide +kernel

/-! ## The staging and scratch memrefs -/

/-- One staging buffer of the output window, through which its contents are stated (the choice does not matter). -/
abbrev VO2_6 : View sig .tc .vmem S1x1024x768 .f32 := (Memref.whole cc2_stg6_0 : Memref sig .tc .vmem S1x1024x768 .f32).view
/-- Each window's current staging memref at point `t`, as the pipeline passes it to the body, and its wholeness. -/
abbrev ms2_0 (t : Fin cfg2.N) : Memref sig .tc .vmem S1x1024x768 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x768 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x768 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x512 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S768x768 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x768 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024x768 .f32 := win2_6.stage (cfg2.slots t 6)
abbrev hs2_6 (t : Fin cfg2.N) : (ms2_6 t).IsWhole := hstage2_6 ((cfg2.slots t 6).cast nbuf2_6)

/-- The running row maximum: a whole scoped buffer of the kernel's own. -/
abbrev scM2_0 : Memref sig .tc .vmem S1x1024x1 .f32 := Memref.whole cc2_scratch0
/-- The running denominator. -/
abbrev scM2_1 : Memref sig .tc .vmem S1x1024x1 .f32 := Memref.whole cc2_scratch1
/-- The running numerator. -/
abbrev scM2_2 : Memref sig .tc .vmem S1x1024x768 .f32 := Memref.whole cc2_scratch2
/-- The projected query tile. -/
abbrev scM2_3 : Memref sig .tc .vmem S1x1024x768 .bf16 := Memref.whole cc2_scratch3
/-- The carried arrays as views: what each holds is stated through these. -/
abbrev VS2_0 : View sig .tc .vmem S1x1024x1 .f32 := scM2_0.view
abbrev VS2_1 : View sig .tc .vmem S1x1024x1 .f32 := scM2_1.view
abbrev VS2_2 : View sig .tc .vmem S1x1024x768 .f32 := scM2_2.view
abbrev VS2_3 : View sig .tc .vmem S1x1024x768 .bf16 := scM2_3.view

/-- The region's invariant, conjunct by conjunct: the other kernels' staging buffers at some contents, the four
    carried arrays owned at some contents, the generator register at some state — what the body obligation hands the
    run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ (∃ r, prngReg c r)) := by
  unfold Pipeline.ΦA; rw [scopedRest2_eq]; simp only [scM2_0, scM2_1, scM2_2, scM2_3, owns_whole]; try rfl

end Cert.KernelIdeal.Hand

end
-- ==== Proof.FrameAttnRunB.lean ====
import proofs.«113779_j37349035606587_2_alg».proof.Proof.Gen.KernelIdeal.Launch
import proofs.«113779_j37349035606587_2_alg».proof.Proof.Gen.KernelIdeal.Skeleton
import proofs.«113779_j37349035606587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.FrameAttnRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

set_option maxHeartbeats 4000000 in
/-- A middle key chunk (neither the first nor the last of its query tile): on whole staging memrefs — the six inputs at
    their contents, the output tile's buffer at contents `xi6`, the four carried arrays at what the chunk before left
    (`xs·`) — the body runs to the continuation holding the inputs and the output tile's buffer as they were, the running
    maximum, denominator and numerator with the pieces of the chunk's stores written (`LS0`, `LS1`, `LS2`), and the
    projected queries, which this chunk only reads, still at `xs3` (no pieces: `LS3 = []`). -/
noncomputable def kernelRun2_B (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    Σ' (L6 : List (View.Piece (Elt F) S1x1024x768 .f32)) (LS0 LS1 : List (View.Piece (Elt F) S1x1024x1 .f32)) (LS2 : List (View.Piece (Elt F) S1x1024x768 .f32)), { LS3 : List (View.Piece (Elt F) S1x1024x768 .bf16) //
      ∀ (xi6 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ owns (c : Thread nD τ) arg13 fullShare xs3) -∗ K ⟨⟩))
          ⊢ wp frame (wpE (defs₀ (F := F)) Variants.none c none) E (cc2__attn_kernel i arg3 harg3 arg4 harg4 arg5 harg5 arg6 harg6 arg7 harg7 arg8 harg8 arg9 harg9 arg10 harg10 arg11 harg11 arg12 harg12 arg13 harg13) K } := by
  refine ⟨[], ?_, ?_, ?_, [], fun xi6 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    isplitl [HS2]; · iexists _; iexact HS2
    iexists _; isplitr; · ipureintro; exact harg13.read_unread _
    iexact HS3

end Cert.KernelIdeal.Hand

end
-- ==== Proof.FrameAttnRunA.lean ====
import proofs.«113779_j37349035606587_2_alg».proof.Proof.Gen.KernelIdeal.Launch
import proofs.«113779_j37349035606587_2_alg».proof.Proof.Gen.KernelIdeal.Skeleton
import proofs.«113779_j37349035606587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.FrameAttnRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

set_option maxHeartbeats 4000000 in
/-- The first key chunk of a query tile: on whole staging memrefs — the six inputs at their contents, the output
    tile's buffer at contents `xi6`, the four carried arrays at anything (the body stores each whole before it uses what
    it holds) — the body runs to the continuation holding the inputs and the output tile's buffer as they were and each
    carried array with the pieces of its stores written (`LS0` … `LS3`: the reset, then the chunk's update). -/
noncomputable def kernelRun2_A (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) :
    Σ' (L6 : List (View.Piece (Elt F) S1x1024x768 .f32)) (LS0 LS1 : List (View.Piece (Elt F) S1x1024x1 .f32)) (LS2 : List (View.Piece (Elt F) S1x1024x768 .f32)), { LS3 : List (View.Piece (Elt F) S1x1024x768 .bf16) //
      ∀ (xi6 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__attn_kernel i arg3 harg3 arg4 harg4 arg5 harg5 arg6 harg6 arg7 harg7 arg8 harg8 arg9 harg9 arg10 harg10 arg11 harg11 arg12 harg12 arg13 harg13) K } := by
  refine ⟨[], ?_, ?_, ?_, ?_, fun xi6 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    isplitl [HS2]; · iexists _; iexact HS2
    iexists _; iexact HS3

end Cert.KernelIdeal.Hand

end
-- ==== Proof.FrameAttnRunC.lean ====
import proofs.«113779_j37349035606587_2_alg».proof.Proof.Gen.KernelIdeal.Launch
import proofs.«113779_j37349035606587_2_alg».proof.Proof.Gen.KernelIdeal.Skeleton
import proofs.«113779_j37349035606587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.FrameAttnRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

set_option maxHeartbeats 4000000 in
/-- The last key chunk of a query tile: on whole staging memrefs — the six inputs at their contents, the output tile's
    buffer at anything, the four carried arrays at what the chunk before left (`xs·`) — the body runs to the
    continuation holding the inputs as they were, the output tile's buffer with the piece of its store written (`L6`),
    the running maximum, denominator and numerator with the pieces of the chunk's stores written (`LS0`, `LS1`,
    `LS2`), and the projected queries, which this chunk only reads, still at `xs3` (no pieces: `LS3 = []`). -/
noncomputable def kernelRun2_C (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    Σ' (L6 : List (View.Piece (Elt F) S1x1024x768 .f32)) (LS0 LS1 : List (View.Piece (Elt F) S1x1024x1 .f32)) (LS2 : List (View.Piece (Elt F) S1x1024x768 .f32)), { LS3 : List (View.Piece (Elt F) S1x1024x768 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ owns (c : Thread nD τ) arg13 fullShare xs3) -∗ K ⟨⟩))
          ⊢ wp frame (wpE (defs₀ (F := F)) Variants.none c none) E (cc2__attn_kernel i arg3 harg3 arg4 harg4 arg5 harg5 arg6 harg6 arg7 harg7 arg8 harg8 arg9 harg9 arg10 harg10 arg11 harg11 arg12 harg12 arg13 harg13) K } := by
  refine ⟨?_, ?_, ?_, ?_, [], fun E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    isplitl [HS2]; · iexists _; iexact HS2
    iexists _; isplitr; · ipureintro; exact harg13.read_unread _
    iexact HS3

end Cert.KernelIdeal.Hand

end
-- ==== Proof.AttnStep.lean ====
/-
  One grid point of the attention kernel as a pure function of what it reads.

  The kernel keeps four arrays between the key-chunk steps of one (batch, query-tile) pair: the running row maximum
  `mx`, the running denominator `dn`, the running numerator `ac` and the projected queries `qp`. At the first
  key chunk it resets the first three and computes `qp` from the query tile (`reset…`); at every chunk it folds the
  chunk's keys, values and mask into them (`step…`); at the last chunk the output tile is numerator over denominator
  (`finish`). Each function below is the composition of the body's operations between two memory accesses, named
  after the generated payloads it is made of.
-/
import proofs.«113779_j37349035606587_2_alg».proof.Proof.Gen.KernelIdeal.Skeleton

noncomputable section

namespace Cert.KernelIdeal.Attn

open Idealize.ShloMosaic Cert.KernelIdeal Cert.KernelIdeal.Gen

variable {F : FTy → Type} [FloatOps F] [Named F] [Facts]

/-- The running maximum after a reset: `-∞` in every row. -/
def resetMx : Vec F S1x1024x1 .f32 := k2_pay5 (F := F)
/-- The running denominator after a reset: zero. -/
def resetDn : Vec F S1x1024x1 .f32 := k2_pay6 (F := F)
/-- The running numerator after a reset: zero. -/
def resetAc : Vec F S1x1024x768 .f32 := k2_pay7 (F := F)
/-- The projected query tile `x · Wᵀ + b`. -/
def resetQp (xq : Vec F S1x1024x768 .f32) (xw : Vec F S768x768 .bf16) (xb : Vec F S1x768 .f32) : Vec F S1x1024x768 .bf16 :=
  k2_pay8 xq xw xb

/-- The running maximum after a key chunk: the old one against the chunk's masked, scaled scores. -/
def stepMx (mx : Vec F S1x1024x1 .f32) (qp : Vec F S1x1024x768 .bf16) (xk : Vec F S1x512x768 .bf16)
    (xm : Vec F S1x1024x512 .i32) : Vec F S1x1024x1 .f32 :=
  k2_pay3 (k2_pay11 qp xk xm mx)
/-- The running denominator after a key chunk: the old one rescaled, plus the chunk's weights. -/
def stepDn (mx dn : Vec F S1x1024x1 .f32) (qp : Vec F S1x1024x768 .bf16) (xk : Vec F S1x512x768 .bf16)
    (xm : Vec F S1x1024x512 .i32) : Vec F S1x1024x1 .f32 :=
  k2_pay1 (k2_pay13 qp xk xm mx) (k2_pay14 qp xk xm mx mx dn)
/-- The running numerator after a key chunk: the old one rescaled, plus the chunk's weighted values. -/
def stepAc (mx : Vec F S1x1024x1 .f32) (ac : Vec F S1x1024x768 .f32) (qp : Vec F S1x1024x768 .bf16)
    (xk xv : Vec F S1x512x768 .bf16) (xm : Vec F S1x1024x512 .i32) : Vec F S1x1024x768 .f32 :=
  k2_pay2 (k2_pay9 xv) (k2_pay12 qp xk xm mx mx) (k2_pay13 qp xk xm mx) ac
/-- The output tile: numerator over denominator. -/
def finish (ac : Vec F S1x1024x768 .f32) (dn : Vec F S1x1024x1 .f32) : Vec F S1x1024x768 .f32 :=
  k2_pay4 ac dn

end Cert.KernelIdeal.Attn

end
-- ==== Proof.FrameAttnPieces.lean ====
import proofs.«113779_j37349035606587_2_alg».proof.Proof.Gen.KernelIdeal.Launch
import proofs.«113779_j37349035606587_2_alg».proof.Proof.Gen.KernelIdeal.Skeleton
import proofs.«113779_j37349035606587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.FrameAttnRunC
import proofs.«113779_j37349035606587_2_alg».proof.Proof.AttnStep
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! # What the attention kernel's stores leave, case by case

Each case's run finds, per buffer, the pieces its stores wrote. Every store of this body covers its whole buffer, so what
a buffer holds after the body is the payload of its last store; read back, each is one of the step functions of the
carried arrays and the chunk's inputs. -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## The first key chunk -/

/-- This case stores nothing into the output tile (the window is idle at its points and not written back there):
    a placeholder that nothing consults. -/
def out2_A_6 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) : Vec F S1x1024x768 .f32 :=
  VO2_6.read (Elt F) (VO2_6.writes (Elt F) VO2_6.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).1)

/-- The running maximum's pieces in this case cover it. -/
theorem scover2_A_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (y : S1x1024x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1 S1x1024x1.size (by sl_kernel_rfl) y

/-- What this case leaves in the running maximum: its pieces read back. -/
def sout2_A_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) : Vec F S1x1024x1 .f32 :=
  VS2_0.read (Elt F) (VS2_0.writes (Elt F) VS2_0.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1)

/-- The running denominator's pieces in this case cover it. -/
theorem scover2_A_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (y : S1x1024x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1 S1x1024x1.size (by sl_kernel_rfl) y

/-- What this case leaves in the running denominator: its pieces read back. -/
def sout2_A_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) : Vec F S1x1024x1 .f32 :=
  VS2_1.read (Elt F) (VS2_1.writes (Elt F) VS2_1.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1)

/-- The running numerator's pieces in this case cover it. -/
theorem scover2_A_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (y : S1x1024x768.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1 S1x1024x768.size (by sl_kernel_rfl) y

/-- What this case leaves in the running numerator: its pieces read back. -/
def sout2_A_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) : Vec F S1x1024x768 .f32 :=
  VS2_2.read (Elt F) (VS2_2.writes (Elt F) VS2_2.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1)

/-- The projected queries's pieces in this case cover it. -/
theorem scover2_A_3 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (y : S1x1024x768.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1 S1x1024x768.size (by sl_kernel_rfl) y

/-- What this case leaves in the projected queries: its pieces read back. -/
def sout2_A_3 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) : Vec F S1x1024x768 .bf16 :=
  VS2_3.read (Elt F) (VS2_3.writes (Elt F) VS2_3.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1)

/-! ## A middle key chunk -/

/-- This case stores nothing into the output tile (the window is idle at its points and not written back there):
    a placeholder that nothing consults. -/
def out2_B_6 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x768 .f32 :=
  VO2_6.read (Elt F) (VO2_6.writes (Elt F) VO2_6.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1)

/-- The running maximum's pieces in this case cover it. -/
theorem scover2_B_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 S1x1024x1.size (by sl_kernel_rfl) y

/-- What this case leaves in the running maximum: its pieces read back. -/
def sout2_B_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x1 .f32 :=
  VS2_0.read (Elt F) (VS2_0.writes (Elt F) VS2_0.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1)

/-- The running denominator's pieces in this case cover it. -/
theorem scover2_B_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 S1x1024x1.size (by sl_kernel_rfl) y

/-- What this case leaves in the running denominator: its pieces read back. -/
def sout2_B_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x1 .f32 :=
  VS2_1.read (Elt F) (VS2_1.writes (Elt F) VS2_1.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1)

/-- The running numerator's pieces in this case cover it. -/
theorem scover2_B_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x768.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 S1x1024x768.size (by sl_kernel_rfl) y

/-- What this case leaves in the running numerator: its pieces read back. -/
def sout2_B_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x768 .f32 :=
  VS2_2.read (Elt F) (VS2_2.writes (Elt F) VS2_2.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1)

/-! ## The last key chunk -/

/-- The last key chunk's one store into the output tile covers it. -/
theorem cover2_C_6 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x768.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 S1x1024x768.size (by sl_kernel_rfl) y

/-- What the last key chunk leaves in the output tile's staging buffer: its piece read back. -/
def out2_C_6 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x768 .f32 :=
  VO2_6.read (Elt F) (VO2_6.writes (Elt F) VO2_6.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1)

/-- The running maximum's pieces in this case cover it. -/
theorem scover2_C_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x1.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 S1x1024x1.size (by sl_kernel_rfl) y

/-- What this case leaves in the running maximum: its pieces read back. -/
def sout2_C_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x1 .f32 :=
  VS2_0.read (Elt F) (VS2_0.writes (Elt F) VS2_0.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1)

/-- The running denominator's pieces in this case cover it. -/
theorem scover2_C_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x1.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 S1x1024x1.size (by sl_kernel_rfl) y

/-- What this case leaves in the running denominator: its pieces read back. -/
def sout2_C_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x1 .f32 :=
  VS2_1.read (Elt F) (VS2_1.writes (Elt F) VS2_1.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1)

/-- The running numerator's pieces in this case cover it. -/
theorem scover2_C_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x768.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 S1x1024x768.size (by sl_kernel_rfl) y

/-- What this case leaves in the running numerator: its pieces read back. -/
def sout2_C_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x768 .f32 :=
  VS2_2.read (Elt F) (VS2_2.writes (Elt F) VS2_2.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1)

/-! ## The found pieces as values -/

/-- After the first key chunk the running maximum is one step from the reset value over the freshly projected queries. -/
theorem sout2_A_0_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) :
    sout2_A_0 c i arg3 harg3 arg4 harg4 arg5 harg5 arg6 harg6 arg7 harg7 arg8 harg8 arg9 harg9 arg10 harg10 arg11 harg11 arg12 harg12 arg13 harg13 hc0 hc1 x0 x1 x2 x3 x4 x5 = Attn.stepMx Attn.resetMx (Attn.resetQp x0 x4 x5) x1 x3 := by
  unfold sout2_A_0
  rw [View.read_writes_eq_canon _ _ _ (scover2_A_0 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepMx Attn.resetMx Attn.resetQp
  rfl

/-- After the first key chunk the running denominator is one step from the reset values. -/
theorem sout2_A_1_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) :
    sout2_A_1 c i arg3 harg3 arg4 harg4 arg5 harg5 arg6 harg6 arg7 harg7 arg8 harg8 arg9 harg9 arg10 harg10 arg11 harg11 arg12 harg12 arg13 harg13 hc0 hc1 x0 x1 x2 x3 x4 x5 = Attn.stepDn Attn.resetMx Attn.resetDn (Attn.resetQp x0 x4 x5) x1 x3 := by
  unfold sout2_A_1
  rw [View.read_writes_eq_canon _ _ _ (scover2_A_1 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepDn Attn.resetMx Attn.resetDn Attn.resetQp
  rfl

/-- After the first key chunk the running numerator is one step from the reset values. -/
theorem sout2_A_2_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) :
    sout2_A_2 c i arg3 harg3 arg4 harg4 arg5 harg5 arg6 harg6 arg7 harg7 arg8 harg8 arg9 harg9 arg10 harg10 arg11 harg11 arg12 harg12 arg13 harg13 hc0 hc1 x0 x1 x2 x3 x4 x5 = Attn.stepAc Attn.resetMx Attn.resetAc (Attn.resetQp x0 x4 x5) x1 x2 x3 := by
  unfold sout2_A_2
  rw [View.read_writes_eq_canon _ _ _ (scover2_A_2 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_run_names
  first | rw [View.canon_unit_zero (S := S1x1024x768) hz3] | rw [View.canon_cons_unit_zero (S := S1x1024x768) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepAc Attn.resetMx Attn.resetAc Attn.resetQp
  rfl

/-- The first key chunk leaves the projected query tile in the fourth carried array. -/
theorem sout2_A_3_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) :
    sout2_A_3 c i arg3 harg3 arg4 harg4 arg5 harg5 arg6 harg6 arg7 harg7 arg8 harg8 arg9 harg9 arg10 harg10 arg11 harg11 arg12 harg12 arg13 harg13 hc0 hc1 x0 x1 x2 x3 x4 x5 = Attn.resetQp x0 x4 x5 := by
  unfold sout2_A_3
  rw [View.read_writes_eq_canon _ _ _ (scover2_A_3 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_run_names
  first | rw [View.canon_unit_zero (S := S1x1024x768) hz3] | rw [View.canon_cons_unit_zero (S := S1x1024x768) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.resetQp
  rfl

/-- A middle key chunk's running maximum: one step from what the chunk before left. -/
theorem sout2_B_0_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_B_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepMx xs0 xs3 x1 x3 := by
  unfold sout2_B_0
  rw [View.read_writes_eq_canon _ _ _ (scover2_B_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_B
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepMx
  rfl

/-- A middle key chunk's running denominator: one step from what the chunk before left. -/
theorem sout2_B_1_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepDn xs0 xs1 xs3 x1 x3 := by
  unfold sout2_B_1
  rw [View.read_writes_eq_canon _ _ _ (scover2_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_B
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepDn
  rfl

/-- A middle key chunk's running numerator: one step from what the chunk before left. -/
theorem sout2_B_2_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_B_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepAc xs0 xs2 xs3 x1 x2 x3 := by
  unfold sout2_B_2
  rw [View.read_writes_eq_canon _ _ _ (scover2_B_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_B
  dsimp only
  sl_unfold_run_names
  first | rw [View.canon_unit_zero (S := S1x1024x768) hz3] | rw [View.canon_cons_unit_zero (S := S1x1024x768) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepAc
  rfl

/-- The last key chunk's running maximum: one step from what the chunk before left. -/
theorem sout2_C_0_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_C_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepMx xs0 xs3 x1 x3 := by
  unfold sout2_C_0
  rw [View.read_writes_eq_canon _ _ _ (scover2_C_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_C
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepMx
  rfl

/-- The last key chunk's running denominator: one step from what the chunk before left. -/
theorem sout2_C_1_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_C_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepDn xs0 xs1 xs3 x1 x3 := by
  unfold sout2_C_1
  rw [View.read_writes_eq_canon _ _ _ (scover2_C_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_C
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepDn
  rfl

/-- The last key chunk's running numerator: one step from what the chunk before left. -/
theorem sout2_C_2_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_C_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepAc xs0 xs2 xs3 x1 x2 x3 := by
  unfold sout2_C_2
  rw [View.read_writes_eq_canon _ _ _ (scover2_C_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_C
  dsimp only
  sl_unfold_run_names
  first | rw [View.canon_unit_zero (S := S1x1024x768) hz3] | rw [View.canon_cons_unit_zero (S := S1x1024x768) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepAc
  rfl

/-- The output tile the last key chunk stores: the updated numerator over the updated denominator. -/
theorem out2_C_6_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    out2_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.finish (Attn.stepAc xs0 xs2 xs3 x1 x2 x3) (Attn.stepDn xs0 xs1 xs3 x1 x3) := by
  unfold out2_C_6
  rw [View.read_writes_eq_canon _ _ _ (cover2_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_C
  dsimp only
  sl_unfold_run_names
  first | rw [View.canon_unit_zero (S := S1x1024x768) hz3] | rw [View.canon_cons_unit_zero (S := S1x1024x768) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.finish Attn.stepAc Attn.stepDn
  rfl

end Cert.KernelIdeal.Hand

end
-- ==== Proof.FrameAttnData.lean ====
import proofs.«113779_j37349035606587_2_alg».proof.Proof.Gen.KernelIdeal.Launch
import proofs.«113779_j37349035606587_2_alg».proof.Proof.Gen.KernelIdeal.Skeleton
import proofs.«113779_j37349035606587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.FrameAttnPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! # The attention launch: what its buffers hold point by point, and the body obligation

The grid has 64 points, four consecutive key chunks for each (batch, query tile) pair. The six input windows hold
their blocks at every point. The four carried arrays and the output tile are followed point by point: the first key
chunk of a pair resets the carried arrays, a middle one folds its chunk into them, the last one also stores the
output tile. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the query tile): its current staging buffer holds its block at every point, fetched there or not
    (unfetched, the block index has not moved), for any proof data whose array is the entry contents and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the key chunk): its current staging buffer holds its block at every point, fetched there or not
    (unfetched, the block index has not moved), for any proof data whose array is the entry contents and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the value chunk): its current staging buffer holds its block at every point, fetched there or not
    (unfetched, the block index has not moved), for any proof data whose array is the entry contents and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the mask tile): its current staging buffer holds its block at every point, fetched there or not
    (unfetched, the block index has not moved), for any proof data whose array is the entry contents and whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the projection matrix): its current staging buffer holds its block at every point, fetched there or not
    (unfetched, the block index has not moved), for any proof data whose array is the entry contents and whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the projection bias): its current staging buffer holds its block at every point, fetched there or not
    (unfetched, the block index has not moved), for any proof data whose array is the entry contents and whose body
    leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the output tile and the carried arrays hold after each point -/

/-- After the body at a first key chunk: the output tile's buffer untouched (a placeholder nothing consults), the
    running maximum, denominator and numerator reset and then folded with the chunk, the projected queries computed. -/
def ptA2 (c : Dev nD) (t : Fin cfg2.N) (h0 : t.val % 4 = 0) (h1 : ¬t.val % 4 = 3) : Vec F S1x1024x768 .f32 × (Vec F S1x1024x1 .f32 × Vec F S1x1024x1 .f32 × Vec F S1x1024x768 .f32 × Vec F S1x1024x768 .bf16) :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
   (sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
    sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
    sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
    sout2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)))

/-- After the body at a middle key chunk, over what the point before left in the carried arrays (`p`): the output
    tile's buffer untouched, the running maximum, denominator and numerator folded with the chunk, the projected
    queries as they were. -/
def ptB2 (c : Dev nD) (t : Fin cfg2.N) (h0 : ¬t.val % 4 = 0) (h1 : ¬t.val % 4 = 3) (p : Vec F S1x1024x1 .f32 × Vec F S1x1024x1 .f32 × Vec F S1x1024x768 .f32 × Vec F S1x1024x768 .bf16) : Vec F S1x1024x768 .f32 × (Vec F S1x1024x1 .f32 × Vec F S1x1024x1 .f32 × Vec F S1x1024x768 .f32 × Vec F S1x1024x768 .bf16) :=
  (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) p.1 p.2.1 p.2.2.1 p.2.2.2,
   (sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) p.1 p.2.1 p.2.2.1 p.2.2.2,
    sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) p.1 p.2.1 p.2.2.1 p.2.2.2,
    sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) p.1 p.2.1 p.2.2.1 p.2.2.2,
    p.2.2.2))

/-- After the body at a last key chunk, over what the point before left in the carried arrays (`p`): the same fold,
    and the output tile stored. -/
def ptC2 (c : Dev nD) (t : Fin cfg2.N) (h0 : ¬t.val % 4 = 0) (h1 : t.val % 4 = 3) (p : Vec F S1x1024x1 .f32 × Vec F S1x1024x1 .f32 × Vec F S1x1024x768 .f32 × Vec F S1x1024x768 .bf16) : Vec F S1x1024x768 .f32 × (Vec F S1x1024x1 .f32 × Vec F S1x1024x1 .f32 × Vec F S1x1024x768 .f32 × Vec F S1x1024x768 .bf16) :=
  (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p.1 p.2.1 p.2.2.1 p.2.2.2,
   (sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p.1 p.2.1 p.2.2.1 p.2.2.2,
    sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p.1 p.2.1 p.2.2.1 p.2.2.2,
    sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p.1 p.2.1 p.2.2.1 p.2.2.2,
    p.2.2.2))

/-- THE ACCUMULATION. What the output tile's staging buffer and the four carried arrays hold after the body at
    position `n`: the case the position's residue mod 4 selects, run at the point's blocks, over what position
    `n - 1` left in the carried arrays. -/
def outsAt2 (c : Dev nD) : (n : ℕ) → n < cfg2.N → Vec F S1x1024x768 .f32 × (Vec F S1x1024x1 .f32 × Vec F S1x1024x1 .f32 × Vec F S1x1024x768 .f32 × Vec F S1x1024x768 .bf16)
  | 0, hn => ptA2 V c ⟨0, hn⟩ (Nat.zero_mod _) (by show ¬(0 % 4 = 3); decide)
  | n + 1, hn =>
    if h0 : (n + 1) % 4 = 0 then
      if h1 : (n + 1) % 4 = 3 then
        False.elim (by omega)
      else
        ptA2 V c ⟨n + 1, hn⟩ h0 h1
    else
      if h1 : (n + 1) % 4 = 3 then
        ptC2 V c ⟨n + 1, hn⟩ h0 h1 (outsAt2 c n (Nat.lt_of_succ_lt hn)).2
      else
        ptB2 V c ⟨n + 1, hn⟩ h0 h1 (outsAt2 c n (Nat.lt_of_succ_lt hn)).2

/-- `outsAt2` at a first key chunk. -/
theorem outsAt2_A (c : Dev nD) (t : Fin cfg2.N) (h0 : t.val % 4 = 0) (h1 : ¬t.val % 4 = 3) :
    outsAt2 V c t.val t.isLt = ptA2 V c t h0 h1 := by
  obtain ⟨n, hn⟩ := t
  cases n with
  | zero => exact rfl
  | succ n => exact (dif_pos h0).trans ((dif_neg h1).trans rfl)

/-- `outsAt2` at a middle key chunk: over what the point before left. -/
theorem outsAt2_B (c : Dev nD) (t : Fin cfg2.N) (h0 : ¬t.val % 4 = 0) (h1 : ¬t.val % 4 = 3) :
    outsAt2 V c t.val t.isLt
      = ptB2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt2` at a last key chunk: over what the point before left. -/
theorem outsAt2_C (c : Dev nD) (t : Fin cfg2.N) (h0 : ¬t.val % 4 = 0) (h1 : t.val % 4 = 3) :
    outsAt2 V c t.val t.isLt
      = ptC2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant's frame around the four carried arrays: the other kernels' staging buffers at some contents, then
    what is said of the running maximum, denominator, numerator and projected queries, beside the generator register
    at some state. -/
def inv2 (c : Dev nD) (P0 P1 P2 P3 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ P0 ∗ P1 ∗ P2 ∗ P3) ∗ (∃ r, prngReg c r))

/-- What the launch hands the region: the four carried arrays owned at some contents. -/
theorem PhiA2_inv (c : Dev nD) :
    (Pipeline.ΦA spec2 c : sProp 𝕄)
      = inv2 c iprop(∃ d, owns (c : Thread nD τ) scM2_0 fullShare d) iprop(∃ d, owns (c : Thread nD τ) scM2_1 fullShare d)
          iprop(∃ d, owns (c : Thread nD τ) scM2_2 fullShare d) iprop(∃ d, owns (c : Thread nD τ) scM2_3 fullShare d) := by
  rw [PhiA2_eq]; rfl

/-- The region invariant before position `n`: before the first point what the launch hands over (every carried array
    at anything); afterwards each carried array at what the point before left in it. -/
def PhiS2 (c : Dev nD) : (n : ℕ) → n ≤ cfg2.N → sProp 𝕄
  | 0, _ => Pipeline.ΦA spec2 c
  | n + 1, hn => inv2 c (owns (c : Thread nD τ) scM2_0 fullShare (outsAt2 V c n hn).2.1) (owns (c : Thread nD τ) scM2_1 fullShare (outsAt2 V c n hn).2.2.1)
      (owns (c : Thread nD τ) scM2_2 fullShare (outsAt2 V c n hn).2.2.2.1) (owns (c : Thread nD τ) scM2_3 fullShare (outsAt2 V c n hn).2.2.2.2)

theorem PhiS2_zero (c : Dev nD) (n : ℕ) (h : n ≤ cfg2.N) (hz : n = 0) : PhiS2 V c n h = Pipeline.ΦA spec2 c := by
  subst hz; rfl

/-- After point `n` (before point `n + 1`): the carried arrays at that point's contents. -/
theorem PhiS2_succ (c : Dev nD) (n : ℕ) (hn : n < cfg2.N) :
    PhiS2 V c (n + 1) hn = inv2 c (owns (c : Thread nD τ) scM2_0 fullShare (outsAt2 V c n hn).2.1) (owns (c : Thread nD τ) scM2_1 fullShare (outsAt2 V c n hn).2.2.1)
      (owns (c : Thread nD τ) scM2_2 fullShare (outsAt2 V c n hn).2.2.2.1) (owns (c : Thread nD τ) scM2_3 fullShare (outsAt2 V c n hn).2.2.2.2) := rfl

/-- Before a point that is not the first: the carried arrays at what the point before left. -/
theorem PhiS2_pos (c : Dev nD) (n : ℕ) (h : n ≤ cfg2.N) (hz : n ≠ 0) :
    PhiS2 V c n h = inv2 c (owns (c : Thread nD τ) scM2_0 fullShare (outsAt2 V c (n - 1) (by omega)).2.1) (owns (c : Thread nD τ) scM2_1 fullShare (outsAt2 V c (n - 1) (by omega)).2.2.1)
      (owns (c : Thread nD τ) scM2_2 fullShare (outsAt2 V c (n - 1) (by omega)).2.2.2.1) (owns (c : Thread nD τ) scM2_3 fullShare (outsAt2 V c (n - 1) (by omega)).2.2.2.2) := by
  cases n with
  | zero => exact absurd rfl hz
  | succ n => rfl

/-! ## The pipeline's proof data -/

/-- The proof data of the attention launch on core `c`: the arrays as the region finds them; after the body at point
    `t` each input's buffer at its block and the output tile's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the carried arrays' named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_inv]
  unfold inv2
  iintro ⟨⟨R1, R2, R3, R4, R5, R6, R7, R8, R9, R10, R11, R12, HS0, HS1, HS2, HS3⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [HS0]; · iexists _; iexact HS0
    isplitl [HS1]; · iexists _; iexact HS1
    isplitl [HS2]; · iexists _; iexact HS2
    iexists _; iexact HS3
  iexact Hg

/-- The same after the last point. -/
theorem hout2 (c : Dev nD) : (dat2 (F := F) V c).Φ (Fin.last cfg2.N) ⊢ Pipeline.ΦA spec2 c :=
  Phi_out2 V c _ (by rw [Fin.val_last]; have : cfg2.N = 64 := N_2; omega)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the point's residue mod 4 says which case it is in;
    the invariant hands the body the carried arrays at what the point before left (at anything at the very first
    point) and takes them back at this point's contents; the output tile is handed back untouched except at a last
    key chunk, where it is stored whole; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  have hlt : t.val - 1 < cfg2.N := Nat.lt_of_le_of_lt (Nat.sub_le _ _) t.isLt
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 4 = 0
  · have h1 : ¬t.val % 4 = 3 := by omega
    rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
    rw [outsAt2_A V c t h0 h1]
    unfold ptA2 sout2_A_0 sout2_A_1 sout2_A_2 sout2_A_3; (try dsimp only)
    by_cases hz : t.val = 0
    · rw [PhiS2_castSucc V c t, PhiS2_zero V c _ _ hz, PhiA2_inv]
      unfold inv2
      iintro ⟨⟨⟨R1, R2, R3, R4, R5, R6, R7, R8, R9, R10, R11, R12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [R1 R2 R3 R4 R5 R6 R7 R8 R9 R10 R11 R12 HS0 HS1 HS2 HS3 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_A_2 c _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover2_A_3 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      unfold inv2
      iintro ⟨⟨⟨R1, R2, R3, R4, R5, R6, R7, R8, R9, R10, R11, R12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [R1 R2 R3 R4 R5 R6 R7 R8 R9 R10 R11 R12 HS0 HS1 HS2 HS3 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_A_2 c _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover2_A_3 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    by_cases h1 : t.val % 4 = 3
    · rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold ptC2 out2_C_6 sout2_C_0 sout2_C_1 sout2_C_2; (try dsimp only)
      rw [PhiS2_castSucc V c t, PhiS2_pos V c _ _ hz]
      unfold inv2
      iintro ⟨⟨⟨R1, R2, R3, R4, R5, R6, R7, R8, R9, R10, R11, R12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) hlt).2.1 (outsAt2 V c (t.val - 1) hlt).2.2.1 (outsAt2 V c (t.val - 1) hlt).2.2.2.1 (outsAt2 V c (t.val - 1) hlt).2.2.2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, ⟨%es1, HS1⟩, ⟨%es2, HS2⟩, HS3⟩
      isplitl [R1 R2 R3 R4 R5 R6 R7 R8 R9 R10 R11 R12 HS0 HS1 HS2 HS3 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_C_2 c _ _ _ _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _ _ _ _ _ _ _ _ _ _)
    · rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold ptB2 sout2_B_0 sout2_B_1 sout2_B_2; (try dsimp only)
      rw [PhiS2_castSucc V c t, PhiS2_pos V c _ _ hz]
      unfold inv2
      iintro ⟨⟨⟨R1, R2, R3, R4, R5, R6, R7, R8, R9, R10, R11, R12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) hlt).2.1 (outsAt2 V c (t.val - 1) hlt).2.2.1 (outsAt2 V c (t.val - 1) hlt).2.2.2.1 (outsAt2 V c (t.val - 1) hlt).2.2.2.2).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, HS3⟩
      isplitl [R1 R2 R3 R4 R5 R6 R7 R8 R9 R10 R11 R12 HS0 HS1 HS2 HS3 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_B_2 c _ _ _ _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameRun.lean ====
import proofs.«113779_j37349035606587_2_alg».proof.Proof.Gen.KernelIdeal.Launch
import proofs.«113779_j37349035606587_2_alg».proof.Proof.Gen.KernelIdeal.Skeleton
import proofs.«113779_j37349035606587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.FrameCondNamed
import proofs.«113779_j37349035606587_2_alg».proof.Proof.FrameProj
import proofs.«113779_j37349035606587_2_alg».proof.Proof.FrameAttnData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the launches -/

/-- A valuation read at the TensorCore's references: what a launch's proof data take as entry contents. -/
abbrev rd (W : Dev nD → Valuation τ sig (Elt F)) : (c : Dev nD) → (b : Ref sig .tc) → Buf (Elt F) ((c : Thread nD τ).loc b) :=
  fun c b => W c b

/-- Before launch 0: the launch memory after the first host lines (the reshapes of k and v, Wᵀ, the bias row). -/
abbrev W1 (c : Dev nD) : Valuation τ sig (Elt F) := V1 m c
/-- What launch 0 leaves in its output array: the projected keys. -/
def o2 (c : Dev nD) : Buf (Elt F) ((c : Thread nD τ).loc main_v5) := (dat0 (rd (W1 m)) c).arrAt 3 cfg0.N
/-- After launch 0. -/
def W2 (c : Dev nD) : Valuation τ sig (Elt F) := Function.update (W1 m c) main_v5 (o2 m c)
/-- Before launch 1: after the reshape of the projected keys. -/
def W3 (c : Dev nD) : Valuation τ sig (Elt F) := StableHlo.after hostOps1 (W2 m c)
/-- What launch 1 leaves in its output array: the projected values. -/
def o4 (c : Dev nD) : Buf (Elt F) ((c : Thread nD τ).loc main_v7) := (dat1 (rd (W3 m)) c).arrAt 3 cfg1.N
/-- After launch 1. -/
def W4 (c : Dev nD) : Valuation τ sig (Elt F) := Function.update (W3 m c) main_v7 (o4 m c)
/-- Before launch 2: after the reshape of the projected values. -/
def W5 (c : Dev nD) : Valuation τ sig (Elt F) := StableHlo.after hostOps2 (W4 m c)
/-- What launch 2 leaves in its output array: the attention output. -/
def o6 (c : Dev nD) : Buf (Elt F) ((c : Thread nD τ).loc main_v9) := (dat2 (rd (W5 m)) c).arrAt 6 cfg2.N
/-- After launch 2. -/
def W6 (c : Dev nD) : Valuation τ sig (Elt F) := Function.update (W5 m c) main_v9 (o6 m c)

/-- What the launches leave, in the conditional frame's vocabulary. -/
def outs : Outs (F := F) := fun n r c =>
  match n with
  | 2 => W2 m c r
  | 4 => W4 m c r
  | 6 => W6 m c r
  | _ => W1 m c r

theorem V2_eq (c : Dev nD) : V2 m (outs m) c = W2 m c := by
  show Function.update (V1 m c) main_v5 (W2 m c main_v5) = W2 m c
  unfold W2; rw [Function.update_self]
theorem V3_eq (c : Dev nD) : V3 m (outs m) c = W3 m c := by
  show StableHlo.after hostOps1 (V2 m (outs m) c) = _; rw [V2_eq]; rfl
theorem V4_eq (c : Dev nD) : V4 m (outs m) c = W4 m c := by
  show Function.update (V3 m (outs m) c) main_v7 (W4 m c main_v7) = W4 m c
  rw [V3_eq]; unfold W4; rw [Function.update_self]
theorem V5_eq (c : Dev nD) : V5 m (outs m) c = W5 m c := by
  show StableHlo.after hostOps2 (V4 m (outs m) c) = _; rw [V4_eq]; rfl
theorem V6_eq (c : Dev nD) : V6 m (outs m) c = W6 m c := by
  show Function.update (V5 m (outs m) c) main_v9 (W6 m c main_v9) = W6 m c
  rw [V5_eq]; unfold W6; rw [Function.update_self]
theorem outs6 (c : Dev nD) : outs m 6 main_v9 c = o6 m c := by
  show W6 m c main_v9 = _; unfold W6; rw [Function.update_self]

/-! ## The proof data family and the thread state -/

/-- Every pipeline's proof data, each at its launch's entry contents. -/
def pdats : (p : Fin 3) → (c : Dev nD) → Dat τ (Elt F) Unit ℕ (UR sig nD τ) ℕ (cfgs p) c
  | ⟨0, _⟩ => fun c => dat0 (rd (W1 m)) c
  | ⟨1, _⟩ => fun c => dat1 (rd (W3 m)) c
  | ⟨2, _⟩ => fun c => dat2 (rd (W5 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)

/-! ## Each launch's arrays at its exit -/

theorem W2_of_ne (c : Dev nD) (r : Ref sig .tc) (h : r ≠ main_v5) : W2 m c r = W1 m c r := by
  unfold W2; exact Function.update_of_ne (StableHlo.devRef_ne_of_ne h) _ _
theorem W2_out (c : Dev nD) : W2 m c main_v5 = o2 m c := by
  unfold W2; rw [Function.update_self]
theorem hF0 (c : Dev nD) (w : Fin cfg0.W) : (pdats m 0 c).arrAt w cfg0.N = rd (W2 m) c (Pipeline.arrRef spec0 w) := by
  match w with
  | ⟨0, _⟩ => exact ((dat0 (rd (W1 m)) c).arrAt_in 0 rfl _).trans (W2_of_ne m c main_v0 (by decide)).symm
  | ⟨1, _⟩ => exact ((dat0 (rd (W1 m)) c).arrAt_in 1 rfl _).trans (W2_of_ne m c main_v3 (by decide)).symm
  | ⟨2, _⟩ => exact ((dat0 (rd (W1 m)) c).arrAt_in 2 rfl _).trans (W2_of_ne m c main_v4 (by decide)).symm
  | ⟨3, _⟩ => exact (W2_out m c).symm
theorem hrest0 (c : Dev nD) : ∀ b, b ∉ Finset.univ.image (Pipeline.arrRef spec0) → rd (W2 m) c b = rd (W1 m) c b :=
  fun b hb => W2_of_ne m c b fun e => hb (Finset.mem_image.mpr ⟨3, Finset.mem_univ _, e.symm⟩)
theorem W4_of_ne (c : Dev nD) (r : Ref sig .tc) (h : r ≠ main_v7) : W4 m c r = W3 m c r := by
  unfold W4; exact Function.update_of_ne (StableHlo.devRef_ne_of_ne h) _ _
theorem W4_out (c : Dev nD) : W4 m c main_v7 = o4 m c := by
  unfold W4; rw [Function.update_self]
theorem hF1 (c : Dev nD) (w : Fin cfg1.W) : (pdats m 1 c).arrAt w cfg1.N = rd (W4 m) c (Pipeline.arrRef spec1 w) := by
  match w with
  | ⟨0, _⟩ => exact ((dat1 (rd (W3 m)) c).arrAt_in 0 rfl _).trans (W4_of_ne m c main_v1 (by decide)).symm
  | ⟨1, _⟩ => exact ((dat1 (rd (W3 m)) c).arrAt_in 1 rfl _).trans (W4_of_ne m c main_v3 (by decide)).symm
  | ⟨2, _⟩ => exact ((dat1 (rd (W3 m)) c).arrAt_in 2 rfl _).trans (W4_of_ne m c main_v4 (by decide)).symm
  | ⟨3, _⟩ => exact (W4_out m c).symm
theorem hrest1 (c : Dev nD) : ∀ b, b ∉ Finset.univ.image (Pipeline.arrRef spec1) → rd (W4 m) c b = rd (W3 m) c b :=
  fun b hb => W4_of_ne m c b fun e => hb (Finset.mem_image.mpr ⟨3, Finset.mem_univ _, e.symm⟩)
theorem W6_of_ne (c : Dev nD) (r : Ref sig .tc) (h : r ≠ main_v9) : W6 m c r = W5 m c r := by
  unfold W6; exact Function.update_of_ne (StableHlo.devRef_ne_of_ne h) _ _
theorem W6_out (c : Dev nD) : W6 m c main_v9 = o6 m c := by
  unfold W6; rw [Function.update_self]
theorem hF2 (c : Dev nD) (w : Fin cfg2.W) : (pdats m 2 c).arrAt w cfg2.N = rd (W6 m) c (Pipeline.arrRef spec2 w) := by
  match w with
  | ⟨0, _⟩ => exact ((dat2 (rd (W5 m)) c).arrAt_in 0 rfl _).trans (W6_of_ne m c main_arg0 (by decide)).symm
  | ⟨1, _⟩ => exact ((dat2 (rd (W5 m)) c).arrAt_in 1 rfl _).trans (W6_of_ne m c main_v6 (by decide)).symm
  | ⟨2, _⟩ => exact ((dat2 (rd (W5 m)) c).arrAt_in 2 rfl _).trans (W6_of_ne m c main_v8 (by decide)).symm
  | ⟨3, _⟩ => exact ((dat2 (rd (W5 m)) c).arrAt_in 3 rfl _).trans (W6_of_ne m c main_arg3 (by decide)).symm
  | ⟨4, _⟩ => exact ((dat2 (rd (W5 m)) c).arrAt_in 4 rfl _).trans (W6_of_ne m c main_v3 (by decide)).symm
  | ⟨5, _⟩ => exact ((dat2 (rd (W5 m)) c).arrAt_in 5 rfl _).trans (W6_of_ne m c main_v4 (by decide)).symm
  | ⟨6, _⟩ => exact (W6_out m c).symm
theorem hrest2 (c : Dev nD) : ∀ b, b ∉ Finset.univ.image (Pipeline.arrRef spec2) → rd (W6 m) c b = rd (W5 m) c b :=
  fun b hb => W6_of_ne m c b fun e => hb (Finset.mem_image.mpr ⟨6, Finset.mem_univ _, e.symm⟩)

/-! ## The launches as segments -/

set_option backward.isDefEq.respectTransparency.types false in
/-- Launch 0 over the thread state: entered with every unscoped buffer at `W1`, left with them at `W2`. Its windows'
    arrays are split out of the unscoped buffers at entry and put back at their final contents at exit; the generator
    register goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (rd (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W1 m) c) fun w => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W1 m) c) (rd (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its windows'
    arrays are split out of the unscoped buffers at entry and put back at their final contents at exit; the generator
    register goes into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (rd (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (W3 m) c) fun w => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (W3 m) c) (rd (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left with them at `W6`. Its windows'
    arrays are split out of the unscoped buffers at entry and put back at their final contents at exit; the generator
    register goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (rd (W5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (W5 m) c) fun w => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (rd (W5 m)) c)
    unfold Pipeline.ΦA
    iintro ⟨Hp, -, Hr⟩
    isplitl [Hr]; · iexact Hr
    iexact Hp
  hout c := by
    rw [Pipeline.ownSems0_none]
    refine (hout2 (rd (W5 m)) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (W5 m) c) (rd (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of the program terminates, nothing faulting; the result
    array ends at what the attention launch leaves in it and every argument array as launched. -/
theorem run_named : θ_run defs (onTc (τ := τ) (main (F := F))) ⟨m, fun _ => 0, ρ⟩ (fun r => ∀ c : Dev nD,
      r.2.mem ((c.tc : Thread nD τ).loc main_v9) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have key : θ_run defs (onTc (τ := τ) (main (F := F))) ⟨m, fun _ => 0, ρ⟩ (fun r => ∀ c : Dev nD,
      r.2.mem ((c.tc : Thread nD τ).loc main_v9) = outs m 6 main_v9 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := ?_
  · exact (θ_run defs _ _).mono (fun r h c => ⟨((h c).1).trans (outs6 m c), (h c).2⟩) key
  exact frame_cond_named m (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)

end Cert.KernelIdeal.Hand

end
-- ==== Proof.KFrameCondNamed.lean ====
/-
  The three launches of the program run one after the other, separated by host lines; the run below chains one segment
  record per launch and states, besides the arguments, that the result array `main_v9` ends at what the last launch
  leaves in it. Every argument array ends as launched because no host line and no launch writes one.
-/
import proofs.«113779_j37349035606587_2_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

-- the implicit arguments are determined by the conclusion
set_option backward.isDefEq.respectTransparency.types false in
/-- The run of the three launches with the result named. Given, per kernel region, a segment record entered from the
    thread state before it and left at the one after it, every weakly fair execution of the program from memory `m`
    with zero counters terminates; every final memory holds each argument array as launched, and the result array
    `main_v9` at what the last region leaves in it (`outs 6 main_v9`). -/
theorem frame_cond_named {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v9) = outs 6 main_v9 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => s.mem ((c.tc : Thread nD τ).loc main_v9) = outs 6 main_v9 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- at the launch every unscoped buffer is held at its launch contents and the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end each buffer is read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨(h (Proc.devRef .tc main_v9) (Finset.mem_filter.mpr ⟨StableHlo.devRef_mem_tcRefs main_v9, by decide⟩)).trans (by simp only [V6, Function.update_self]),
        (h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c),
        (h (Proc.devRef .tc main_arg3) (Finset.mem_filter.mpr ⟨StableHlo.devRef_mem_tcRefs main_arg3, by decide⟩)).trans (V6_main_arg3 m outs c),
        (h (Proc.devRef .tc main_arg4) (Finset.mem_filter.mpr ⟨StableHlo.devRef_mem_tcRefs main_arg4, by decide⟩)).trans (V6_main_arg4 m outs c),
        (h (Proc.devRef .tc main_arg5) (Finset.mem_filter.mpr ⟨StableHlo.devRef_mem_tcRefs main_arg5, by decide⟩)).trans (V6_main_arg5 m outs c)⟩
    · iexact HSI

end Cert.Kernel.Hand

end
-- ==== Proof.KFrameProj.lean ====
import proofs.«113779_j37349035606587_2_alg».proof.Proof.Gen.Kernel.Launch
import proofs.«113779_j37349035606587_2_alg».proof.Proof.Gen.Kernel.Skeleton
import proofs.«113779_j37349035606587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! ## The bodies' accesses: each load and the store is of a whole buffer -/

abbrev rX : Rect S2048x768 := Rect.unit (s := S2048x768) ![0, 0] S2048x768.size inb_S2048x768_S2048x768_0_0
abbrev rW : Rect S768x768 := Rect.unit (s := S768x768) ![0, 0] S768x768.size inb_S768x768_S768x768_0_0
abbrev rB : Rect S1x768 := Rect.unit (s := S1x768) ![0, 0] S1x768.size inb_S1x768_S1x768_0_0
abbrev rOut : Rect S2048x768 := Rect.unit (s := S2048x768) ![0, 0] S2048x768.size inb_S2048x768_S2048x768_0_0

theorem hzXY : (![0, 0] : Fin 2 → Nat) = fun _ => 0 := funext fun a => by fin_cases a <;> rfl

/-! # Region 0: the projection kernel of custom_call 0, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows to project, one block of 2048 rows per point): its current staging buffer holds its
    block at every point, for any proof data whose array is the entry contents and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, one block for the whole grid): fetched at the first point only, its block
    index never moves, so its buffer holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, one block for the whole grid): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The output buffer after the body, from the input windows' blocks: its one whole-buffer store, of the
    projection of the three loaded values. -/
def out0_3 (x0 : Vec F S2048x768 .f32) (x1 : Vec F S768x768 .bf16) (x2 : Vec F S1x768 .f32) : Vec F S2048x768 .bf16 :=
  View.canon [⟨rOut, k0_pay1 (View.ld x0 rX) (View.ld x1 rW) (View.ld x2 rB)⟩]

/-- The one store covers the buffer. -/
theorem cover0_3 (p0 : Vec F S2048x768 .bf16) (y : S2048x768.Idx) :
    ∃ pc ∈ ([⟨rOut, p0⟩] : List (View.Piece (Elt F) S2048x768 .bf16)), y ∈ pc.1.set :=
  View.cover_of_tiled [⟨rOut, p0⟩] S2048x768.size (by rfl) y

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords)
    (arg1 : Memref sig .tc .vmem S2048x768 .f32) (harg1 : arg1.IsWhole) (arg2 : Memref sig .tc .vmem S768x768 .bf16) (harg2 : arg2.IsWhole)
    (arg3 : Memref sig .tc .vmem S1x768 .f32) (harg3 : arg3.IsWhole) (arg4 : Memref sig .tc .vmem S2048x768 .bf16) (harg4 : arg4.IsWhole)
    (x0 : Vec F S2048x768 .f32) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output block as a value -/

/-- One whole-buffer store leaves its payload, and a load through the whole rectangle reads the buffer itself: the
    output block is the projection of the three input blocks. -/
theorem out0_3_eq (x0 : Vec F S2048x768 .f32) (x1 : Vec F S768x768 .bf16) (x2 : Vec F S1x768 .f32) :
    out0_3 (F := F) x0 x1 x2 = k0_pay1 x0 x1 x2 := by
  unfold out0_3
  rw [View.canon_unit_zero hzXY]
  simp only [View.ld_unit_zero (S := S2048x768) hzXY, View.ld_unit_zero (S := S768x768) hzXY, View.ld_unit_zero (S := S1x768) hzXY]

/-! # Region 1: the projection kernel of custom_call 1, at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows to project, one block of 2048 rows per point): its current staging buffer holds its
    block at every point, for any proof data whose array is the entry contents and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight matrix, one block for the whole grid): fetched at the first point only, its block
    index never moves, so its buffer holds the block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias row, one block for the whole grid): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The output buffer after the body, from the input windows' blocks: its one whole-buffer store, of the
    projection of the three loaded values. -/
def out1_3 (x0 : Vec F S2048x768 .f32) (x1 : Vec F S768x768 .bf16) (x2 : Vec F S1x768 .f32) : Vec F S2048x768 .bf16 :=
  View.canon [⟨rOut, k1_pay1 (View.ld x0 rX) (View.ld x1 rW) (View.ld x2 rB)⟩]

/-- The one store covers the buffer. -/
theorem cover1_3 (p0 : Vec F S2048x768 .bf16) (y : S2048x768.Idx) :
    ∃ pc ∈ ([⟨rOut, p0⟩] : List (View.Piece (Elt F) S2048x768 .bf16)), y ∈ pc.1.set :=
  View.cover_of_tiled [⟨rOut, p0⟩] S2048x768.size (by rfl) y

/-! ## The body's triple -/

set_option maxHeartbeats 1000000 in
/-- The kernel body on whole staging memrefs, the inputs' at read contents `x0 x1 x2` and the output's at anything,
    runs to the continuation holding the inputs' as they were and the output's at `out1_3` of the inputs'. -/
theorem sound_kernel1 (c : Dev nD) (E : Set ℕ) (i : grid1.Coords)
    (arg1 : Memref sig .tc .vmem S2048x768 .f32) (harg1 : arg1.IsWhole) (arg2 : Memref sig .tc .vmem S768x768 .bf16) (harg2 : arg2.IsWhole)
    (arg3 : Memref sig .tc .vmem S1x768 .f32) (harg3 : arg3.IsWhole) (arg4 : Memref sig .tc .vmem S2048x768 .bf16) (harg4 : arg4.IsWhole)
    (x0 : Vec F S2048x768 .f32) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__project_kernel i arg1 harg1 arg2 harg2 arg3 harg3 arg4 harg4) K := by
  simp only [cc1__project_kernel_eq_skeleton]; unfold cc1__project_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The output block as a value -/

/-- One whole-buffer store leaves its payload, and a load through the whole rectangle reads the buffer itself: the
    output block is the projection of the three input blocks. -/
theorem out1_3_eq (x0 : Vec F S2048x768 .f32) (x1 : Vec F S768x768 .bf16) (x2 : Vec F S1x768 .f32) :
    out1_3 (F := F) x0 x1 x2 = k1_pay1 x0 x1 x2 := by
  unfold out1_3
  rw [View.canon_unit_zero hzXY]
  simp only [View.ld_unit_zero (S := S2048x768) hzXY, View.ld_unit_zero (S := S768x768) hzXY, View.ld_unit_zero (S := S1x768) hzXY]

end Cert.Kernel.Hand

end
-- ==== Proof.KFrameAttnRuns.lean ====
import proofs.«113779_j37349035606587_2_alg».proof.Proof.Gen.Kernel.Launch
import proofs.«113779_j37349035606587_2_alg».proof.Proof.Gen.Kernel.Skeleton
import proofs.«113779_j37349035606587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! ## The attention kernel's branch conditions

The body has two conditionals, both on the innermost grid coordinate (the key-chunk index): the first key chunk
of a (batch, query-tile) pair resets the carried arrays and projects the query tile; the last one stores the output tile. -/

/-- The condition of the body's first conditional ("this is the first key chunk"), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 4) — decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second conditional ("this is the last key chunk"), from the grid coordinates. -/
abbrev cond2_1 (i : grid2.Coords) : Prop := k2_cond2 i = 1#1
/-- It holds at the points ≡ 3 (mod 4) — decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- Window 0 (the query tile) is never idle: an input. -/
theorem liveAt2_0 : ∀ t : Fin cfg2.N, cfg2.idle 0 (grid2.coords t) = false := by decide +kernel
/-- Window 1 (the key chunk) is never idle: an input. -/
theorem liveAt2_1 : ∀ t : Fin cfg2.N, cfg2.idle 1 (grid2.coords t) = false := by decide +kernel
/-- Window 2 (the value chunk) is never idle: an input. -/
theorem liveAt2_2 : ∀ t : Fin cfg2.N, cfg2.idle 2 (grid2.coords t) = false := by decide +kernel
/-- Window 3 (the mask tile) is never idle: an input. -/
theorem liveAt2_3 : ∀ t : Fin cfg2.N, cfg2.idle 3 (grid2.coords t) = false := by decide +kernel
/-- Window 4 (the projection matrix) is never idle: an input. -/
theorem liveAt2_4 : ∀ t : Fin cfg2.N, cfg2.idle 4 (grid2.coords t) = false := by decide +kernel
/-- Window 5 (the projection bias) is never idle: an input. -/
theorem liveAt2_5 : ∀ t : Fin cfg2.N, cfg2.idle 5 (grid2.coords t) = false := by decide +kernel
/-- At the first key chunk the output tile is idle: nothing is stored into it. -/
theorem idleAt2_6_A : ∀ t : Fin cfg2.N, cond2_0 (grid2.coords t) → ¬cond2_1 (grid2.coords t) → cfg2.idle 6 (grid2.coords t) = true := by decide +kernel
/-- At the first key chunk the output tile is not written back. -/
theorem noFlush2_6_A : ∀ t : Fin cfg2.N, cond2_0 (grid2.coords t) → ¬cond2_1 (grid2.coords t) → (cfg2.win 6).flush t = false := by decide +kernel
/-- At a middle key chunk the output tile is idle: nothing is stored into it. -/
theorem idleAt2_6_B : ∀ t : Fin cfg2.N, ¬cond2_0 (grid2.coords t) → ¬cond2_1 (grid2.coords t) → cfg2.idle 6 (grid2.coords t) = true := by decide +kernel
/-- At a middle key chunk the output tile is not written back. -/
theorem noFlush2_6_B : ∀ t : Fin cfg2.N, ¬cond2_0 (grid2.coords t) → ¬cond2_1 (grid2.coords t) → (cfg2.win 6).flush t = false := by decide +kernel
/-- At the last key chunk the output tile is live: the body stores into it. -/
theorem liveAt2_6_C : ∀ t : Fin cfg2.N, ¬cond2_0 (grid2.coords t) → cond2_1 (grid2.coords t) → cfg2.idle 6 (grid2.coords t) = false := by decide +kernel

/-! ## The staging and scratch memrefs -/

/-- One staging buffer of the output window, through which its contents are stated (the choice does not matter). -/
abbrev VO2_6 : View sig .tc .vmem S1x1024x768 .f32 := (Memref.whole cc2_stg6_0 : Memref sig .tc .vmem S1x1024x768 .f32).view
/-- Each window's current staging memref at point `t`, as the pipeline passes it to the body, and its wholeness. -/
abbrev ms2_0 (t : Fin cfg2.N) : Memref sig .tc .vmem S1x1024x768 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x768 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x768 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x512 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S768x768 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x768 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024x768 .f32 := win2_6.stage (cfg2.slots t 6)
abbrev hs2_6 (t : Fin cfg2.N) : (ms2_6 t).IsWhole := hstage2_6 ((cfg2.slots t 6).cast nbuf2_6)

/-- The running row maximum: a whole scoped buffer of the kernel's own. -/
abbrev scM2_0 : Memref sig .tc .vmem S1x1024x1 .f32 := Memref.whole cc2_scratch0
/-- The running denominator. -/
abbrev scM2_1 : Memref sig .tc .vmem S1x1024x1 .f32 := Memref.whole cc2_scratch1
/-- The running numerator. -/
abbrev scM2_2 : Memref sig .tc .vmem S1x1024x768 .f32 := Memref.whole cc2_scratch2
/-- The projected query tile. -/
abbrev scM2_3 : Memref sig .tc .vmem S1x1024x768 .bf16 := Memref.whole cc2_scratch3
/-- The carried arrays as views: what each holds is stated through these. -/
abbrev VS2_0 : View sig .tc .vmem S1x1024x1 .f32 := scM2_0.view
abbrev VS2_1 : View sig .tc .vmem S1x1024x1 .f32 := scM2_1.view
abbrev VS2_2 : View sig .tc .vmem S1x1024x768 .f32 := scM2_2.view
abbrev VS2_3 : View sig .tc .vmem S1x1024x768 .bf16 := scM2_3.view

/-- The region's invariant, conjunct by conjunct: the other kernels' staging buffers at some contents, the four
    carried arrays owned at some contents, the generator register at some state — what the body obligation hands the
    run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ (∃ r, prngReg c r)) := by
  unfold Pipeline.ΦA; rw [scopedRest2_eq]; simp only [scM2_0, scM2_1, scM2_2, scM2_3, owns_whole]; try rfl

end Cert.Kernel.Hand

end
-- ==== Proof.KFrameAttnRunB.lean ====
import proofs.«113779_j37349035606587_2_alg».proof.Proof.Gen.Kernel.Launch
import proofs.«113779_j37349035606587_2_alg».proof.Proof.Gen.Kernel.Skeleton
import proofs.«113779_j37349035606587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.KFrameAttnRuns
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

set_option maxHeartbeats 4000000 in
/-- A middle key chunk (neither the first nor the last of its query tile): on whole staging memrefs — the six inputs at
    their contents, the output tile's buffer at contents `xi6`, the four carried arrays at what the chunk before left
    (`xs·`) — the body runs to the continuation holding the inputs and the output tile's buffer as they were, the running
    maximum, denominator and numerator with the pieces of the chunk's stores written (`LS0`, `LS1`, `LS2`), and the
    projected queries, which this chunk only reads, still at `xs3` (no pieces: `LS3 = []`). -/
noncomputable def kernelRun2_B (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    Σ' (L6 : List (View.Piece (Elt F) S1x1024x768 .f32)) (LS0 LS1 : List (View.Piece (Elt F) S1x1024x1 .f32)) (LS2 : List (View.Piece (Elt F) S1x1024x768 .f32)), { LS3 : List (View.Piece (Elt F) S1x1024x768 .bf16) //
      ∀ (xi6 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ owns (c : Thread nD τ) arg13 fullShare xs3) -∗ K ⟨⟩))
          ⊢ wp frame (wpE (defs₀ (F := F)) Variants.none c none) E (cc2__attn_kernel i arg3 harg3 arg4 harg4 arg5 harg5 arg6 harg6 arg7 harg7 arg8 harg8 arg9 harg9 arg10 harg10 arg11 harg11 arg12 harg12 arg13 harg13) K } := by
  refine ⟨[], ?_, ?_, ?_, [], fun xi6 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    isplitl [HS2]; · iexists _; iexact HS2
    iexists _; isplitr; · ipureintro; exact harg13.read_unread _
    iexact HS3

end Cert.Kernel.Hand

end
-- ==== Proof.KFrameAttnRunA.lean ====
import proofs.«113779_j37349035606587_2_alg».proof.Proof.Gen.Kernel.Launch
import proofs.«113779_j37349035606587_2_alg».proof.Proof.Gen.Kernel.Skeleton
import proofs.«113779_j37349035606587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.KFrameAttnRunB
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

set_option maxHeartbeats 4000000 in
/-- The first key chunk of a query tile: on whole staging memrefs — the six inputs at their contents, the output
    tile's buffer at contents `xi6`, the four carried arrays at anything (the body stores each whole before it uses what
    it holds) — the body runs to the continuation holding the inputs and the output tile's buffer as they were and each
    carried array with the pieces of its stores written (`LS0` … `LS3`: the reset, then the chunk's update). -/
noncomputable def kernelRun2_A (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) :
    Σ' (L6 : List (View.Piece (Elt F) S1x1024x768 .f32)) (LS0 LS1 : List (View.Piece (Elt F) S1x1024x1 .f32)) (LS2 : List (View.Piece (Elt F) S1x1024x768 .f32)), { LS3 : List (View.Piece (Elt F) S1x1024x768 .bf16) //
      ∀ (xi6 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__attn_kernel i arg3 harg3 arg4 harg4 arg5 harg5 arg6 harg6 arg7 harg7 arg8 harg8 arg9 harg9 arg10 harg10 arg11 harg11 arg12 harg12 arg13 harg13) K } := by
  refine ⟨[], ?_, ?_, ?_, ?_, fun xi6 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    isplitl [HS2]; · iexists _; iexact HS2
    iexists _; iexact HS3

end Cert.Kernel.Hand

end
-- ==== Proof.KFrameAttnRunC.lean ====
import proofs.«113779_j37349035606587_2_alg».proof.Proof.Gen.Kernel.Launch
import proofs.«113779_j37349035606587_2_alg».proof.Proof.Gen.Kernel.Skeleton
import proofs.«113779_j37349035606587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.KFrameAttnRunA
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

set_option maxHeartbeats 4000000 in
/-- The last key chunk of a query tile: on whole staging memrefs — the six inputs at their contents, the output tile's
    buffer at anything, the four carried arrays at what the chunk before left (`xs·`) — the body runs to the
    continuation holding the inputs as they were, the output tile's buffer with the piece of its store written (`L6`),
    the running maximum, denominator and numerator with the pieces of the chunk's stores written (`LS0`, `LS1`,
    `LS2`), and the projected queries, which this chunk only reads, still at `xs3` (no pieces: `LS3 = []`). -/
noncomputable def kernelRun2_C (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    Σ' (L6 : List (View.Piece (Elt F) S1x1024x768 .f32)) (LS0 LS1 : List (View.Piece (Elt F) S1x1024x1 .f32)) (LS2 : List (View.Piece (Elt F) S1x1024x768 .f32)), { LS3 : List (View.Piece (Elt F) S1x1024x768 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ owns (c : Thread nD τ) arg13 fullShare xs3) -∗ K ⟨⟩))
          ⊢ wp frame (wpE (defs₀ (F := F)) Variants.none c none) E (cc2__attn_kernel i arg3 harg3 arg4 harg4 arg5 harg5 arg6 harg6 arg7 harg7 arg8 harg8 arg9 harg9 arg10 harg10 arg11 harg11 arg12 harg12 arg13 harg13) K } := by
  refine ⟨?_, ?_, ?_, ?_, [], fun E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    isplitl [HS2]; · iexists _; iexact HS2
    iexists _; isplitr; · ipureintro; exact harg13.read_unread _
    iexact HS3

end Cert.Kernel.Hand

end
-- ==== Proof.KAttnStep.lean ====
/-
  One grid point of the attention kernel as a pure function of what it reads.

  The kernel keeps four arrays between the key-chunk steps of one (batch, query-tile) pair: the running row maximum
  `mx`, the running denominator `dn`, the running numerator `ac` and the projected queries `qp`. At the first
  key chunk it resets the first three and computes `qp` from the query tile (`reset…`); at every chunk it folds the
  chunk's keys, values and mask into them (`step…`); at the last chunk the output tile is numerator over denominator
  (`finish`). Each function below is the composition of the body's operations between two memory accesses, named
  after the generated payloads it is made of.
-/
import proofs.«113779_j37349035606587_2_alg».proof.Proof.Gen.Kernel.Skeleton

noncomputable section

namespace Cert.Kernel.Attn

open Idealize.ShloMosaic Cert.Kernel Cert.Kernel.Gen

variable {F : FTy → Type} [FloatOps F] [Facts]

/-- The running maximum after a reset: `-∞` in every row. -/
def resetMx : Vec F S1x1024x1 .f32 := k2_pay5 (F := F)
/-- The running denominator after a reset: zero. -/
def resetDn : Vec F S1x1024x1 .f32 := k2_pay6 (F := F)
/-- The running numerator after a reset: zero. -/
def resetAc : Vec F S1x1024x768 .f32 := k2_pay7 (F := F)
/-- The projected query tile `x · Wᵀ + b`. -/
def resetQp (xq : Vec F S1x1024x768 .f32) (xw : Vec F S768x768 .bf16) (xb : Vec F S1x768 .f32) : Vec F S1x1024x768 .bf16 :=
  k2_pay8 xq xw xb

/-- The running maximum after a key chunk: the old one against the chunk's masked, scaled scores. -/
def stepMx (mx : Vec F S1x1024x1 .f32) (qp : Vec F S1x1024x768 .bf16) (xk : Vec F S1x512x768 .bf16)
    (xm : Vec F S1x1024x512 .i32) : Vec F S1x1024x1 .f32 :=
  k2_pay3 (k2_pay11 qp xk xm mx)
/-- The running denominator after a key chunk: the old one rescaled, plus the chunk's weights. -/
def stepDn (mx dn : Vec F S1x1024x1 .f32) (qp : Vec F S1x1024x768 .bf16) (xk : Vec F S1x512x768 .bf16)
    (xm : Vec F S1x1024x512 .i32) : Vec F S1x1024x1 .f32 :=
  k2_pay1 (k2_pay13 qp xk xm mx) (k2_pay14 qp xk xm mx mx dn)
/-- The running numerator after a key chunk: the old one rescaled, plus the chunk's weighted values. -/
def stepAc (mx : Vec F S1x1024x1 .f32) (ac : Vec F S1x1024x768 .f32) (qp : Vec F S1x1024x768 .bf16)
    (xk xv : Vec F S1x512x768 .bf16) (xm : Vec F S1x1024x512 .i32) : Vec F S1x1024x768 .f32 :=
  k2_pay2 (k2_pay9 xv) (k2_pay12 qp xk xm mx mx) (k2_pay13 qp xk xm mx) ac
/-- The output tile: numerator over denominator. -/
def finish (ac : Vec F S1x1024x768 .f32) (dn : Vec F S1x1024x1 .f32) : Vec F S1x1024x768 .f32 :=
  k2_pay4 ac dn

end Cert.Kernel.Attn

end
-- ==== Proof.KFrameAttnPieces.lean ====
import proofs.«113779_j37349035606587_2_alg».proof.Proof.Gen.Kernel.Launch
import proofs.«113779_j37349035606587_2_alg».proof.Proof.Gen.Kernel.Skeleton
import proofs.«113779_j37349035606587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.KFrameAttnRunC
import proofs.«113779_j37349035606587_2_alg».proof.Proof.KAttnStep
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! # What the attention kernel's stores leave, case by case

Each case's run finds, per buffer, the pieces its stores wrote. Every store of this body covers its whole buffer, so what
a buffer holds after the body is the payload of its last store; read back, each is one of the step functions of the
carried arrays and the chunk's inputs. -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## The first key chunk -/

/-- This case stores nothing into the output tile (the window is idle at its points and not written back there):
    a placeholder that nothing consults. -/
def out2_A_6 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) : Vec F S1x1024x768 .f32 :=
  VO2_6.read (Elt F) (VO2_6.writes (Elt F) VO2_6.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).1)

/-- The running maximum's pieces in this case cover it. -/
theorem scover2_A_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (y : S1x1024x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1 S1x1024x1.size (by sl_kernel_rfl) y

/-- What this case leaves in the running maximum: its pieces read back. -/
def sout2_A_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) : Vec F S1x1024x1 .f32 :=
  VS2_0.read (Elt F) (VS2_0.writes (Elt F) VS2_0.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.1)

/-- The running denominator's pieces in this case cover it. -/
theorem scover2_A_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (y : S1x1024x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1 S1x1024x1.size (by sl_kernel_rfl) y

/-- What this case leaves in the running denominator: its pieces read back. -/
def sout2_A_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) : Vec F S1x1024x1 .f32 :=
  VS2_1.read (Elt F) (VS2_1.writes (Elt F) VS2_1.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.1)

/-- The running numerator's pieces in this case cover it. -/
theorem scover2_A_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (y : S1x1024x768.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1 S1x1024x768.size (by sl_kernel_rfl) y

/-- What this case leaves in the running numerator: its pieces read back. -/
def sout2_A_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) : Vec F S1x1024x768 .f32 :=
  VS2_2.read (Elt F) (VS2_2.writes (Elt F) VS2_2.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1)

/-- The projected queries's pieces in this case cover it. -/
theorem scover2_A_3 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (y : S1x1024x768.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1 S1x1024x768.size (by sl_kernel_rfl) y

/-- What this case leaves in the projected queries: its pieces read back. -/
def sout2_A_3 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) : Vec F S1x1024x768 .bf16 :=
  VS2_3.read (Elt F) (VS2_3.writes (Elt F) VS2_3.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1)

/-! ## A middle key chunk -/

/-- This case stores nothing into the output tile (the window is idle at its points and not written back there):
    a placeholder that nothing consults. -/
def out2_B_6 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x768 .f32 :=
  VO2_6.read (Elt F) (VO2_6.writes (Elt F) VO2_6.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1)

/-- The running maximum's pieces in this case cover it. -/
theorem scover2_B_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 S1x1024x1.size (by sl_kernel_rfl) y

/-- What this case leaves in the running maximum: its pieces read back. -/
def sout2_B_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x1 .f32 :=
  VS2_0.read (Elt F) (VS2_0.writes (Elt F) VS2_0.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1)

/-- The running denominator's pieces in this case cover it. -/
theorem scover2_B_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 S1x1024x1.size (by sl_kernel_rfl) y

/-- What this case leaves in the running denominator: its pieces read back. -/
def sout2_B_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x1 .f32 :=
  VS2_1.read (Elt F) (VS2_1.writes (Elt F) VS2_1.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1)

/-- The running numerator's pieces in this case cover it. -/
theorem scover2_B_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x768.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 S1x1024x768.size (by sl_kernel_rfl) y

/-- What this case leaves in the running numerator: its pieces read back. -/
def sout2_B_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x768 .f32 :=
  VS2_2.read (Elt F) (VS2_2.writes (Elt F) VS2_2.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1)

/-! ## The last key chunk -/

/-- The last key chunk's one store into the output tile covers it. -/
theorem cover2_C_6 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x768.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 S1x1024x768.size (by sl_kernel_rfl) y

/-- What the last key chunk leaves in the output tile's staging buffer: its piece read back. -/
def out2_C_6 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x768 .f32 :=
  VO2_6.read (Elt F) (VO2_6.writes (Elt F) VO2_6.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1)

/-- The running maximum's pieces in this case cover it. -/
theorem scover2_C_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x1.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 S1x1024x1.size (by sl_kernel_rfl) y

/-- What this case leaves in the running maximum: its pieces read back. -/
def sout2_C_0 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x1 .f32 :=
  VS2_0.read (Elt F) (VS2_0.writes (Elt F) VS2_0.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1)

/-- The running denominator's pieces in this case cover it. -/
theorem scover2_C_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x1.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 S1x1024x1.size (by sl_kernel_rfl) y

/-- What this case leaves in the running denominator: its pieces read back. -/
def sout2_C_1 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x1 .f32 :=
  VS2_1.read (Elt F) (VS2_1.writes (Elt F) VS2_1.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1)

/-- The running numerator's pieces in this case cover it. -/
theorem scover2_C_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) (y : S1x1024x768.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 S1x1024x768.size (by sl_kernel_rfl) y

/-- What this case leaves in the running numerator: its pieces read back. -/
def sout2_C_2 (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) : Vec F S1x1024x768 .f32 :=
  VS2_2.read (Elt F) (VS2_2.writes (Elt F) VS2_2.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1)

/-! ## The found pieces as values -/

/-- After the first key chunk the running maximum is one step from the reset value over the freshly projected queries. -/
theorem sout2_A_0_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) :
    sout2_A_0 c i arg3 harg3 arg4 harg4 arg5 harg5 arg6 harg6 arg7 harg7 arg8 harg8 arg9 harg9 arg10 harg10 arg11 harg11 arg12 harg12 arg13 harg13 hc0 hc1 x0 x1 x2 x3 x4 x5 = Attn.stepMx Attn.resetMx (Attn.resetQp x0 x4 x5) x1 x3 := by
  unfold sout2_A_0
  rw [View.read_writes_eq_canon _ _ _ (scover2_A_0 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepMx Attn.resetMx Attn.resetQp
  rfl

/-- After the first key chunk the running denominator is one step from the reset values. -/
theorem sout2_A_1_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) :
    sout2_A_1 c i arg3 harg3 arg4 harg4 arg5 harg5 arg6 harg6 arg7 harg7 arg8 harg8 arg9 harg9 arg10 harg10 arg11 harg11 arg12 harg12 arg13 harg13 hc0 hc1 x0 x1 x2 x3 x4 x5 = Attn.stepDn Attn.resetMx Attn.resetDn (Attn.resetQp x0 x4 x5) x1 x3 := by
  unfold sout2_A_1
  rw [View.read_writes_eq_canon _ _ _ (scover2_A_1 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepDn Attn.resetMx Attn.resetDn Attn.resetQp
  rfl

/-- After the first key chunk the running numerator is one step from the reset values. -/
theorem sout2_A_2_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) :
    sout2_A_2 c i arg3 harg3 arg4 harg4 arg5 harg5 arg6 harg6 arg7 harg7 arg8 harg8 arg9 harg9 arg10 harg10 arg11 harg11 arg12 harg12 arg13 harg13 hc0 hc1 x0 x1 x2 x3 x4 x5 = Attn.stepAc Attn.resetMx Attn.resetAc (Attn.resetQp x0 x4 x5) x1 x2 x3 := by
  unfold sout2_A_2
  rw [View.read_writes_eq_canon _ _ _ (scover2_A_2 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_run_names
  first | rw [View.canon_unit_zero (S := S1x1024x768) hz3] | rw [View.canon_cons_unit_zero (S := S1x1024x768) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepAc Attn.resetMx Attn.resetAc Attn.resetQp
  rfl

/-- The first key chunk leaves the projected query tile in the fourth carried array. -/
theorem sout2_A_3_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) :
    sout2_A_3 c i arg3 harg3 arg4 harg4 arg5 harg5 arg6 harg6 arg7 harg7 arg8 harg8 arg9 harg9 arg10 harg10 arg11 harg11 arg12 harg12 arg13 harg13 hc0 hc1 x0 x1 x2 x3 x4 x5 = Attn.resetQp x0 x4 x5 := by
  unfold sout2_A_3
  rw [View.read_writes_eq_canon _ _ _ (scover2_A_3 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun2_A
  dsimp only
  sl_unfold_run_names
  first | rw [View.canon_unit_zero (S := S1x1024x768) hz3] | rw [View.canon_cons_unit_zero (S := S1x1024x768) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.resetQp
  rfl

/-- A middle key chunk's running maximum: one step from what the chunk before left. -/
theorem sout2_B_0_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_B_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepMx xs0 xs3 x1 x3 := by
  unfold sout2_B_0
  rw [View.read_writes_eq_canon _ _ _ (scover2_B_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_B
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepMx
  rfl

/-- A middle key chunk's running denominator: one step from what the chunk before left. -/
theorem sout2_B_1_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepDn xs0 xs1 xs3 x1 x3 := by
  unfold sout2_B_1
  rw [View.read_writes_eq_canon _ _ _ (scover2_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_B
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepDn
  rfl

/-- A middle key chunk's running numerator: one step from what the chunk before left. -/
theorem sout2_B_2_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : ¬cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_B_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepAc xs0 xs2 xs3 x1 x2 x3 := by
  unfold sout2_B_2
  rw [View.read_writes_eq_canon _ _ _ (scover2_B_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_B
  dsimp only
  sl_unfold_run_names
  first | rw [View.canon_unit_zero (S := S1x1024x768) hz3] | rw [View.canon_cons_unit_zero (S := S1x1024x768) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepAc
  rfl

/-- The last key chunk's running maximum: one step from what the chunk before left. -/
theorem sout2_C_0_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_C_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepMx xs0 xs3 x1 x3 := by
  unfold sout2_C_0
  rw [View.read_writes_eq_canon _ _ _ (scover2_C_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_C
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepMx
  rfl

/-- The last key chunk's running denominator: one step from what the chunk before left. -/
theorem sout2_C_1_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_C_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepDn xs0 xs1 xs3 x1 x3 := by
  unfold sout2_C_1
  rw [View.read_writes_eq_canon _ _ _ (scover2_C_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_C
  dsimp only
  sl_unfold_run_names
  first | rw [View.canon_unit_zero (S := S1x1024x1) hz3] | rw [View.canon_cons_unit_zero (S := S1x1024x1) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepDn
  rfl

/-- The last key chunk's running numerator: one step from what the chunk before left. -/
theorem sout2_C_2_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    sout2_C_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.stepAc xs0 xs2 xs3 x1 x2 x3 := by
  unfold sout2_C_2
  rw [View.read_writes_eq_canon _ _ _ (scover2_C_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_C
  dsimp only
  sl_unfold_run_names
  first | rw [View.canon_unit_zero (S := S1x1024x768) hz3] | rw [View.canon_cons_unit_zero (S := S1x1024x768) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.stepAc
  rfl

/-- The output tile the last key chunk stores: the updated numerator over the updated denominator. -/
theorem out2_C_6_eq (c : Dev nD) (i : grid2.Coords) (arg3 : Memref sig .tc .vmem S1x1024x768 .f32) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x512 .i32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1x1024x1 .f32) (harg10 : arg10.IsWhole) (arg11 : Memref sig .tc .vmem S1x1024x1 .f32) (harg11 : arg11.IsWhole) (arg12 : Memref sig .tc .vmem S1x1024x768 .f32) (harg12 : arg12.IsWhole) (arg13 : Memref sig .tc .vmem S1x1024x768 .bf16) (harg13 : arg13.IsWhole) (hc0 : ¬cond2_0 i) (hc1 : cond2_1 i)
    (x0 : Vec F S1x1024x768 .f32) (x1 x2 : Vec F S1x512x768 .bf16) (x3 : Vec F S1x1024x512 .i32) (x4 : Vec F S768x768 .bf16) (x5 : Vec F S1x768 .f32) (xs0 xs1 : Vec F S1x1024x1 .f32) (xs2 : Vec F S1x1024x768 .f32) (xs3 : Vec F S1x1024x768 .bf16) :
    out2_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = Attn.finish (Attn.stepAc xs0 xs2 xs3 x1 x2 x3) (Attn.stepDn xs0 xs1 xs3 x1 x3) := by
  unfold out2_C_6
  rw [View.read_writes_eq_canon _ _ _ (cover2_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun2_C
  dsimp only
  sl_unfold_run_names
  first | rw [View.canon_unit_zero (S := S1x1024x768) hz3] | rw [View.canon_cons_unit_zero (S := S1x1024x768) hz3]
  simp only [View.readCov_unit_zero (S := S1x1024x1) _ hz3, View.readCov_unit_zero (S := S1x1024x768) _ hz3, View.readAt_eq_ld, harg3.read_unread, harg4.read_unread, harg5.read_unread, harg6.read_unread, harg7.read_unread, harg8.read_unread, harg10.read_unread, harg11.read_unread, harg12.read_unread, harg13.read_unread, View.ld_unit_zero (S := S1x1024x768) hz3, View.ld_unit_zero (S := S1x512x768) hz3, View.ld_unit_zero (S := S1x1024x512) hz3, View.ld_unit_zero (S := S1x1024x1) hz3, View.ld_unit_zero (S := S768x768) hz2, View.ld_unit_zero (S := S1x768) hz2]
  unfold Attn.finish Attn.stepAc Attn.stepDn
  rfl

end Cert.Kernel.Hand

end
-- ==== Proof.KFrameAttnData.lean ====
import proofs.«113779_j37349035606587_2_alg».proof.Proof.Gen.Kernel.Launch
import proofs.«113779_j37349035606587_2_alg».proof.Proof.Gen.Kernel.Skeleton
import proofs.«113779_j37349035606587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.KFrameAttnPieces
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! # The attention launch: what its buffers hold point by point, and the body obligation

The grid has 64 points, four consecutive key chunks for each (batch, query tile) pair. The six input windows hold
their blocks at every point. The four carried arrays and the output tile are followed point by point: the first key
chunk of a pair resets the carried arrays, a middle one folds its chunk into them, the last one also stores the
output tile. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the query tile): its current staging buffer holds its block at every point, fetched there or not
    (unfetched, the block index has not moved), for any proof data whose array is the entry contents and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the key chunk): its current staging buffer holds its block at every point, fetched there or not
    (unfetched, the block index has not moved), for any proof data whose array is the entry contents and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the value chunk): its current staging buffer holds its block at every point, fetched there or not
    (unfetched, the block index has not moved), for any proof data whose array is the entry contents and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the mask tile): its current staging buffer holds its block at every point, fetched there or not
    (unfetched, the block index has not moved), for any proof data whose array is the entry contents and whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the projection matrix): its current staging buffer holds its block at every point, fetched there or not
    (unfetched, the block index has not moved), for any proof data whose array is the entry contents and whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the projection bias): its current staging buffer holds its block at every point, fetched there or not
    (unfetched, the block index has not moved), for any proof data whose array is the entry contents and whose body
    leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the output tile and the carried arrays hold after each point -/

/-- After the body at a first key chunk: the output tile's buffer untouched (a placeholder nothing consults), the
    running maximum, denominator and numerator reset and then folded with the chunk, the projected queries computed. -/
def ptA2 (c : Dev nD) (t : Fin cfg2.N) (h0 : t.val % 4 = 0) (h1 : ¬t.val % 4 = 3) : Vec F S1x1024x768 .f32 × (Vec F S1x1024x1 .f32 × Vec F S1x1024x1 .f32 × Vec F S1x1024x768 .f32 × Vec F S1x1024x768 .bf16) :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
   (sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
    sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
    sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
    sout2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)))

/-- After the body at a middle key chunk, over what the point before left in the carried arrays (`p`): the output
    tile's buffer untouched, the running maximum, denominator and numerator folded with the chunk, the projected
    queries as they were. -/
def ptB2 (c : Dev nD) (t : Fin cfg2.N) (h0 : ¬t.val % 4 = 0) (h1 : ¬t.val % 4 = 3) (p : Vec F S1x1024x1 .f32 × Vec F S1x1024x1 .f32 × Vec F S1x1024x768 .f32 × Vec F S1x1024x768 .bf16) : Vec F S1x1024x768 .f32 × (Vec F S1x1024x1 .f32 × Vec F S1x1024x1 .f32 × Vec F S1x1024x768 .f32 × Vec F S1x1024x768 .bf16) :=
  (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) p.1 p.2.1 p.2.2.1 p.2.2.2,
   (sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) p.1 p.2.1 p.2.2.1 p.2.2.2,
    sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) p.1 p.2.1 p.2.2.1 p.2.2.2,
    sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) p.1 p.2.1 p.2.2.1 p.2.2.2,
    p.2.2.2))

/-- After the body at a last key chunk, over what the point before left in the carried arrays (`p`): the same fold,
    and the output tile stored. -/
def ptC2 (c : Dev nD) (t : Fin cfg2.N) (h0 : ¬t.val % 4 = 0) (h1 : t.val % 4 = 3) (p : Vec F S1x1024x1 .f32 × Vec F S1x1024x1 .f32 × Vec F S1x1024x768 .f32 × Vec F S1x1024x768 .bf16) : Vec F S1x1024x768 .f32 × (Vec F S1x1024x1 .f32 × Vec F S1x1024x1 .f32 × Vec F S1x1024x768 .f32 × Vec F S1x1024x768 .bf16) :=
  (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p.1 p.2.1 p.2.2.1 p.2.2.2,
   (sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p.1 p.2.1 p.2.2.1 p.2.2.2,
    sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p.1 p.2.1 p.2.2.1 p.2.2.2,
    sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p.1 p.2.1 p.2.2.1 p.2.2.2,
    p.2.2.2))

/-- THE ACCUMULATION. What the output tile's staging buffer and the four carried arrays hold after the body at
    position `n`: the case the position's residue mod 4 selects, run at the point's blocks, over what position
    `n - 1` left in the carried arrays. -/
def outsAt2 (c : Dev nD) : (n : ℕ) → n < cfg2.N → Vec F S1x1024x768 .f32 × (Vec F S1x1024x1 .f32 × Vec F S1x1024x1 .f32 × Vec F S1x1024x768 .f32 × Vec F S1x1024x768 .bf16)
  | 0, hn => ptA2 V c ⟨0, hn⟩ (Nat.zero_mod _) (by show ¬(0 % 4 = 3); decide)
  | n + 1, hn =>
    if h0 : (n + 1) % 4 = 0 then
      if h1 : (n + 1) % 4 = 3 then
        False.elim (by omega)
      else
        ptA2 V c ⟨n + 1, hn⟩ h0 h1
    else
      if h1 : (n + 1) % 4 = 3 then
        ptC2 V c ⟨n + 1, hn⟩ h0 h1 (outsAt2 c n (Nat.lt_of_succ_lt hn)).2
      else
        ptB2 V c ⟨n + 1, hn⟩ h0 h1 (outsAt2 c n (Nat.lt_of_succ_lt hn)).2

/-- `outsAt2` at a first key chunk. -/
theorem outsAt2_A (c : Dev nD) (t : Fin cfg2.N) (h0 : t.val % 4 = 0) (h1 : ¬t.val % 4 = 3) :
    outsAt2 V c t.val t.isLt = ptA2 V c t h0 h1 := by
  obtain ⟨n, hn⟩ := t
  cases n with
  | zero => exact rfl
  | succ n => exact (dif_pos h0).trans ((dif_neg h1).trans rfl)

/-- `outsAt2` at a middle key chunk: over what the point before left. -/
theorem outsAt2_B (c : Dev nD) (t : Fin cfg2.N) (h0 : ¬t.val % 4 = 0) (h1 : ¬t.val % 4 = 3) :
    outsAt2 V c t.val t.isLt
      = ptB2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt2` at a last key chunk: over what the point before left. -/
theorem outsAt2_C (c : Dev nD) (t : Fin cfg2.N) (h0 : ¬t.val % 4 = 0) (h1 : t.val % 4 = 3) :
    outsAt2 V c t.val t.isLt
      = ptC2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant's frame around the four carried arrays: the other kernels' staging buffers at some contents, then
    what is said of the running maximum, denominator, numerator and projected queries, beside the generator register
    at some state. -/
def inv2 (c : Dev nD) (P0 P1 P2 P3 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ P0 ∗ P1 ∗ P2 ∗ P3) ∗ (∃ r, prngReg c r))

/-- What the launch hands the region: the four carried arrays owned at some contents. -/
theorem PhiA2_inv (c : Dev nD) :
    (Pipeline.ΦA spec2 c : sProp 𝕄)
      = inv2 c iprop(∃ d, owns (c : Thread nD τ) scM2_0 fullShare d) iprop(∃ d, owns (c : Thread nD τ) scM2_1 fullShare d)
          iprop(∃ d, owns (c : Thread nD τ) scM2_2 fullShare d) iprop(∃ d, owns (c : Thread nD τ) scM2_3 fullShare d) := by
  rw [PhiA2_eq]; rfl

/-- The region invariant before position `n`: before the first point what the launch hands over (every carried array
    at anything); afterwards each carried array at what the point before left in it. -/
def PhiS2 (c : Dev nD) : (n : ℕ) → n ≤ cfg2.N → sProp 𝕄
  | 0, _ => Pipeline.ΦA spec2 c
  | n + 1, hn => inv2 c (owns (c : Thread nD τ) scM2_0 fullShare (outsAt2 V c n hn).2.1) (owns (c : Thread nD τ) scM2_1 fullShare (outsAt2 V c n hn).2.2.1)
      (owns (c : Thread nD τ) scM2_2 fullShare (outsAt2 V c n hn).2.2.2.1) (owns (c : Thread nD τ) scM2_3 fullShare (outsAt2 V c n hn).2.2.2.2)

theorem PhiS2_zero (c : Dev nD) (n : ℕ) (h : n ≤ cfg2.N) (hz : n = 0) : PhiS2 V c n h = Pipeline.ΦA spec2 c := by
  subst hz; rfl

/-- After point `n` (before point `n + 1`): the carried arrays at that point's contents. -/
theorem PhiS2_succ (c : Dev nD) (n : ℕ) (hn : n < cfg2.N) :
    PhiS2 V c (n + 1) hn = inv2 c (owns (c : Thread nD τ) scM2_0 fullShare (outsAt2 V c n hn).2.1) (owns (c : Thread nD τ) scM2_1 fullShare (outsAt2 V c n hn).2.2.1)
      (owns (c : Thread nD τ) scM2_2 fullShare (outsAt2 V c n hn).2.2.2.1) (owns (c : Thread nD τ) scM2_3 fullShare (outsAt2 V c n hn).2.2.2.2) := rfl

/-- Before a point that is not the first: the carried arrays at what the point before left. -/
theorem PhiS2_pos (c : Dev nD) (n : ℕ) (h : n ≤ cfg2.N) (hz : n ≠ 0) :
    PhiS2 V c n h = inv2 c (owns (c : Thread nD τ) scM2_0 fullShare (outsAt2 V c (n - 1) (by omega)).2.1) (owns (c : Thread nD τ) scM2_1 fullShare (outsAt2 V c (n - 1) (by omega)).2.2.1)
      (owns (c : Thread nD τ) scM2_2 fullShare (outsAt2 V c (n - 1) (by omega)).2.2.2.1) (owns (c : Thread nD τ) scM2_3 fullShare (outsAt2 V c (n - 1) (by omega)).2.2.2.2) := by
  cases n with
  | zero => exact absurd rfl hz
  | succ n => rfl

/-! ## The pipeline's proof data -/

/-- The proof data of the attention launch on core `c`: the arrays as the region finds them; after the body at point
    `t` each input's buffer at its block and the output tile's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the carried arrays' named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_inv]
  unfold inv2
  iintro ⟨⟨R1, R2, R3, R4, R5, R6, R7, R8, R9, R10, R11, R12, HS0, HS1, HS2, HS3⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [HS0]; · iexists _; iexact HS0
    isplitl [HS1]; · iexists _; iexact HS1
    isplitl [HS2]; · iexists _; iexact HS2
    iexists _; iexact HS3
  iexact Hg

/-- The same after the last point. -/
theorem hout2 (c : Dev nD) : (dat2 (F := F) V c).Φ (Fin.last cfg2.N) ⊢ Pipeline.ΦA spec2 c :=
  Phi_out2 V c _ (by rw [Fin.val_last]; have : cfg2.N = 64 := N_2; omega)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the point's residue mod 4 says which case it is in;
    the invariant hands the body the carried arrays at what the point before left (at anything at the very first
    point) and takes them back at this point's contents; the output tile is handed back untouched except at a last
    key chunk, where it is stored whole; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  have hlt : t.val - 1 < cfg2.N := Nat.lt_of_le_of_lt (Nat.sub_le _ _) t.isLt
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 4 = 0
  · have h1 : ¬t.val % 4 = 3 := by omega
    rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
    rw [outsAt2_A V c t h0 h1]
    unfold ptA2 sout2_A_0 sout2_A_1 sout2_A_2 sout2_A_3; (try dsimp only)
    by_cases hz : t.val = 0
    · rw [PhiS2_castSucc V c t, PhiS2_zero V c _ _ hz, PhiA2_inv]
      unfold inv2
      iintro ⟨⟨⟨R1, R2, R3, R4, R5, R6, R7, R8, R9, R10, R11, R12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [R1 R2 R3 R4 R5 R6 R7 R8 R9 R10 R11 R12 HS0 HS1 HS2 HS3 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_A_2 c _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover2_A_3 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      unfold inv2
      iintro ⟨⟨⟨R1, R2, R3, R4, R5, R6, R7, R8, R9, R10, R11, R12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [R1 R2 R3 R4 R5 R6 R7 R8 R9 R10 R11 R12 HS0 HS1 HS2 HS3 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_A_2 c _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover2_A_3 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    by_cases h1 : t.val % 4 = 3
    · rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold ptC2 out2_C_6 sout2_C_0 sout2_C_1 sout2_C_2; (try dsimp only)
      rw [PhiS2_castSucc V c t, PhiS2_pos V c _ _ hz]
      unfold inv2
      iintro ⟨⟨⟨R1, R2, R3, R4, R5, R6, R7, R8, R9, R10, R11, R12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) hlt).2.1 (outsAt2 V c (t.val - 1) hlt).2.2.1 (outsAt2 V c (t.val - 1) hlt).2.2.2.1 (outsAt2 V c (t.val - 1) hlt).2.2.2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, ⟨%es1, HS1⟩, ⟨%es2, HS2⟩, HS3⟩
      isplitl [R1 R2 R3 R4 R5 R6 R7 R8 R9 R10 R11 R12 HS0 HS1 HS2 HS3 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_C_2 c _ _ _ _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _ _ _ _ _ _ _ _ _ _)
    · rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold ptB2 sout2_B_0 sout2_B_1 sout2_B_2; (try dsimp only)
      rw [PhiS2_castSucc V c t, PhiS2_pos V c _ _ hz]
      unfold inv2
      iintro ⟨⟨⟨R1, R2, R3, R4, R5, R6, R7, R8, R9, R10, R11, R12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) hlt).2.1 (outsAt2 V c (t.val - 1) hlt).2.2.1 (outsAt2 V c (t.val - 1) hlt).2.2.2.1 (outsAt2 V c (t.val - 1) hlt).2.2.2.2).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, HS3⟩
      isplitl [R1 R2 R3 R4 R5 R6 R7 R8 R9 R10 R11 R12 HS0 HS1 HS2 HS3 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_B_2 c _ _ _ _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KFrameRun.lean ====
import proofs.«113779_j37349035606587_2_alg».proof.Proof.Gen.Kernel.Launch
import proofs.«113779_j37349035606587_2_alg».proof.Proof.Gen.Kernel.Skeleton
import proofs.«113779_j37349035606587_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.KFrameCondNamed
import proofs.«113779_j37349035606587_2_alg».proof.Proof.KFrameProj
import proofs.«113779_j37349035606587_2_alg».proof.Proof.KFrameAttnData
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the launches -/

/-- A valuation read at the TensorCore's references: what a launch's proof data take as entry contents. -/
abbrev rd (W : Dev nD → Valuation τ sig (Elt F)) : (c : Dev nD) → (b : Ref sig .tc) → Buf (Elt F) ((c : Thread nD τ).loc b) :=
  fun c b => W c b

/-- Before launch 0: the launch memory after the first host lines (the reshapes of k and v, Wᵀ, the bias row). -/
abbrev W1 (c : Dev nD) : Valuation τ sig (Elt F) := V1 m c
/-- What launch 0 leaves in its output array: the projected keys. -/
def o2 (c : Dev nD) : Buf (Elt F) ((c : Thread nD τ).loc main_v5) := (dat0 (rd (W1 m)) c).arrAt 3 cfg0.N
/-- After launch 0. -/
def W2 (c : Dev nD) : Valuation τ sig (Elt F) := Function.update (W1 m c) main_v5 (o2 m c)
/-- Before launch 1: after the reshape of the projected keys. -/
def W3 (c : Dev nD) : Valuation τ sig (Elt F) := StableHlo.after hostOps1 (W2 m c)
/-- What launch 1 leaves in its output array: the projected values. -/
def o4 (c : Dev nD) : Buf (Elt F) ((c : Thread nD τ).loc main_v7) := (dat1 (rd (W3 m)) c).arrAt 3 cfg1.N
/-- After launch 1. -/
def W4 (c : Dev nD) : Valuation τ sig (Elt F) := Function.update (W3 m c) main_v7 (o4 m c)
/-- Before launch 2: after the reshape of the projected values. -/
def W5 (c : Dev nD) : Valuation τ sig (Elt F) := StableHlo.after hostOps2 (W4 m c)
/-- What launch 2 leaves in its output array: the attention output. -/
def o6 (c : Dev nD) : Buf (Elt F) ((c : Thread nD τ).loc main_v9) := (dat2 (rd (W5 m)) c).arrAt 6 cfg2.N
/-- After launch 2. -/
def W6 (c : Dev nD) : Valuation τ sig (Elt F) := Function.update (W5 m c) main_v9 (o6 m c)

/-- What the launches leave, in the conditional frame's vocabulary. -/
def outs : Outs (F := F) := fun n r c =>
  match n with
  | 2 => W2 m c r
  | 4 => W4 m c r
  | 6 => W6 m c r
  | _ => W1 m c r

theorem V2_eq (c : Dev nD) : V2 m (outs m) c = W2 m c := by
  show Function.update (V1 m c) main_v5 (W2 m c main_v5) = W2 m c
  unfold W2; rw [Function.update_self]
theorem V3_eq (c : Dev nD) : V3 m (outs m) c = W3 m c := by
  show StableHlo.after hostOps1 (V2 m (outs m) c) = _; rw [V2_eq]; rfl
theorem V4_eq (c : Dev nD) : V4 m (outs m) c = W4 m c := by
  show Function.update (V3 m (outs m) c) main_v7 (W4 m c main_v7) = W4 m c
  rw [V3_eq]; unfold W4; rw [Function.update_self]
theorem V5_eq (c : Dev nD) : V5 m (outs m) c = W5 m c := by
  show StableHlo.after hostOps2 (V4 m (outs m) c) = _; rw [V4_eq]; rfl
theorem V6_eq (c : Dev nD) : V6 m (outs m) c = W6 m c := by
  show Function.update (V5 m (outs m) c) main_v9 (W6 m c main_v9) = W6 m c
  rw [V5_eq]; unfold W6; rw [Function.update_self]
theorem outs6 (c : Dev nD) : outs m 6 main_v9 c = o6 m c := by
  show W6 m c main_v9 = _; unfold W6; rw [Function.update_self]

/-! ## The proof data family and the thread state -/

/-- Every pipeline's proof data, each at its launch's entry contents. -/
def pdats : (p : Fin 3) → (c : Dev nD) → Dat τ (Elt F) Unit ℕ (UR sig nD τ) ℕ (cfgs p) c
  | ⟨0, _⟩ => fun c => dat0 (rd (W1 m)) c
  | ⟨1, _⟩ => fun c => dat1 (rd (W3 m)) c
  | ⟨2, _⟩ => fun c => dat2 (rd (W5 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)

/-! ## Each launch's arrays at its exit -/

theorem W2_of_ne (c : Dev nD) (r : Ref sig .tc) (h : r ≠ main_v5) : W2 m c r = W1 m c r := by
  unfold W2; exact Function.update_of_ne (StableHlo.devRef_ne_of_ne h) _ _
theorem W2_out (c : Dev nD) : W2 m c main_v5 = o2 m c := by
  unfold W2; rw [Function.update_self]
theorem hF0 (c : Dev nD) (w : Fin cfg0.W) : (pdats m 0 c).arrAt w cfg0.N = rd (W2 m) c (Pipeline.arrRef spec0 w) := by
  match w with
  | ⟨0, _⟩ => exact ((dat0 (rd (W1 m)) c).arrAt_in 0 rfl _).trans (W2_of_ne m c main_v0 (by decide)).symm
  | ⟨1, _⟩ => exact ((dat0 (rd (W1 m)) c).arrAt_in 1 rfl _).trans (W2_of_ne m c main_v3 (by decide)).symm
  | ⟨2, _⟩ => exact ((dat0 (rd (W1 m)) c).arrAt_in 2 rfl _).trans (W2_of_ne m c main_v4 (by decide)).symm
  | ⟨3, _⟩ => exact (W2_out m c).symm
theorem hrest0 (c : Dev nD) : ∀ b, b ∉ Finset.univ.image (Pipeline.arrRef spec0) → rd (W2 m) c b = rd (W1 m) c b :=
  fun b hb => W2_of_ne m c b fun e => hb (Finset.mem_image.mpr ⟨3, Finset.mem_univ _, e.symm⟩)
theorem W4_of_ne (c : Dev nD) (r : Ref sig .tc) (h : r ≠ main_v7) : W4 m c r = W3 m c r := by
  unfold W4; exact Function.update_of_ne (StableHlo.devRef_ne_of_ne h) _ _
theorem W4_out (c : Dev nD) : W4 m c main_v7 = o4 m c := by
  unfold W4; rw [Function.update_self]
theorem hF1 (c : Dev nD) (w : Fin cfg1.W) : (pdats m 1 c).arrAt w cfg1.N = rd (W4 m) c (Pipeline.arrRef spec1 w) := by
  match w with
  | ⟨0, _⟩ => exact ((dat1 (rd (W3 m)) c).arrAt_in 0 rfl _).trans (W4_of_ne m c main_v1 (by decide)).symm
  | ⟨1, _⟩ => exact ((dat1 (rd (W3 m)) c).arrAt_in 1 rfl _).trans (W4_of_ne m c main_v3 (by decide)).symm
  | ⟨2, _⟩ => exact ((dat1 (rd (W3 m)) c).arrAt_in 2 rfl _).trans (W4_of_ne m c main_v4 (by decide)).symm
  | ⟨3, _⟩ => exact (W4_out m c).symm
theorem hrest1 (c : Dev nD) : ∀ b, b ∉ Finset.univ.image (Pipeline.arrRef spec1) → rd (W4 m) c b = rd (W3 m) c b :=
  fun b hb => W4_of_ne m c b fun e => hb (Finset.mem_image.mpr ⟨3, Finset.mem_univ _, e.symm⟩)
theorem W6_of_ne (c : Dev nD) (r : Ref sig .tc) (h : r ≠ main_v9) : W6 m c r = W5 m c r := by
  unfold W6; exact Function.update_of_ne (StableHlo.devRef_ne_of_ne h) _ _
theorem W6_out (c : Dev nD) : W6 m c main_v9 = o6 m c := by
  unfold W6; rw [Function.update_self]
theorem hF2 (c : Dev nD) (w : Fin cfg2.W) : (pdats m 2 c).arrAt w cfg2.N = rd (W6 m) c (Pipeline.arrRef spec2 w) := by
  match w with
  | ⟨0, _⟩ => exact ((dat2 (rd (W5 m)) c).arrAt_in 0 rfl _).trans (W6_of_ne m c main_arg0 (by decide)).symm
  | ⟨1, _⟩ => exact ((dat2 (rd (W5 m)) c).arrAt_in 1 rfl _).trans (W6_of_ne m c main_v6 (by decide)).symm
  | ⟨2, _⟩ => exact ((dat2 (rd (W5 m)) c).arrAt_in 2 rfl _).trans (W6_of_ne m c main_v8 (by decide)).symm
  | ⟨3, _⟩ => exact ((dat2 (rd (W5 m)) c).arrAt_in 3 rfl _).trans (W6_of_ne m c main_arg3 (by decide)).symm
  | ⟨4, _⟩ => exact ((dat2 (rd (W5 m)) c).arrAt_in 4 rfl _).trans (W6_of_ne m c main_v3 (by decide)).symm
  | ⟨5, _⟩ => exact ((dat2 (rd (W5 m)) c).arrAt_in 5 rfl _).trans (W6_of_ne m c main_v4 (by decide)).symm
  | ⟨6, _⟩ => exact (W6_out m c).symm
theorem hrest2 (c : Dev nD) : ∀ b, b ∉ Finset.univ.image (Pipeline.arrRef spec2) → rd (W6 m) c b = rd (W5 m) c b :=
  fun b hb => W6_of_ne m c b fun e => hb (Finset.mem_image.mpr ⟨6, Finset.mem_univ _, e.symm⟩)

/-! ## The launches as segments -/

set_option backward.isDefEq.respectTransparency.types false in
/-- Launch 0 over the thread state: entered with every unscoped buffer at `W1`, left with them at `W2`. Its windows'
    arrays are split out of the unscoped buffers at entry and put back at their final contents at exit; the generator
    register goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (rd (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W1 m) c) fun w => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W1 m) c) (rd (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its windows'
    arrays are split out of the unscoped buffers at entry and put back at their final contents at exit; the generator
    register goes into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (rd (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (W3 m) c) fun w => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (W3 m) c) (rd (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left with them at `W6`. Its windows'
    arrays are split out of the unscoped buffers at entry and put back at their final contents at exit; the generator
    register goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (rd (W5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (W5 m) c) fun w => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (rd (W5 m)) c)
    unfold Pipeline.ΦA
    iintro ⟨Hp, -, Hr⟩
    isplitl [Hr]; · iexact Hr
    iexact Hp
  hout c := by
    rw [Pipeline.ownSems0_none]
    refine (hout2 (rd (W5 m)) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (W5 m) c) (rd (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of the program terminates, nothing faulting; the result
    array ends at what the attention launch leaves in it and every argument array as launched. -/
theorem run_named : θ_run defs (onTc (τ := τ) (main (F := F))) ⟨m, fun _ => 0, ρ⟩ (fun r => ∀ c : Dev nD,
      r.2.mem ((c.tc : Thread nD τ).loc main_v9) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have key : θ_run defs (onTc (τ := τ) (main (F := F))) ⟨m, fun _ => 0, ρ⟩ (fun r => ∀ c : Dev nD,
      r.2.mem ((c.tc : Thread nD τ).loc main_v9) = outs m 6 main_v9 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := ?_
  · exact (θ_run defs _ _).mono (fun r h c => ⟨((h c).1).trans (outs6 m c), (h c).2⟩) key
  exact frame_cond_named m (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)

end Cert.Kernel.Hand

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibTileOps.lean ====
import Idealize.ShloMosaic.Lib.Pipeline.Value
import Idealize.ShloMosaic.Lib.ValueIdx
import Idealize.ShloMosaic.Lib.ValueLayout
import Idealize.ShloMosaic.PureOps.Ideal.Laws

/-!
Layout and word operations of a masked tile sum, each read at an index given by coordinates:
a row of length `c` broadcast over an `a × b` grid, sums over the last axis of a rank-3 array and over the
rows of a one-column matrix, a static extract, the integer operations, and a signed comparison of two small
natural numbers written as 32-bit words.
-/

noncomputable section

open scoped BigOperators

namespace Idealize.ShloMosaic.ValueIdx

open Idealize.ShloMosaic

variable {α : Type}

/-! ## A row broadcast over a grid -/

/-- A `[1, 1, c]` array broadcast to `[a, b, c]` reads, at `(i, j, k)`, the operand at `(0, 0, k)`: every
    grid position sees the same row. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## Sums over one axis -/

/-- The entry `(i, j, k)` is the index `(i, j)` with the coordinate `k` put back on the last axis. -/
theorem lift_last3 {a b c : ℕ} (h : (⟨3, ![a, b, c]⟩ : Shape).Reduces [2] ⟨2, ![a, b]⟩)
    (i : Fin a) (j : Fin b) (k : Fin c) : h.lift (ix2 i j) k = ix3 i j k := by
  funext ax
  match ax with
  | ⟨0, _⟩ => rfl
  | ⟨1, _⟩ => rfl
  | ⟨2, _⟩ => rfl

/-- A sum over the last axis of `[a, b, c]`, at `(i, j)`: the sum over `k` of the entries `(i, j, k)`. -/
theorem multiReduction_add_last3 {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) := by
  rw [Ideal.multiReduction_add_single]
  exact Finset.sum_congr rfl fun k _ => congrArg src (lift_last3 h i j k)

/-- The entry `(k, z)` of a matrix is the column index `z` with the coordinate `k` put back on the first axis. -/
theorem lift_col {a b : ℕ} (h : (⟨2, ![a, b]⟩ : Shape).Reduces [0] ⟨1, ![b]⟩) (z : Fin b) (k : Fin a) :
    h.lift (ix1 z) k = ix2 k z := by
  funext ax
  match ax with
  | ⟨0, _⟩ => rfl
  | ⟨1, _⟩ => rfl

/-- A sum over the first axis of `[a, b]`, at column `z`: the sum over `k` of the entries `(k, z)`. -/
theorem multiReduction_add_col {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (z : Fin b) :
    multiReduction .add [0] ⟨1, ![b]⟩ src acc h hφ hacc (ix1 z) = ∑ k : Fin a, src (ix2 k z) := by
  rw [Ideal.multiReduction_add_single]
  exact Finset.sum_congr rfl fun k _ => congrArg src (lift_col h z k)

/-! ## A static extract, and the integer operations at an index -/

/-- The one entry of a `[1, 1]` array extracted at the static position `(0, 0)`. -/
theorem extractAt_00_apply (x : (⟨2, ![1, 1]⟩ : Shape).Idx → α)
    (h : ∀ ax, (![0, 0] : Fin 2 → ℕ) ax < (⟨2, ![1, 1]⟩ : Shape).size ax) :
    extractAt ![0, 0] x h = x (ix2 (0 : Fin 1) (0 : Fin 1)) := by
  unfold extractAt
  refine congrArg x (funext fun ax => ?_)
  match ax with
  | ⟨0, _⟩ => rfl
  | ⟨1, _⟩ => rfl

section Words
variable {s : Shape} {w : ℕ}

/-- An integer sum at an index is the sum of the words. -/
theorem addi_apply (x y : IVec s w) (i : s.Idx) : addi x y i = IntOp.addi (x i) (y i) := rfl
/-- A bitwise conjunction at an index is the conjunction of the words. -/
theorem andi_apply (x y : IVec s w) (i : s.Idx) : andi x y i = IntOp.andi (x i) (y i) := rfl
/-- An integer comparison at an index compares the words. -/
theorem cmpi_apply (p : CmpIPredicate) (x y : IVec s w) (i : s.Idx) : cmpi p x y i = IntOp.cmpi p (x i) (y i) := rfl

end Words

/-- The row number along the first axis of a matrix, as a word. -/
theorem iota_d0_ix2 {κ : Kind} {a b w : ℕ} (h : (⟨2, ![a, b]⟩ : Shape).Iotas κ w [0]) (r : Fin a) (c : Fin b) :
    iota κ ⟨2, ![a, b]⟩ w [0] h (ix2 r c) = BitVec.ofNat w r.val :=
  iota_single_apply κ _ w 0 h (ix2 r c)

/-- The column number along the second axis of a matrix, as a word. -/
theorem iota_d1_ix2 {κ : Kind} {a b w : ℕ} (h : (⟨2, ![a, b]⟩ : Shape).Iotas κ w [1]) (r : Fin a) (c : Fin b) :
    iota κ ⟨2, ![a, b]⟩ w [1] h (ix2 r c) = BitVec.ofNat w c.val :=
  iota_single_apply κ _ w 1 h (ix2 r c)

/-! ## Small natural numbers as 32-bit words -/

/-- `t · m + r` computed on 32-bit words is the word of the natural number `t · m + r`. -/
theorem addi_muli_ofNat (t m r : ℕ) :
    IntOp.addi (Scalar.muli (BitVec.ofNat 32 t) (BitVec.ofNat 32 m)) (BitVec.ofNat 32 r)
      = BitVec.ofNat 32 (t * m + r) := by
  show BitVec.ofNat 32 t * BitVec.ofNat 32 m + BitVec.ofNat 32 r = _
  rw [BitVec.ofNat_add, BitVec.ofNat_mul]

/-- Below `2 ^ 31` the signed comparison of two words is the comparison of the natural numbers they encode. -/
theorem cmpi_slt_ofNat {n m : ℕ} (hn : n < 2 ^ 31) (hm : m < 2 ^ 31) :
    IntOp.cmpi .slt (BitVec.ofNat 32 n) (BitVec.ofNat 32 m) = if n < m then 1#1 else 0#1 := by
  have e : (BitVec.ofNat 32 n).slt (BitVec.ofNat 32 m) = decide (n < m) := by
    rw [BitVec.slt, BitVec.toInt_eq_toNat_cond, BitVec.toInt_eq_toNat_cond, BitVec.toNat_ofNat, BitVec.toNat_ofNat]
    have h1 : n % 2 ^ 32 = n := Nat.mod_eq_of_lt (by omega)
    have h2 : m % 2 ^ 32 = m := Nat.mod_eq_of_lt (by omega)
    rw [h1, h2, if_pos (by omega), if_pos (by omega)]
    simp
  show BitVec.ofBool ((BitVec.ofNat 32 n).slt (BitVec.ofNat 32 m)) = _
  rw [e]
  by_cases h : n < m <;> simp [h]

/-- A select on the conjunction of two decided bits is the `if` on the conjunction of the two conditions. -/
theorem select_andi_ite (p q : Prop) [Decidable p] [Decidable q] (x y : α) :
    Scalar.select (IntOp.andi (if p then 1#1 else 0#1) (if q then 1#1 else 0#1)) x y = if p ∧ q then x else y := by
  by_cases hp : p <;> by_cases hq : q <;> simp [hp, hq, Scalar.select, IntOp.andi]

end Idealize.ShloMosaic.ValueIdx

end
-- ==== Proof.StepValue.lean ====
/-
  The attention kernel's step functions, and the projection kernels' payload, read at one entry.

  At the ideal instance a float is an extended real, every operation is exact and the format changes are the
  identity, so each array the kernel body computes has, at an entry given by coordinates, a closed form in the
  entries of the arrays it reads: a projection is a row of `x` against a column of `W` plus the bias; a key
  chunk's masked, scaled score `csc` is `⊥` where the mask is set and the query row against the key row times
  the scale elsewhere; the running maximum is the old one against the chunk's largest score; the running
  denominator and numerator are the old ones rescaled by `exp (old max − new max)` plus the chunk's
  `exp (score − new max)` weights, resp. the weights against the values; the output is numerator over
  denominator.
-/
import proofs.«113779_j37349035606587_2_alg».proof.Proof.AttnStep
import proofs.«113779_j37349035606587_2_alg».proof.Proof.LibMatDot
import proofs.«113779_j37349035606587_2_alg».proof.Proof.LibTileOps
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.Attn

open Idealize.ShloMosaic Idealize.ShloMosaic.ValueIdx Cert.KernelIdeal Cert.KernelIdeal.Gen

/-! ## Layout operations and reductions on a tile with a leading unit axis, read at an entry -/

section Layout
variable {α : Type}

/-- A column `[1, b, 1]` broadcast along the last axis reads, at `(0, j, e)`, the column at `(0, j, 0)`. -/
theorem broadcastTo_1b1_1bc_apply {b c : ℕ} (v : (⟨3, ![1, b, 1]⟩ : Shape).Idx → α)
    (h : (⟨3, ![1, b, 1]⟩ : Shape).Broadcasts ⟨3, ![1, b, c]⟩) (hb : b ≠ 1) (j : Fin b) (e : Fin c) :
    broadcastTo ⟨3, ![1, b, c]⟩ v h (ix3 (0 : Fin 1) j e) = v (ix3 (0 : Fin 1) j (0 : Fin 1)) :=
  broadcastTo_apply v h _ _ (fun ax => by
    match ax with
    | ⟨0, _⟩ => show (0 : ℕ) = if (1 : ℕ) = 1 then 0 else _; rw [if_pos rfl]
    | ⟨1, _⟩ => show j.val = if b = 1 then 0 else j.val; rw [if_neg hb]
    | ⟨2, _⟩ => show 0 = if (1 : ℕ) = 1 then 0 else e.val; rw [if_pos rfl])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A maximum over the last axis of `[a, b, c]` from an accumulator that denotes `⊥`, at `(i, j)`: the supremum
    over `k` of the entries `(i, j, k)`. -/
theorem multiReduction_max_last3 {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (hbot : Ideal.ofBits φ acc = ⊥) (i : Fin a) (j : Fin b) :
    multiReduction .maximumf [2] ⟨2, ![a, b]⟩ src acc h hφ hacc (ix2 i j)
      = Finset.univ.sup fun k : Fin c => src (ix3 i j k) := by
  refine (Ideal.multiReduction_maximumf_single src acc h hφ hacc (ix2 i j)).trans ?_
  show Finset.fold max (Ideal.ofBits φ acc) (fun k : Fin c => src (h.lift (ix2 i j) k)) Finset.univ
    = Finset.fold max ⊥ (fun k : Fin c => src (ix3 i j k)) Finset.univ
  rw [hbot]
  exact congrArg (fun f => Finset.fold max ⊥ f Finset.univ) (funext fun k => congrArg src (lift_last3 h i j k))

end Layout

/-! ## The two batched matrix products, read at an entry -/

section Dots
variable [Facts]

theorem lhsQK_0 (i : S1x1024x512.Idx) (q : dot_S1x1024x768_S1x512x768_S1x1024x512_2_2_1_1_0_0.contr.Idx) :
    (dot_S1x1024x768_S1x512x768_S1x1024x512_2_2_1_1_0_0.lhsIdx i q 0).val = (i 0).val := by
  unfold DotDims.lhsIdx
  rw [dif_pos (show (0 : Fin S1x1024x768.rank) ∈ dot_S1x1024x768_S1x512x768_S1x1024x512_2_2_1_1_0_0.lhsBatch by decide)]
  rfl
theorem lhsQK_1 (i : S1x1024x512.Idx) (q : dot_S1x1024x768_S1x512x768_S1x1024x512_2_2_1_1_0_0.contr.Idx) :
    (dot_S1x1024x768_S1x512x768_S1x1024x512_2_2_1_1_0_0.lhsIdx i q 1).val = (i 1).val := by
  unfold DotDims.lhsIdx
  rw [dif_neg (show ¬(1 : Fin S1x1024x768.rank) ∈ dot_S1x1024x768_S1x512x768_S1x1024x512_2_2_1_1_0_0.lhsBatch by decide),
    dif_pos (show (1 : Fin S1x1024x768.rank) ∈ dot_S1x1024x768_S1x512x768_S1x1024x512_2_2_1_1_0_0.lhsNonContracting by decide)]
  rfl
theorem lhsQK_2 (i : S1x1024x512.Idx) (q : dot_S1x1024x768_S1x512x768_S1x1024x512_2_2_1_1_0_0.contr.Idx) :
    (dot_S1x1024x768_S1x512x768_S1x1024x512_2_2_1_1_0_0.lhsIdx i q 2).val = (q ⟨0, by decide⟩).val :=
  dot_S1x1024x768_S1x512x768_S1x1024x512_2_2_1_1_0_0.lhsIdx_val_of_single rfl i q
theorem rhsQK_0 (i : S1x1024x512.Idx) (q : dot_S1x1024x768_S1x512x768_S1x1024x512_2_2_1_1_0_0.contr.Idx) :
    (dot_S1x1024x768_S1x512x768_S1x1024x512_2_2_1_1_0_0.rhsIdx i q 0).val = (i 0).val := by
  unfold DotDims.rhsIdx
  rw [dif_pos (show (0 : Fin S1x512x768.rank) ∈ dot_S1x1024x768_S1x512x768_S1x1024x512_2_2_1_1_0_0.rhsBatch by decide)]
  rfl
theorem rhsQK_1 (i : S1x1024x512.Idx) (q : dot_S1x1024x768_S1x512x768_S1x1024x512_2_2_1_1_0_0.contr.Idx) :
    (dot_S1x1024x768_S1x512x768_S1x1024x512_2_2_1_1_0_0.rhsIdx i q 1).val = (i 2).val := by
  unfold DotDims.rhsIdx
  rw [dif_neg (show ¬(1 : Fin S1x512x768.rank) ∈ dot_S1x1024x768_S1x512x768_S1x1024x512_2_2_1_1_0_0.rhsBatch by decide),
    dif_pos (show (1 : Fin S1x512x768.rank) ∈ dot_S1x1024x768_S1x512x768_S1x1024x512_2_2_1_1_0_0.rhsNonContracting by decide)]
  rfl
theorem rhsQK_2 (i : S1x1024x512.Idx) (q : dot_S1x1024x768_S1x512x768_S1x1024x512_2_2_1_1_0_0.contr.Idx) :
    (dot_S1x1024x768_S1x512x768_S1x1024x512_2_2_1_1_0_0.rhsIdx i q 2).val = (q ⟨0, by decide⟩).val :=
  dot_S1x1024x768_S1x512x768_S1x1024x512_2_2_1_1_0_0.rhsIdx_val_of_single rfl i q

/-- Queries against keys: entry `(0, r, c)` is query row `r` against key row `c`. -/
theorem dotQK_apply (q : FVec Ideal S1x1024x768 .bf16) (k : FVec Ideal S1x512x768 .bf16) (r : Fin 1024) (c : Fin 512) :
    FloatOps.matmul dot_S1x1024x768_S1x512x768_S1x1024x512_2_2_1_1_0_0 none q k
        (constant (F := Ideal) S1x1024x512 .f32 0x00000000#32) (ix3 0 r c)
      = ∑ e : Fin 768, q (ix3 0 r e) * k (ix3 0 c e) := by
  rw [Ideal.matmul_constant_zero_apply,
    ← Equiv.sum_comp (contrEquiv1 dot_S1x1024x768_S1x512x768_S1x1024x512_2_2_1_1_0_0 768 rfl rfl).symm]
  refine Finset.sum_congr rfl fun e _ => ?_
  have hk := contrEquiv1_symm_val dot_S1x1024x768_S1x512x768_S1x1024x512_2_2_1_1_0_0 768 rfl rfl e
  have el : dot_S1x1024x768_S1x512x768_S1x1024x512_2_2_1_1_0_0.lhsIdx (ix3 0 r c)
      ((contrEquiv1 dot_S1x1024x768_S1x512x768_S1x1024x512_2_2_1_1_0_0 768 rfl rfl).symm e) = ix3 0 r e :=
    funext fun a => Fin.ext (by
      match a with
      | ⟨0, _⟩ => exact lhsQK_0 _ _
      | ⟨1, _⟩ => exact lhsQK_1 _ _
      | ⟨2, _⟩ => exact (lhsQK_2 _ _).trans hk)
  have er : dot_S1x1024x768_S1x512x768_S1x1024x512_2_2_1_1_0_0.rhsIdx (ix3 0 r c)
      ((contrEquiv1 dot_S1x1024x768_S1x512x768_S1x1024x512_2_2_1_1_0_0 768 rfl rfl).symm e) = ix3 0 c e :=
    funext fun a => Fin.ext (by
      match a with
      | ⟨0, _⟩ => exact rhsQK_0 _ _
      | ⟨1, _⟩ => exact rhsQK_1 _ _
      | ⟨2, _⟩ => exact (rhsQK_2 _ _).trans hk)
  rw [el, er]

theorem lhsPV_0 (i : S1x1024x768.Idx) (q : dot_S1x1024x512_S1x512x768_S1x1024x768_2_1_1_2_0_0.contr.Idx) :
    (dot_S1x1024x512_S1x512x768_S1x1024x768_2_1_1_2_0_0.lhsIdx i q 0).val = (i 0).val := by
  unfold DotDims.lhsIdx
  rw [dif_pos (show (0 : Fin S1x1024x512.rank) ∈ dot_S1x1024x512_S1x512x768_S1x1024x768_2_1_1_2_0_0.lhsBatch by decide)]
  rfl
theorem lhsPV_1 (i : S1x1024x768.Idx) (q : dot_S1x1024x512_S1x512x768_S1x1024x768_2_1_1_2_0_0.contr.Idx) :
    (dot_S1x1024x512_S1x512x768_S1x1024x768_2_1_1_2_0_0.lhsIdx i q 1).val = (i 1).val := by
  unfold DotDims.lhsIdx
  rw [dif_neg (show ¬(1 : Fin S1x1024x512.rank) ∈ dot_S1x1024x512_S1x512x768_S1x1024x768_2_1_1_2_0_0.lhsBatch by decide),
    dif_pos (show (1 : Fin S1x1024x512.rank) ∈ dot_S1x1024x512_S1x512x768_S1x1024x768_2_1_1_2_0_0.lhsNonContracting by decide)]
  rfl
theorem lhsPV_2 (i : S1x1024x768.Idx) (q : dot_S1x1024x512_S1x512x768_S1x1024x768_2_1_1_2_0_0.contr.Idx) :
    (dot_S1x1024x512_S1x512x768_S1x1024x768_2_1_1_2_0_0.lhsIdx i q 2).val = (q ⟨0, by decide⟩).val :=
  dot_S1x1024x512_S1x512x768_S1x1024x768_2_1_1_2_0_0.lhsIdx_val_of_single rfl i q
theorem rhsPV_0 (i : S1x1024x768.Idx) (q : dot_S1x1024x512_S1x512x768_S1x1024x768_2_1_1_2_0_0.contr.Idx) :
    (dot_S1x1024x512_S1x512x768_S1x1024x768_2_1_1_2_0_0.rhsIdx i q 0).val = (i 0).val := by
  unfold DotDims.rhsIdx
  rw [dif_pos (show (0 : Fin S1x512x768.rank) ∈ dot_S1x1024x512_S1x512x768_S1x1024x768_2_1_1_2_0_0.rhsBatch by decide)]
  rfl
theorem rhsPV_1 (i : S1x1024x768.Idx) (q : dot_S1x1024x512_S1x512x768_S1x1024x768_2_1_1_2_0_0.contr.Idx) :
    (dot_S1x1024x512_S1x512x768_S1x1024x768_2_1_1_2_0_0.rhsIdx i q 1).val = (q ⟨0, by decide⟩).val :=
  dot_S1x1024x512_S1x512x768_S1x1024x768_2_1_1_2_0_0.rhsIdx_val_of_single rfl i q
theorem rhsPV_2 (i : S1x1024x768.Idx) (q : dot_S1x1024x512_S1x512x768_S1x1024x768_2_1_1_2_0_0.contr.Idx) :
    (dot_S1x1024x512_S1x512x768_S1x1024x768_2_1_1_2_0_0.rhsIdx i q 2).val = (i 2).val := by
  unfold DotDims.rhsIdx
  rw [dif_neg (show ¬(2 : Fin S1x512x768.rank) ∈ dot_S1x1024x512_S1x512x768_S1x1024x768_2_1_1_2_0_0.rhsBatch by decide),
    dif_pos (show (2 : Fin S1x512x768.rank) ∈ dot_S1x1024x512_S1x512x768_S1x1024x768_2_1_1_2_0_0.rhsNonContracting by decide)]
  rfl

/-- Weights against values: entry `(0, r, e)` is weight row `r` against value column `e`. -/
theorem dotPV_apply (p : FVec Ideal S1x1024x512 .bf16) (v : FVec Ideal S1x512x768 .bf16) (r : Fin 1024) (e : Fin 768) :
    FloatOps.matmul dot_S1x1024x512_S1x512x768_S1x1024x768_2_1_1_2_0_0 none p v
        (constant (F := Ideal) S1x1024x768 .f32 0x00000000#32) (ix3 0 r e)
      = ∑ k : Fin 512, p (ix3 0 r k) * v (ix3 0 k e) := by
  rw [Ideal.matmul_constant_zero_apply,
    ← Equiv.sum_comp (contrEquiv1 dot_S1x1024x512_S1x512x768_S1x1024x768_2_1_1_2_0_0 512 rfl rfl).symm]
  refine Finset.sum_congr rfl fun k _ => ?_
  have hk := contrEquiv1_symm_val dot_S1x1024x512_S1x512x768_S1x1024x768_2_1_1_2_0_0 512 rfl rfl k
  have el : dot_S1x1024x512_S1x512x768_S1x1024x768_2_1_1_2_0_0.lhsIdx (ix3 0 r e)
      ((contrEquiv1 dot_S1x1024x512_S1x512x768_S1x1024x768_2_1_1_2_0_0 512 rfl rfl).symm k) = ix3 0 r k :=
    funext fun a => Fin.ext (by
      match a with
      | ⟨0, _⟩ => exact lhsPV_0 _ _
      | ⟨1, _⟩ => exact lhsPV_1 _ _
      | ⟨2, _⟩ => exact (lhsPV_2 _ _).trans hk)
  have er : dot_S1x1024x512_S1x512x768_S1x1024x768_2_1_1_2_0_0.rhsIdx (ix3 0 r e)
      ((contrEquiv1 dot_S1x1024x512_S1x512x768_S1x1024x768_2_1_1_2_0_0 512 rfl rfl).symm k) = ix3 0 k e :=
    funext fun a => Fin.ext (by
      match a with
      | ⟨0, _⟩ => exact rhsPV_0 _ _
      | ⟨1, _⟩ => exact (rhsPV_1 _ _).trans hk
      | ⟨2, _⟩ => exact rhsPV_2 _ _)
  rw [el, er]

end Dots

/-! ## The named constants -/

/-- The scale `1/√768` is the rational the certificate's table gives it. -/
theorem inv_named : Named.named (F := Ideal) Cert.KernelIdeal.κ "inv_sqrt_emb" (φ := .f32) 0x3D13CD3A#32
    = ((524288 / 14529495 : ℝ) : EReal) :=
  IdealRules.named_const.ideal_named_scalar _ _ _ _ rfl

/-- The mask's fill value is `⊥`. -/
theorem neg_named : Named.named (F := Ideal) Cert.KernelIdeal.κ "neg_big" (φ := .f32) 0xFF333332#32 = (⊥ : EReal) :=
  IdealRules.named_const.ideal_named_scalar _ _ _ _ rfl

/-- One key chunk's masked, scaled score of query row `r` against key `k`. -/
def csc (qp : Vec Ideal S1x1024x768 .bf16) (xk : Vec Ideal S1x512x768 .bf16) (xm : Vec Ideal S1x1024x512 .i32)
    (r : Fin 1024) (k : Fin 512) : EReal :=
  if xm (ix3 0 r k) = 1#32 then ⊥
  else (∑ e : Fin 768, qp (ix3 0 r e) * xk (ix3 0 k e)) * ((524288 / 14529495 : ℝ) : EReal)

/-! ## The reset values and the output tile -/

variable [Facts]

theorem resetMx_apply (r : Fin 1024) : resetMx (F := Ideal) (ix3 0 r 0) = ⊥ := by
  unfold resetMx k2_pay5
  rw [shapeCast_self]
  rfl

theorem resetDn_apply (r : Fin 1024) : resetDn (F := Ideal) (ix3 0 r 0) = 0 := by
  unfold resetDn k2_pay6
  rw [shapeCast_self]
  exact Ideal.ofBits_zero_f32

theorem resetAc_apply (r : Fin 1024) (e : Fin 768) : resetAc (F := Ideal) (ix3 0 r e) = 0 := by
  unfold resetAc k2_pay7
  rw [shapeCast_self]
  exact Ideal.ofBits_zero_f32

/-- The output tile at `(r, e)`: the numerator there over the row's denominator. -/
theorem finish_apply (ac : Vec Ideal S1x1024x768 .f32) (dn : Vec Ideal S1x1024x1 .f32) (r : Fin 1024) (e : Fin 768) :
    finish (F := Ideal) ac dn (ix3 0 r e) = Ideal.div (ac (ix3 0 r e)) (dn (ix3 0 r 0)) := by
  unfold finish k2_pay4
  refine (divf_apply _ _ _).trans ?_
  exact congrArg (Ideal.div (ac (ix3 0 r e)))
    (broadcastTo_1b1_1bc_apply dn broadcasts_S1x1024x1_S1x1024x768 (by decide) r e)

/-! ## The projections -/

/-- The first projection kernel's tile at `(r, o)`: row `r` of `x` against column `o` of `W`, plus the bias. -/
theorem proj_pay_apply (v0 : Vec Ideal S2048x768 .f32) (v3 : Vec Ideal S768x768 .bf16) (v6 : Vec Ideal S1x768 .f32)
    (r : Fin 2048) (o : Fin 768) :
    k0_pay1 (F := Ideal) v0 v3 v6 (ix2 r o) = (∑ e : Fin 768, v0 (ix2 r e) * v3 (ix2 e o)) + v6 (ix2 0 o) := by
  unfold k0_pay1
  rw [shapeCast_self, shapeCast_self, shapeCast_self]
  refine (truncf_apply (φ := .f32) (ψ := .bf16) _ bitsLt_bf16_f32 _).trans ?_
  refine (addf_apply _ _ _).trans ?_
  refine congrArg₂ (· + ·) ?_ (broadcastTo_1b_ab_apply v6 broadcasts_S1x768_S2048x768 r o)
  exact mat_dot_zero dot_S2048x768_S768x768_S2048x768_1_0_0_1_n_n none rfl rfl
    (fun _ _ => rfl) (fun j c => dot_S2048x768_S768x768_S2048x768_1_0_0_1_n_n.lhsIdx_val_of_single rfl j c)
    (fun j c => dot_S2048x768_S768x768_S2048x768_1_0_0_1_n_n.rhsIdx_val_of_single rfl j c) (fun _ _ => rfl)
    (truncf .bf16 v0 bitsLt_bf16_f32) v3 r o

/-- The second projection kernel's tile at `(r, o)`: the same. -/
theorem proj_pay_apply' (v0 : Vec Ideal S2048x768 .f32) (v3 : Vec Ideal S768x768 .bf16) (v6 : Vec Ideal S1x768 .f32)
    (r : Fin 2048) (o : Fin 768) :
    k1_pay1 (F := Ideal) v0 v3 v6 (ix2 r o) = (∑ e : Fin 768, v0 (ix2 r e) * v3 (ix2 e o)) + v6 (ix2 0 o) :=
  proj_pay_apply v0 v3 v6 r o

/-- The projected query tile at `(r, o)`: row `r` of the query tile against column `o` of `W`, plus the bias. -/
theorem resetQp_apply (xq : Vec Ideal S1x1024x768 .f32) (xw : Vec Ideal S768x768 .bf16) (xb : Vec Ideal S1x768 .f32)
    (r : Fin 1024) (o : Fin 768) :
    resetQp (F := Ideal) xq xw xb (ix3 0 r o) = (∑ e : Fin 768, xq (ix3 0 r e) * xw (ix2 e o)) + xb (ix2 0 o) := by
  unfold resetQp k2_pay8
  rw [shapeCast_self, shapeCast_self, shapeCast_self]
  refine (shapeCast_ab_1ab_apply _ shapeCasts_S1024x768_S1x1024x768 0 r o).trans ?_
  refine (truncf_apply (φ := .f32) (ψ := .bf16) _ bitsLt_bf16_f32 _).trans ?_
  refine (addf_apply _ _ _).trans ?_
  refine congrArg₂ (· + ·) ?_ (broadcastTo_1b_ab_apply xb broadcasts_S1x768_S1024x768 r o)
  refine (mat_dot_zero dot_S1024x768_S768x768_S1024x768_1_0_0_1_n_n none rfl rfl
    (fun _ _ => rfl) (fun j c => dot_S1024x768_S768x768_S1024x768_1_0_0_1_n_n.lhsIdx_val_of_single rfl j c)
    (fun j c => dot_S1024x768_S768x768_S1024x768_1_0_0_1_n_n.rhsIdx_val_of_single rfl j c) (fun _ _ => rfl)
    (truncf .bf16 (shapeCast S1024x768 xq shapeCasts_S1x1024x768_S1024x768) bitsLt_bf16_f32) xw r o).trans ?_
  refine Finset.sum_congr rfl fun e _ => congrArg (· * xw (ix2 e o)) ?_
  exact shapeCast_1ab_ab_apply xq shapeCasts_S1x1024x768_S1024x768 r e

/-! ## One key chunk -/

section Step
variable (mx dn : Vec Ideal S1x1024x1 .f32) (ac : Vec Ideal S1x1024x768 .f32) (qp : Vec Ideal S1x1024x768 .bf16)
  (xk xv : Vec Ideal S1x512x768 .bf16) (xm : Vec Ideal S1x1024x512 .i32) (r : Fin 1024)

/-- The chunk's masked, scaled scores at `(r, k)`. -/
theorem pay10_apply (k : Fin 512) : k2_pay10 (F := Ideal) qp xk xm (ix3 0 r k) = csc qp xk xm r k := by
  unfold k2_pay10 csc
  rw [shapeCast_self]
  refine (select_apply _ _ _ _).trans ?_
  refine (congrArg₂ (Scalar.select (IntOp.cmpi .eq (xm (ix3 0 r k)) 1#32)) neg_named
    (congrArg₂ (· * ·) (dotQK_apply qp xk r k) inv_named)).trans ?_
  by_cases h : xm (ix3 0 r k) = 1#32
  · rw [if_pos h, IntOp.cmpi_eq.mpr h, select_one]
  · rw [if_neg h, eq_zero_of_ne_one (mt IntOp.cmpi_eq.mp h), select_zero]

/-- The new running maximum is the maximum payload. -/
theorem stepMx_eq : stepMx (F := Ideal) mx qp xk xm = k2_pay11 qp xk xm mx := by
  unfold stepMx k2_pay3
  exact shapeCast_self _ _

/-- The running maximum after the chunk, in row `r`: the old one against the largest of the chunk's scores. -/
theorem stepMx_apply :
    stepMx (F := Ideal) mx qp xk xm (ix3 0 r 0) = max (mx (ix3 0 r 0)) (Finset.univ.sup (csc qp xk xm r)) := by
  rw [stepMx_eq]
  unfold k2_pay11
  refine (maximumf_apply _ _ _).trans ?_
  refine congrArg (max (mx (ix3 0 r 0))) ?_
  refine (shapeCast_ab_ab1_apply _ shapeCasts_S1x1024_S1x1024x1 0 r 0).trans ?_
  refine (multiReduction_max_last3 (k2_pay10 qp xk xm) 0xFF800000#32 reduces_S1x1024x512_S1x1024 (.inl rfl) rfl
    (by simp [Ideal.ofBits, Ideal.ieee]) 0 r).trans ?_
  exact congrArg (Finset.univ.sup) (funext fun k => pay10_apply qp xk xm r k)

/-- The rescaling factor of the old sums, in row `r`. -/
theorem pay12_apply (v20 : Vec Ideal S1x1024x1 .f32) :
    k2_pay12 (F := Ideal) qp xk xm mx v20 (ix3 0 r 0)
      = Ideal.exp (v20 (ix3 0 r 0) - stepMx (F := Ideal) mx qp xk xm (ix3 0 r 0)) := by
  rw [stepMx_eq]
  rfl

/-- The chunk's weights at `(r, k)`. -/
theorem pay13_apply (k : Fin 512) :
    k2_pay13 (F := Ideal) qp xk xm mx (ix3 0 r k)
      = Ideal.exp (csc qp xk xm r k - stepMx (F := Ideal) mx qp xk xm (ix3 0 r 0)) := by
  rw [stepMx_eq]
  unfold k2_pay13
  show Ideal.exp (k2_pay10 qp xk xm (ix3 0 r k)
    - broadcastTo S1x1024x512 (k2_pay11 qp xk xm mx) broadcasts_S1x1024x1_S1x1024x512 (ix3 0 r k)) = _
  rw [pay10_apply, broadcastTo_1b1_1bc_apply _ broadcasts_S1x1024x1_S1x1024x512 (by decide) r k]

/-- The running denominator after the chunk, in row `r`. -/
theorem stepDn_apply :
    stepDn (F := Ideal) mx dn qp xk xm (ix3 0 r 0)
      = Ideal.exp (mx (ix3 0 r 0) - stepMx (F := Ideal) mx qp xk xm (ix3 0 r 0)) * dn (ix3 0 r 0)
        + ∑ k : Fin 512, Ideal.exp (csc qp xk xm r k - stepMx (F := Ideal) mx qp xk xm (ix3 0 r 0)) := by
  unfold stepDn k2_pay1 k2_pay14
  rw [shapeCast_self]
  refine (addf_apply _ _ _).trans ?_
  refine congrArg₂ (· + ·) ?_ ?_
  · refine (mulf_apply _ _ _).trans ?_
    exact congrArg (· * dn (ix3 0 r 0)) (pay12_apply mx qp xk xm r mx)
  · refine (shapeCast_ab_ab1_apply _ shapeCasts_S1x1024_S1x1024x1 0 r 0).trans ?_
    refine (multiReduction_add_last3 (k2_pay13 qp xk xm mx) 0x00000000#32 reduces_S1x1024x512_S1x1024 (.inl rfl) rfl
      0 r).trans ?_
    exact Finset.sum_congr rfl fun k _ => pay13_apply mx qp xk xm r k

/-- The running numerator after the chunk, at `(r, e)`. -/
theorem stepAc_apply (e : Fin 768) :
    stepAc (F := Ideal) mx ac qp xk xv xm (ix3 0 r e)
      = Ideal.exp (mx (ix3 0 r 0) - stepMx (F := Ideal) mx qp xk xm (ix3 0 r 0)) * ac (ix3 0 r e)
        + ∑ k : Fin 512, Ideal.exp (csc qp xk xm r k - stepMx (F := Ideal) mx qp xk xm (ix3 0 r 0)) * xv (ix3 0 k e) := by
  unfold stepAc k2_pay2 k2_pay9
  rw [shapeCast_self, shapeCast_self]
  refine (addf_apply _ _ _).trans ?_
  refine congrArg₂ (· + ·) ?_ ?_
  · refine (mulf_apply _ _ _).trans ?_
    refine congrArg (· * ac (ix3 0 r e)) ?_
    refine (broadcastTo_1b1_1bc_apply _ broadcasts_S1x1024x1_S1x1024x768 (by decide) r e).trans ?_
    exact pay12_apply mx qp xk xm r mx
  · refine (dotPV_apply (truncf .bf16 (k2_pay13 qp xk xm mx) bitsLt_bf16_f32) xv r e).trans ?_
    exact Finset.sum_congr rfl fun k _ => congrArg (· * xv (ix3 0 k e)) (pay13_apply mx qp xk xm r k)

end Step

end Cert.KernelIdeal.Attn

end
-- ==== Proof.ProjValue.lean ====
/-
  The two projection regions' output arrays after their regions, each as one function of the contents the region
  finds: entry `(r, o)` of the projected array is row `r` of the rows' array against column `o` of the weights, plus
  the bias at `o`. Each grid point writes back the block of 2048 rows it computed; the eight blocks tile the array.
-/
import proofs.«113779_j37349035606587_2_alg».proof.Proof.FrameProj
import proofs.«113779_j37349035606587_2_alg».proof.Proof.StepValue
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The projection of an array of 16384 rows: row `i 0` against column `i 1` of the weights, plus the bias. -/
def projArr (X : S16384x768.Idx → EReal) (W : S768x768.Idx → EReal) (B : S1x768.Idx → EReal) : S16384x768.Idx → EReal :=
  fun i => (∑ e : Fin 768, X (ix2 (i 0) e) * W (ix2 e (i 1))) + B (ix2 0 (i 1))

/-- At an entry given by coordinates. -/
theorem projArr_apply (X : S16384x768.Idx → EReal) (W : S768x768.Idx → EReal) (B : S1x768.Idx → EReal) (r : Fin 16384) (o : Fin 768) :
    projArr X W B (ix2 r o) = (∑ e : Fin 768, X (ix2 r e) * W (ix2 e o)) + B (ix2 0 o) := rfl

/-! # Region 0 -/

/-- The index maps over the grid: the rows' window and the output window are on block `t` of the rows at point `t`,
    the weights' and the bias' windows on their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' block at point `t` is rows `2048 t … 2048 t + 2047` of the rows' array. -/
theorem iblk0_0_apply (c : Dev nD) (t : Fin cfg0.N) (x : S2048x768.Idx) (k : S16384x768.Idx)
    (hk0 : (k 0).val = 2048 * t.val + (x 0).val) (hk1 : (k 1).val = (x 1).val) :
    (iblk0 V c 0 t : Vec Ideal S2048x768 .f32) x = (V c main_v0 : S16384x768.Idx → EReal) k := by
  obtain ⟨e0, e1, -⟩ := idx_facts0 t
  unfold iblk0
  rw [View.read_apply]
  show V c main_v0 _ = V c main_v0 _
  congr 1
  funext a
  apply Fin.ext
  match a with
  | ⟨0, _⟩ => show win0_0.index t 0 * 2048 + 1 * (x 0).val = (k 0).val; rw [e0, hk0]; omega
  | ⟨1, _⟩ => show win0_0.index t 1 * 768 + 1 * (x 1).val = (k 1).val; rw [e1, hk1]; omega

/-- The weights' block is the weights' array at every point. -/
theorem iblk0_1_apply (c : Dev nD) (t : Fin cfg0.N) (x : S768x768.Idx) :
    (iblk0 V c 1 t : Vec Ideal S768x768 .bf16) x = (V c main_v3 : S768x768.Idx → EReal) x := by
  obtain ⟨-, -, e2, e3, -⟩ := idx_facts0 t
  unfold iblk0
  rw [View.read_apply]
  show V c main_v3 _ = V c main_v3 _
  congr 1
  funext a
  apply Fin.ext
  match a with
  | ⟨0, _⟩ => show win0_1.index t 0 * 768 + 1 * (x 0).val = (x 0).val; rw [e2]; omega
  | ⟨1, _⟩ => show win0_1.index t 1 * 768 + 1 * (x 1).val = (x 1).val; rw [e3]; omega

/-- The bias' block is the bias' array at every point. -/
theorem iblk0_2_apply (c : Dev nD) (t : Fin cfg0.N) (x : S1x768.Idx) :
    (iblk0 V c 2 t : Vec Ideal S1x768 .f32) x = (V c main_v4 : S1x768.Idx → EReal) x := by
  obtain ⟨-, -, -, -, e4, e5, -⟩ := idx_facts0 t
  unfold iblk0
  rw [View.read_apply]
  show V c main_v4 _ = V c main_v4 _
  congr 1
  funext a
  apply Fin.ext
  match a with
  | ⟨0, _⟩ => show win0_2.index t 0 * 1 + 1 * (x 0).val = (x 0).val; rw [e4]; omega
  | ⟨1, _⟩ => show win0_2.index t 1 * 768 + 1 * (x 1).val = (x 1).val; rw [e5]; omega

/-- What point `t` writes back is block `t` of the projection of the arrays as the region finds them. -/
theorem flushed0_eq (c : Dev nD) (t : Fin cfg0.N) :
    (dat0 (F := Ideal) V c).flushed 3 t
      = ((cfg0.win 3).blk t).view.read (Elt Ideal) (projArr (V c main_v0) (V c main_v3) (V c main_v4)) := by
  show (cfg0.win 3).cut (grid0.coords t) ((dat0 V c).after 3 t) = _
  rw [after0_3, out0_3_eq]
  obtain ⟨-, -, -, -, -, -, e6, e7⟩ := idx_facts0 t
  funext j
  obtain ⟨p, q, rfl⟩ : ∃ (p : Fin 2048) (q : Fin 768), j = ix2 p q := ⟨j 0, j 1, eq_ix2 j⟩
  refine (Cert.KernelIdeal.Attn.proj_pay_apply _ _ _ p q).trans ?_
  rw [View.read_apply]
  unfold projArr
  refine congrArg₂ (· + ·) (Finset.sum_congr rfl fun e _ => congrArg₂ (· * ·) ?_ ?_) ?_
  · refine iblk0_0_apply V c t (ix2 p e) _ ?_ ?_
    · show win0_3.index t 0 * 2048 + 1 * p.val = 2048 * t.val + p.val; rw [e6]; omega
    · rfl
  · refine (iblk0_1_apply V c t (ix2 e q)).trans (congrArg _ ?_)
    funext a; apply Fin.ext
    match a with
    | ⟨0, _⟩ => rfl
    | ⟨1, _⟩ => show q.val = win0_3.index t 1 * 768 + 1 * q.val; rw [e7]; omega
  · refine (iblk0_2_apply V c t (ix2 0 q)).trans (congrArg _ ?_)
    funext a; apply Fin.ext
    match a with
    | ⟨0, _⟩ => rfl
    | ⟨1, _⟩ => show q.val = win0_3.index t 1 * 768 + 1 * q.val; rw [e7]; omega

/-- An index of the output array is in point `t`'s block iff each coordinate is in the block's range on its axis. -/
theorem mem_blk0 (t : Fin cfg0.N) (i : S16384x768.Idx) :
    i ∈ ((cfg0.win 3).blk t).view.set ↔ ∀ a : Fin 2, win0_3.index t a * S2048x768.size a ≤ (i a).val ∧ (i a).val < win0_3.index t a * S2048x768.size a + S2048x768.size a := by
  show i ∈ ((View.whole main_v5).slice (win0_3.rect t)).set ↔ _
  rw [View.set_slice_whole, Rect.mem_set_unit]
  exact Iff.rfl

/-- The eight blocks tile the output array: row `r` is in the block of point `r / 2048`. -/
theorem cover0 (i : S16384x768.Idx) :
    ∃ t : Fin cfg0.N, (cfg0.win 3).flush t = true ∧ i ∈ ((cfg0.win 3).blk t).view.set := by
  have hi0 : (i 0).val < 16384 := (i 0).isLt
  have hi1 : (i 1).val < 768 := (i 1).isLt
  have hN : cfg0.N = 8 := N_0
  have hlt : (i 0).val / 2048 < cfg0.N := by rw [hN]; omega
  obtain ⟨-, -, -, -, -, -, e6, e7⟩ := idx_facts0 ⟨(i 0).val / 2048, hlt⟩
  refine ⟨⟨(i 0).val / 2048, hlt⟩, flush0_3 _, ?_⟩
  rw [mem_blk0]
  intro a
  match a with
  | ⟨0, _⟩ =>
    show win0_3.index ⟨(i 0).val / 2048, hlt⟩ 0 * 2048 ≤ (i 0).val ∧ (i 0).val < win0_3.index ⟨(i 0).val / 2048, hlt⟩ 0 * 2048 + 2048
    rw [e6]; show (i 0).val / 2048 * 2048 ≤ (i 0).val ∧ (i 0).val < (i 0).val / 2048 * 2048 + 2048; omega
  | ⟨1, _⟩ =>
    show win0_3.index ⟨(i 0).val / 2048, hlt⟩ 1 * 768 ≤ (i 1).val ∧ (i 1).val < win0_3.index ⟨(i 0).val / 2048, hlt⟩ 1 * 768 + 768
    rw [e7]; omega

/-- The output array after the region: the projection of the rows' array the region finds. -/
theorem arr0 (c : Dev nD) :
    (dat0 (F := Ideal) V c).arrAt 3 cfg0.N = projArr (V c main_v0) (V c main_v3) (V c main_v4) :=
  (dat0 (F := Ideal) V c).arrAt_eq_of_cover 3 (projArr (V c main_v0) (V c main_v3) (V c main_v4))
    (fun t _ => flushed0_eq V c t) (cover0)

/-- The same at an entry: row `r` of the rows' array against column `o` of the weights, plus the bias at `o`. -/
theorem arr0_apply (c : Dev nD) (r : Fin 16384) (o : Fin 768) :
    (dat0 (F := Ideal) V c).arrAt 3 cfg0.N (ix2 r o) = projArr (V c main_v0) (V c main_v3) (V c main_v4) (ix2 r o) :=
  congrFun (arr0 V c) (ix2 r o)

/-! # Region 1 -/

/-- The index maps over the grid: the rows' window and the output window are on block `t` of the rows at point `t`,
    the weights' and the bias' windows on their one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The rows' block at point `t` is rows `2048 t … 2048 t + 2047` of the rows' array. -/
theorem iblk1_0_apply (c : Dev nD) (t : Fin cfg1.N) (x : S2048x768.Idx) (k : S16384x768.Idx)
    (hk0 : (k 0).val = 2048 * t.val + (x 0).val) (hk1 : (k 1).val = (x 1).val) :
    (iblk1 V c 0 t : Vec Ideal S2048x768 .f32) x = (V c main_v1 : S16384x768.Idx → EReal) k := by
  obtain ⟨e0, e1, -⟩ := idx_facts1 t
  unfold iblk1
  rw [View.read_apply]
  show V c main_v1 _ = V c main_v1 _
  congr 1
  funext a
  apply Fin.ext
  match a with
  | ⟨0, _⟩ => show win1_0.index t 0 * 2048 + 1 * (x 0).val = (k 0).val; rw [e0, hk0]; omega
  | ⟨1, _⟩ => show win1_0.index t 1 * 768 + 1 * (x 1).val = (k 1).val; rw [e1, hk1]; omega

/-- The weights' block is the weights' array at every point. -/
theorem iblk1_1_apply (c : Dev nD) (t : Fin cfg1.N) (x : S768x768.Idx) :
    (iblk1 V c 1 t : Vec Ideal S768x768 .bf16) x = (V c main_v3 : S768x768.Idx → EReal) x := by
  obtain ⟨-, -, e2, e3, -⟩ := idx_facts1 t
  unfold iblk1
  rw [View.read_apply]
  show V c main_v3 _ = V c main_v3 _
  congr 1
  funext a
  apply Fin.ext
  match a with
  | ⟨0, _⟩ => show win1_1.index t 0 * 768 + 1 * (x 0).val = (x 0).val; rw [e2]; omega
  | ⟨1, _⟩ => show win1_1.index t 1 * 768 + 1 * (x 1).val = (x 1).val; rw [e3]; omega

/-- The bias' block is the bias' array at every point. -/
theorem iblk1_2_apply (c : Dev nD) (t : Fin cfg1.N) (x : S1x768.Idx) :
    (iblk1 V c 2 t : Vec Ideal S1x768 .f32) x = (V c main_v4 : S1x768.Idx → EReal) x := by
  obtain ⟨-, -, -, -, e4, e5, -⟩ := idx_facts1 t
  unfold iblk1
  rw [View.read_apply]
  show V c main_v4 _ = V c main_v4 _
  congr 1
  funext a
  apply Fin.ext
  match a with
  | ⟨0, _⟩ => show win1_2.index t 0 * 1 + 1 * (x 0).val = (x 0).val; rw [e4]; omega
  | ⟨1, _⟩ => show win1_2.index t 1 * 768 + 1 * (x 1).val = (x 1).val; rw [e5]; omega

/-- What point `t` writes back is block `t` of the projection of the arrays as the region finds them. -/
theorem flushed1_eq (c : Dev nD) (t : Fin cfg1.N) :
    (dat1 (F := Ideal) V c).flushed 3 t
      = ((cfg1.win 3).blk t).view.read (Elt Ideal) (projArr (V c main_v1) (V c main_v3) (V c main_v4)) := by
  show (cfg1.win 3).cut (grid1.coords t) ((dat1 V c).after 3 t) = _
  rw [after1_3, out1_3_eq]
  obtain ⟨-, -, -, -, -, -, e6, e7⟩ := idx_facts1 t
  funext j
  obtain ⟨p, q, rfl⟩ : ∃ (p : Fin 2048) (q : Fin 768), j = ix2 p q := ⟨j 0, j 1, eq_ix2 j⟩
  refine (Cert.KernelIdeal.Attn.proj_pay_apply' _ _ _ p q).trans ?_
  rw [View.read_apply]
  unfold projArr
  refine congrArg₂ (· + ·) (Finset.sum_congr rfl fun e _ => congrArg₂ (· * ·) ?_ ?_) ?_
  · refine iblk1_0_apply V c t (ix2 p e) _ ?_ ?_
    · show win1_3.index t 0 * 2048 + 1 * p.val = 2048 * t.val + p.val; rw [e6]; omega
    · rfl
  · refine (iblk1_1_apply V c t (ix2 e q)).trans (congrArg _ ?_)
    funext a; apply Fin.ext
    match a with
    | ⟨0, _⟩ => rfl
    | ⟨1, _⟩ => show q.val = win1_3.index t 1 * 768 + 1 * q.val; rw [e7]; omega
  · refine (iblk1_2_apply V c t (ix2 0 q)).trans (congrArg _ ?_)
    funext a; apply Fin.ext
    match a with
    | ⟨0, _⟩ => rfl
    | ⟨1, _⟩ => show q.val = win1_3.index t 1 * 768 + 1 * q.val; rw [e7]; omega

/-- An index of the output array is in point `t`'s block iff each coordinate is in the block's range on its axis. -/
theorem mem_blk1 (t : Fin cfg1.N) (i : S16384x768.Idx) :
    i ∈ ((cfg1.win 3).blk t).view.set ↔ ∀ a : Fin 2, win1_3.index t a * S2048x768.size a ≤ (i a).val ∧ (i a).val < win1_3.index t a * S2048x768.size a + S2048x768.size a := by
  show i ∈ ((View.whole main_v7).slice (win1_3.rect t)).set ↔ _
  rw [View.set_slice_whole, Rect.mem_set_unit]
  exact Iff.rfl

/-- The eight blocks tile the output array: row `r` is in the block of point `r / 2048`. -/
theorem cover1 (i : S16384x768.Idx) :
    ∃ t : Fin cfg1.N, (cfg1.win 3).flush t = true ∧ i ∈ ((cfg1.win 3).blk t).view.set := by
  have hi0 : (i 0).val < 16384 := (i 0).isLt
  have hi1 : (i 1).val < 768 := (i 1).isLt
  have hN : cfg1.N = 8 := N_1
  have hlt : (i 0).val / 2048 < cfg1.N := by rw [hN]; omega
  obtain ⟨-, -, -, -, -, -, e6, e7⟩ := idx_facts1 ⟨(i 0).val / 2048, hlt⟩
  refine ⟨⟨(i 0).val / 2048, hlt⟩, flush1_3 _, ?_⟩
  rw [mem_blk1]
  intro a
  match a with
  | ⟨0, _⟩ =>
    show win1_3.index ⟨(i 0).val / 2048, hlt⟩ 0 * 2048 ≤ (i 0).val ∧ (i 0).val < win1_3.index ⟨(i 0).val / 2048, hlt⟩ 0 * 2048 + 2048
    rw [e6]; show (i 0).val / 2048 * 2048 ≤ (i 0).val ∧ (i 0).val < (i 0).val / 2048 * 2048 + 2048; omega
  | ⟨1, _⟩ =>
    show win1_3.index ⟨(i 0).val / 2048, hlt⟩ 1 * 768 ≤ (i 1).val ∧ (i 1).val < win1_3.index ⟨(i 0).val / 2048, hlt⟩ 1 * 768 + 768
    rw [e7]; omega

/-- The output array after the region: the projection of the rows' array the region finds. -/
theorem arr1 (c : Dev nD) :
    (dat1 (F := Ideal) V c).arrAt 3 cfg1.N = projArr (V c main_v1) (V c main_v3) (V c main_v4) :=
  (dat1 (F := Ideal) V c).arrAt_eq_of_cover 3 (projArr (V c main_v1) (V c main_v3) (V c main_v4))
    (fun t _ => flushed1_eq V c t) (cover1)

/-- The same at an entry: row `r` of the rows' array against column `o` of the weights, plus the bias at `o`. -/
theorem arr1_apply (c : Dev nD) (r : Fin 16384) (o : Fin 768) :
    (dat1 (F := Ideal) V c).arrAt 3 cfg1.N (ix2 r o) = projArr (V c main_v1) (V c main_v3) (V c main_v4) (ix2 r o) :=
  congrFun (arr1 V c) (ix2 r o)

end Cert.KernelIdeal.Hand

end
-- ==== Proof.HostReads.lean ====
/-
  What the attention launch finds in its six operands, read at an index.

  Before the three launches the program reshapes the keys and the values to 16384 rows, transposes the weights and
  turns the bias into a row; each projection launch writes rows · weightsᵀ + bias, and a reshape splits the 16384 rows
  back into 8 batches of 2048 positions. Read at coordinates, the queries and the mask are the arguments untouched,
  the weights' buffer at (e, o) is the weights at (o, e), the bias' buffer at (0, o) is the bias at o, and the keys'
  and values' buffers at (batch, position, feature) are the linear layer of AttnSpec.lean applied to the keys and to
  the values.
-/
import proofs.«113779_j37349035606587_2_alg».proof.Proof.FrameRun
import proofs.«113779_j37349035606587_2_alg».proof.Proof.ProjValue
import proofs.«113779_j37349035606587_2_alg».proof.Proof.AttnSpec

set_option maxRecDepth 16384

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen

/-! ## Layout operations at coordinates -/

/-- Joining the first two axes of [8, 2048, 768]: row 2048·bb + p of the result is row (bb, p) of the source. -/
theorem rows_of_batches (A : S8x2048x768.Idx → EReal) (bb : Fin 8) (p : Fin 2048) (e : Fin 768) (r : Fin 16384)
    (hr : r.val = 2048 * bb.val + p.val) :
    shapeCast S16384x768 A shapeCasts_S8x2048x768_S16384x768 (ix2 r e) = A (ix3 bb p e) :=
  shapeCast_apply A _ _ _ (by
    rw [Shape.rowMajor_val_three, Shape.rowMajor_val_two]
    show (bb.val * 2048 + p.val) * 768 + e.val = r.val * 768 + e.val
    rw [hr]; ring)

/-- Splitting the first axis of [16384, 768]: entry (bb, p) of the result is row 2048·bb + p of the source. -/
theorem batches_of_rows (X : S16384x768.Idx → EReal) (bb : Fin 8) (p : Fin 2048) (e : Fin 768) (r : Fin 16384)
    (hr : r.val = 2048 * bb.val + p.val) :
    shapeCast S8x2048x768 X shapeCasts_S16384x768_S8x2048x768 (ix3 bb p e) = X (ix2 r e) :=
  shapeCast_apply X _ _ _ (by
    rw [Shape.rowMajor_val_three, Shape.rowMajor_val_two]
    show r.val * 768 + e.val = (bb.val * 2048 + p.val) * 768 + e.val
    rw [hr]; ring)

/-- The transposed weights. -/
theorem transposed_at (W : S768x768.Idx → EReal) (e o : Fin 768) :
    transpose S768x768 [1, 0] W transposes_S768x768_S768x768_1_0 (ix2 e o) = W (ix2 o e) :=
  transpose_apply _ W _ _ _ (fun b => by match b with | ⟨0, _⟩ => rfl | ⟨1, _⟩ => rfl)

/-- The bias as a row. -/
theorem bias_row_at (B : S768.Idx → EReal) (o : Fin 768) :
    shapeCast S1x768 B shapeCasts_S768_S1x768 (ix2 (0 : Fin 1) o) = B (ix1 o) :=
  shapeCast_apply B _ _ _ (by
    rw [Shape.rowMajor_val_two, Shape.rowMajor_val_one]
    show o.val = 0 * 768 + o.val
    omega)

variable (m : (ℓ : Loc nD τ sig) → Buf (Elt Ideal) ℓ) (c : Dev nD)

/-! ## The arguments as launched -/

/-- The queries, keys, values, mask, weights and bias the program is launched with. -/
abbrev A0 : S8x2048x768.Idx → EReal := m ((c : Thread nD τ).loc main_arg0)
abbrev A1 : S8x2048x768.Idx → EReal := m ((c : Thread nD τ).loc main_arg1)
abbrev A2 : S8x2048x768.Idx → EReal := m ((c : Thread nD τ).loc main_arg2)
abbrev A3 : S8x2048x2048.Idx → BitVec 32 := m ((c : Thread nD τ).loc main_arg3)
abbrev A4 : S768x768.Idx → EReal := m ((c : Thread nD τ).loc main_arg4)
abbrev A5 : S768.Idx → EReal := m ((c : Thread nD τ).loc main_arg5)

/-! ## After the first host lines -/

/-- The keys with batch and position joined. -/
theorem W1_v0 : (W1 m c main_v0 : S16384x768.Idx → EReal)
    = shapeCast S16384x768 (A1 m c) shapeCasts_S8x2048x768_S16384x768 := by
  show StableHlo.after hostOps0 (fun b => m (c, b)) (Proc.devRef .tc main_v0) = _
  after_results
  rfl

/-- The values with batch and position joined. -/
theorem W1_v1 : (W1 m c main_v1 : S16384x768.Idx → EReal)
    = shapeCast S16384x768 (A2 m c) shapeCasts_S8x2048x768_S16384x768 := by
  show StableHlo.after hostOps0 (fun b => m (c, b)) (Proc.devRef .tc main_v1) = _
  after_results
  rfl

/-- The weights transposed (the change of format is the identity on extended reals). -/
theorem W1_v3 : (W1 m c main_v3 : S768x768.Idx → EReal)
    = transpose S768x768 [1, 0] (A4 m c) transposes_S768x768_S768x768_1_0 := by
  show StableHlo.after hostOps0 (fun b => m (c, b)) (Proc.devRef .tc main_v3) = _
  after_results
  rfl

/-- The bias as a row. -/
theorem W1_v4 : (W1 m c main_v4 : S1x768.Idx → EReal)
    = shapeCast S1x768 (A5 m c) shapeCasts_S768_S1x768 := by
  show StableHlo.after hostOps0 (fun b => m (c, b)) (Proc.devRef .tc main_v4) = _
  after_results
  rfl

/-! ## Stepping over the items that do not write a buffer -/

theorem W3_of (r : Ref sig .tc) (h : r ∉ hostOps1_W) : W3 m c r = W2 m c r := by
  unfold W3; exact StableHlo.after_of_writes_sub hostOps1 _ hostOps1_writes h
theorem W5_of (r : Ref sig .tc) (h : r ∉ hostOps2_W) : W5 m c r = W4 m c r := by
  unfold W5; exact StableHlo.after_of_writes_sub hostOps2 _ hostOps2_writes h

/-- A buffer neither of the later host lines nor a projection launch writes holds before the attention launch what it
    held after the first host lines. -/
theorem W5_eq_W1 (r : Ref sig .tc) (h2 : r ∉ hostOps2_W) (h7 : r ≠ main_v7) (h1 : r ∉ hostOps1_W) (h5 : r ≠ main_v5) :
    W5 m c r = W1 m c r :=
  (W5_of m c r h2).trans <| (W4_of_ne m c r h7).trans <| (W3_of m c r h1).trans (W2_of_ne m c r h5)

/-! ## What the attention launch finds -/

/-- The queries are the argument. -/
theorem e5_q : rd (W5 m) c main_arg0 = A0 m c :=
  (W5_eq_W1 m c main_arg0 (by decide) (by decide) (by decide) (by decide)).trans (V1_of m c main_arg0 (by decide))

/-- The mask is the argument. -/
theorem e5_mask : rd (W5 m) c main_arg3 = A3 m c :=
  (W5_eq_W1 m c main_arg3 (by decide) (by decide) (by decide) (by decide)).trans (V1_of m c main_arg3 (by decide))

/-- The weights' buffer holds the transposed weights. -/
theorem e5_w (e o : Fin 768) : (rd (W5 m) c main_v3 : S768x768.Idx → EReal) (ix2 e o) = A4 m c (ix2 o e) := by
  have h : (rd (W5 m) c main_v3 : S768x768.Idx → EReal) = W1 m c main_v3 :=
    W5_eq_W1 m c main_v3 (by decide) (by decide) (by decide) (by decide)
  rw [h, W1_v3, transposed_at]

/-- The bias' buffer holds the bias as a row. -/
theorem e5_b (o : Fin 768) : (rd (W5 m) c main_v4 : S1x768.Idx → EReal) (ix2 (0 : Fin 1) o) = A5 m c (ix1 o) := by
  have h : (rd (W5 m) c main_v4 : S1x768.Idx → EReal) = W1 m c main_v4 :=
    W5_eq_W1 m c main_v4 (by decide) (by decide) (by decide) (by decide)
  rw [h, W1_v4, bias_row_at]

/-! ## The projected keys and values -/

/-- The first projection launch's array is the projection of the first host lines' arrays: the projected keys, by rows. -/
theorem o2_eq : (o2 m c : S16384x768.Idx → EReal) = projArr (W1 m c main_v0) (W1 m c main_v3) (W1 m c main_v4) := by
  unfold o2
  exact arr0 (rd (W1 m)) c

/-- The second projection launch's array: the projected values, by rows. The weights' and the bias' buffers are those of
    the first host lines still. -/
theorem o4_eq : (o4 m c : S16384x768.Idx → EReal) = projArr (W1 m c main_v1) (W1 m c main_v3) (W1 m c main_v4) := by
  unfold o4
  rw [arr1 (rd (W3 m)) c]
  have h1 : (rd (W3 m) c main_v1 : S16384x768.Idx → EReal) = W1 m c main_v1 :=
    (W3_of m c main_v1 (by decide)).trans (W2_of_ne m c main_v1 (by decide))
  have h3 : (rd (W3 m) c main_v3 : S768x768.Idx → EReal) = W1 m c main_v3 :=
    (W3_of m c main_v3 (by decide)).trans (W2_of_ne m c main_v3 (by decide))
  have h4 : (rd (W3 m) c main_v4 : S1x768.Idx → EReal) = W1 m c main_v4 :=
    (W3_of m c main_v4 (by decide)).trans (W2_of_ne m c main_v4 (by decide))
  rw [h1, h3, h4]

/-- The reshape of the projected keys, as the attention launch finds it. -/
theorem W5_v6 : (rd (W5 m) c main_v6 : S8x2048x768.Idx → EReal)
    = shapeCast S8x2048x768 (o2 m c) shapeCasts_S16384x768_S8x2048x768 := by
  have h : (rd (W5 m) c main_v6 : S8x2048x768.Idx → EReal) = W3 m c main_v6 :=
    (W5_of m c main_v6 (by decide)).trans (W4_of_ne m c main_v6 (by decide))
  rw [h, ← W2_out m c]
  unfold W3
  show StableHlo.after hostOps1 (W2 m c) (Proc.devRef .tc main_v6) = _
  after_results
  rfl

/-- The reshape of the projected values, as the attention launch finds it. -/
theorem W5_v8 : (rd (W5 m) c main_v8 : S8x2048x768.Idx → EReal)
    = shapeCast S8x2048x768 (o4 m c) shapeCasts_S16384x768_S8x2048x768 := by
  rw [← W4_out m c]
  unfold W5
  show StableHlo.after hostOps2 (W4 m c) (Proc.devRef .tc main_v8) = _
  after_results
  rfl

/-- The keys' buffer holds the projected keys. -/
theorem e5_k (bb : Fin 8) (p : Fin 2048) (e : Fin 768) :
    (rd (W5 m) c main_v6 : S8x2048x768.Idx → EReal) (ix3 bb p e) = Attn.Spec.proj (A1 m c) (A4 m c) (A5 m c) bb p e := by
  have hr : (⟨2048 * bb.val + p.val, by have := bb.isLt; have := p.isLt; omega⟩ : Fin 16384).val = 2048 * bb.val + p.val := rfl
  rw [W5_v6, batches_of_rows _ bb p e _ hr, o2_eq, projArr_apply, W1_v0, W1_v3, W1_v4, bias_row_at]
  refine congrArg₂ (· + ·) (Finset.sum_congr rfl fun x _ => ?_) rfl
  rw [rows_of_batches _ bb p x _ hr, transposed_at]

/-- The values' buffer holds the projected values. -/
theorem e5_v (bb : Fin 8) (p : Fin 2048) (e : Fin 768) :
    (rd (W5 m) c main_v8 : S8x2048x768.Idx → EReal) (ix3 bb p e) = Attn.Spec.proj (A2 m c) (A4 m c) (A5 m c) bb p e := by
  have hr : (⟨2048 * bb.val + p.val, by have := bb.isLt; have := p.isLt; omega⟩ : Fin 16384).val = 2048 * bb.val + p.val := rfl
  rw [W5_v8, batches_of_rows _ bb p e _ hr, o4_eq, projArr_apply, W1_v1, W1_v3, W1_v4, bias_row_at]
  refine congrArg₂ (· + ·) (Finset.sum_congr rfl fun x _ => ?_) rfl
  rw [rows_of_batches _ bb p x _ hr, transposed_at]

end Cert.KernelIdeal.Hand

end
-- ==== Proof.FrameAttnVal.lean ====
import proofs.«113779_j37349035606587_2_alg».proof.Proof.Gen.KernelIdeal.Launch
import proofs.«113779_j37349035606587_2_alg».proof.Proof.Gen.KernelIdeal.Skeleton
import proofs.«113779_j37349035606587_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113779_j37349035606587_2_alg».proof.Proof.FrameAttnData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! # The attention launch's accumulation as values

What `outsAt2` holds, through the pure one-point functions: the reset and the first fold at a first key chunk, one
more fold at every other chunk, and numerator over denominator in the output tile at a last key chunk. -/

section Values

variable [Facts]

/-- After a first key chunk: the carried arrays reset, the queries projected, and the chunk folded in. -/
theorem outsAt2_A_val (c : Dev nD) (t : Fin cfg2.N) (h : t.val % 4 = 0) :
    (outsAt2 V c t.val t.isLt).2
      = (Attn.stepMx Attn.resetMx (Attn.resetQp (iblk2 V c 0 t : Vec F S1x1024x768 .f32) (iblk2 V c 4 t : Vec F S768x768 .bf16) (iblk2 V c 5 t : Vec F S1x768 .f32)) (iblk2 V c 1 t : Vec F S1x512x768 .bf16) (iblk2 V c 3 t : Vec F S1x1024x512 .i32),
         Attn.stepDn Attn.resetMx Attn.resetDn (Attn.resetQp (iblk2 V c 0 t : Vec F S1x1024x768 .f32) (iblk2 V c 4 t : Vec F S768x768 .bf16) (iblk2 V c 5 t : Vec F S1x768 .f32)) (iblk2 V c 1 t : Vec F S1x512x768 .bf16) (iblk2 V c 3 t : Vec F S1x1024x512 .i32),
         Attn.stepAc Attn.resetMx Attn.resetAc (Attn.resetQp (iblk2 V c 0 t : Vec F S1x1024x768 .f32) (iblk2 V c 4 t : Vec F S768x768 .bf16) (iblk2 V c 5 t : Vec F S1x768 .f32)) (iblk2 V c 1 t : Vec F S1x512x768 .bf16) (iblk2 V c 2 t : Vec F S1x512x768 .bf16) (iblk2 V c 3 t : Vec F S1x1024x512 .i32),
         Attn.resetQp (iblk2 V c 0 t : Vec F S1x1024x768 .f32) (iblk2 V c 4 t : Vec F S768x768 .bf16) (iblk2 V c 5 t : Vec F S1x768 .f32)) := by
  rw [outsAt2_A V c t h (by omega)]
  unfold ptA2
  dsimp only
  rw [sout2_A_0_eq, sout2_A_1_eq, sout2_A_2_eq, sout2_A_3_eq]

/-- After a middle key chunk: the chunk folded into what the point before left; the projected queries unchanged. -/
theorem outsAt2_B_val (c : Dev nD) (t : Fin cfg2.N) (h0 : ¬t.val % 4 = 0) (h3 : ¬t.val % 4 = 3) :
    (outsAt2 V c t.val t.isLt).2
      = (Attn.stepMx (outsAt2 V c (t.val - 1) (Nat.lt_of_le_of_lt (Nat.sub_le _ _) t.isLt)).2.1 (outsAt2 V c (t.val - 1) (Nat.lt_of_le_of_lt (Nat.sub_le _ _) t.isLt)).2.2.2.2 (iblk2 V c 1 t : Vec F S1x512x768 .bf16) (iblk2 V c 3 t : Vec F S1x1024x512 .i32),
         Attn.stepDn (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.2 (iblk2 V c 1 t : Vec F S1x512x768 .bf16) (iblk2 V c 3 t : Vec F S1x1024x512 .i32),
         Attn.stepAc (outsAt2 V c (t.val - 1) (Nat.lt_of_le_of_lt (Nat.sub_le _ _) t.isLt)).2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2 (iblk2 V c 1 t : Vec F S1x512x768 .bf16) (iblk2 V c 2 t : Vec F S1x512x768 .bf16) (iblk2 V c 3 t : Vec F S1x1024x512 .i32),
         (outsAt2 V c (t.val - 1) (Nat.lt_of_le_of_lt (Nat.sub_le _ _) t.isLt)).2.2.2.2) := by
  rw [outsAt2_B V c t h0 h3]
  unfold ptB2
  dsimp only
  rw [sout2_B_0_eq, sout2_B_1_eq, sout2_B_2_eq]

/-- After a last key chunk: the same fold, and the output tile is the new numerator over the new denominator. -/
theorem outsAt2_C_val (c : Dev nD) (t : Fin cfg2.N) (h3 : t.val % 4 = 3) :
    (outsAt2 V c t.val t.isLt).2
      = (Attn.stepMx (outsAt2 V c (t.val - 1) (Nat.lt_of_le_of_lt (Nat.sub_le _ _) t.isLt)).2.1 (outsAt2 V c (t.val - 1) (Nat.lt_of_le_of_lt (Nat.sub_le _ _) t.isLt)).2.2.2.2 (iblk2 V c 1 t : Vec F S1x512x768 .bf16) (iblk2 V c 3 t : Vec F S1x1024x512 .i32),
         Attn.stepDn (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.2 (iblk2 V c 1 t : Vec F S1x512x768 .bf16) (iblk2 V c 3 t : Vec F S1x1024x512 .i32),
         Attn.stepAc (outsAt2 V c (t.val - 1) (Nat.lt_of_le_of_lt (Nat.sub_le _ _) t.isLt)).2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2 (iblk2 V c 1 t : Vec F S1x512x768 .bf16) (iblk2 V c 2 t : Vec F S1x512x768 .bf16) (iblk2 V c 3 t : Vec F S1x1024x512 .i32),
         (outsAt2 V c (t.val - 1) (Nat.lt_of_le_of_lt (Nat.sub_le _ _) t.isLt)).2.2.2.2)
    ∧ (outsAt2 V c t.val t.isLt).1
      = Attn.finish (Attn.stepAc (outsAt2 V c (t.val - 1) (Nat.lt_of_le_of_lt (Nat.sub_le _ _) t.isLt)).2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2 (iblk2 V c 1 t : Vec F S1x512x768 .bf16) (iblk2 V c 2 t : Vec F S1x512x768 .bf16) (iblk2 V c 3 t : Vec F S1x1024x512 .i32))
          (Attn.stepDn (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2.2 (iblk2 V c 1 t : Vec F S1x512x768 .bf16) (iblk2 V c 3 t : Vec F S1x1024x512 .i32)) := by
  rw [outsAt2_C V c t (by omega) h3]
  unfold ptC2
  dsimp only
  rw [sout2_C_0_eq, sout2_C_1_eq, sout2_C_2_eq, out2_C_6_eq]
  exact ⟨rfl, rfl⟩

end Values

end Cert.KernelIdeal.Hand

end
-- ==== Proof.AttnCover.lean ====
/-
  The attention launch's output array after its region, from what the last key chunk of each (batch, query tile)
  pair leaves in the output tile: the 16 pairs' tiles are written back at the pairs' last chunks only, and they tile
  the array [8, 2048, 768] — batch `t / 8`, rows `1024 · ((t / 4) mod 2) …` of it at point `t`.
-/
import proofs.«113779_j37349035606587_2_alg».proof.Proof.FrameAttnData
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F] [Named F]

variable (V : (c : Dev nD) → (b : Ref sig .tc) → Buf (Elt F) ((c : Thread nD τ).loc b))

/-- The output window's block index over the grid: batch `t / 8`, query tile `(t / 4) mod 2`, all 768 columns. -/
theorem idx_facts2_6 : ∀ t : Fin cfg2.N, win2_6.index t (0 : Fin 3) = t.val / 8 ∧ win2_6.index t (1 : Fin 3) = (t.val / 4) % 2
    ∧ win2_6.index t (2 : Fin 3) = 0 :=
  (by decide +kernel : ∀ t : Fin grid2.N, _)

/-- The batch of point `t` is one of the 8. -/
theorem tile_b_lt (t : Fin cfg2.N) : t.val / 8 < 8 := by
  have hN : cfg2.N = 64 := N_2
  have := t.isLt; omega
/-- Row `r` of point `t`'s query tile is one of the 2048 rows. -/
theorem tile_p_lt (t : Fin cfg2.N) (r : Fin 1024) : 1024 * ((t.val / 4) % 2) + r.val < 2048 := by
  have := r.isLt; omega

/-- A function of (batch, row, column) as contents of the output array. -/
def tileArr (G : Fin 8 → Fin 2048 → Fin 768 → Elt F .f32) : Vec F S8x2048x768 .f32 := fun i => G (i 0) (i 1) (i 2)

/-- What a last key chunk writes back is its (batch, query tile) block of `G`, when the output tile it leaves is. -/
theorem flushed2_6_eq (c : Dev nD) (G : Fin 8 → Fin 2048 → Fin 768 → Elt F .f32)
    (hG : ∀ (t : Fin cfg2.N), t.val % 4 = 3 → ∀ (r : Fin 1024) (e : Fin 768),
      (outsAt2 V c t.val t.isLt).1 (ix3 0 r e) = G ⟨t.val / 8, tile_b_lt t⟩ ⟨1024 * ((t.val / 4) % 2) + r.val, tile_p_lt t r⟩ e)
    (t : Fin cfg2.N) (hf : (cfg2.win 6).flush t = true) :
    (dat2 V c).flushed 6 t = ((cfg2.win 6).blk t).view.read (Elt F) (tileArr G) := by
  have h3 : t.val % 4 = 3 := (flush2_6 t).mp hf
  show (cfg2.win 6).cut (grid2.coords t) ((dat2 V c).after 6 t) = _
  rw [after2_6]
  obtain ⟨e0, e1, e2⟩ := idx_facts2_6 t
  funext j
  obtain ⟨z, r, e, rfl⟩ : ∃ (z : Fin 1) (r : Fin 1024) (e : Fin 768), j = ix3 z r e := ⟨j 0, j 1, j 2, eq_ix3 j⟩
  obtain rfl : z = 0 := Subsingleton.elim _ _
  refine (hG t h3 r e).trans ?_
  rw [View.read_apply]
  unfold tileArr
  refine congr (congr (congrArg G (Fin.ext ?_)) (Fin.ext ?_)) (Fin.ext ?_)
  · show t.val / 8 = win2_6.index t 0 * 1 + 1 * 0; rw [e0]; omega
  · show 1024 * ((t.val / 4) % 2) + r.val = win2_6.index t 1 * 1024 + 1 * r.val; rw [e1]; omega
  · show e.val = win2_6.index t 2 * 768 + 1 * e.val; rw [e2]; omega

/-- An index of the output array is in point `t`'s block iff each coordinate is in the block's range on its axis. -/
theorem mem_blk2_6 (t : Fin cfg2.N) (i : S8x2048x768.Idx) :
    i ∈ ((cfg2.win 6).blk t).view.set ↔ ∀ a : Fin 3, win2_6.index t a * S1x1024x768.size a ≤ (i a).val ∧ (i a).val < win2_6.index t a * S1x1024x768.size a + S1x1024x768.size a := by
  show i ∈ ((View.whole main_v9).slice (win2_6.rect t)).set ↔ _
  rw [View.set_slice_whole, Rect.mem_set_unit]
  exact Iff.rfl

/-- The sixteen tiles cover the output array: entry (batch `b`, row `p`) is in the block written back at the last key
    chunk of the pair (`b`, `p / 1024`), point `8 b + 4 (p / 1024) + 3`. -/
theorem cover2_6 (i : S8x2048x768.Idx) :
    ∃ t : Fin cfg2.N, (cfg2.win 6).flush t = true ∧ i ∈ ((cfg2.win 6).blk t).view.set := by
  have hi0 : (i 0).val < 8 := (i 0).isLt
  have hi1 : (i 1).val < 2048 := (i 1).isLt
  have hi2 : (i 2).val < 768 := (i 2).isLt
  have hN : cfg2.N = 64 := N_2
  have hlt : 8 * (i 0).val + 4 * ((i 1).val / 1024) + 3 < cfg2.N := by rw [hN]; omega
  obtain ⟨e0, e1, e2⟩ := idx_facts2_6 ⟨8 * (i 0).val + 4 * ((i 1).val / 1024) + 3, hlt⟩
  refine ⟨⟨8 * (i 0).val + 4 * ((i 1).val / 1024) + 3, hlt⟩, (flush2_6 _).mpr (by show (8 * (i 0).val + 4 * ((i 1).val / 1024) + 3) % 4 = 3; omega), ?_⟩
  rw [mem_blk2_6]
  intro a
  match a with
  | ⟨0, _⟩ =>
    show win2_6.index ⟨8 * (i 0).val + 4 * ((i 1).val / 1024) + 3, hlt⟩ 0 * 1 ≤ (i 0).val ∧ (i 0).val < win2_6.index ⟨8 * (i 0).val + 4 * ((i 1).val / 1024) + 3, hlt⟩ 0 * 1 + 1
    rw [e0]; show (8 * (i 0).val + 4 * ((i 1).val / 1024) + 3) / 8 * 1 ≤ (i 0).val ∧ (i 0).val < (8 * (i 0).val + 4 * ((i 1).val / 1024) + 3) / 8 * 1 + 1; omega
  | ⟨1, _⟩ =>
    show win2_6.index ⟨8 * (i 0).val + 4 * ((i 1).val / 1024) + 3, hlt⟩ 1 * 1024 ≤ (i 1).val ∧ (i 1).val < win2_6.index ⟨8 * (i 0).val + 4 * ((i 1).val / 1024) + 3, hlt⟩ 1 * 1024 + 1024
    rw [e1]; show (8 * (i 0).val + 4 * ((i 1).val / 1024) + 3) / 4 % 2 * 1024 ≤ (i 1).val ∧ (i 1).val < (8 * (i 0).val + 4 * ((i 1).val / 1024) + 3) / 4 % 2 * 1024 + 1024; omega
  | ⟨2, _⟩ =>
    show win2_6.index ⟨8 * (i 0).val + 4 * ((i 1).val / 1024) + 3, hlt⟩ 2 * 768 ≤ (i 2).val ∧ (i 2).val < win2_6.index ⟨8 * (i 0).val + 4 * ((i 1).val / 1024) + 3, hlt⟩ 2 * 768 + 768
    rw [e2]; omega

/-- THE OUTPUT ARRAY after the attention launch: if the output tile every last key chunk leaves is its (batch, query
    tile) block of one function `G` of (batch, row, column), the array ends holding `G`. -/
theorem arr2_of_tile (c : Dev nD) (G : Fin 8 → Fin 2048 → Fin 768 → Elt F .f32)
    (hG : ∀ (t : Fin cfg2.N), t.val % 4 = 3 → ∀ (r : Fin 1024) (e : Fin 768),
      (outsAt2 V c t.val t.isLt).1 (ix3 0 r e) = G ⟨t.val / 8, tile_b_lt t⟩ ⟨1024 * ((t.val / 4) % 2) + r.val, tile_p_lt t r⟩ e) :
    ∀ (bb : Fin 8) (p : Fin 2048) (o : Fin 768), (dat2 V c).arrAt 6 cfg2.N (ix3 bb p o) = G bb p o := fun bb p o =>
  congrFun ((dat2 V c).arrAt_eq_of_cover 6 (tileArr G) (flushed2_6_eq V c G hG) cover2_6) (ix3 bb p o)

end Cert.KernelIdeal.Hand

end
-- ==== Proof.LibRealValued.lean ====
/-
  Extended reals that are real numbers.

  The pooling kernel and its reference are compared at inputs that are real numbers; every intermediate value is then
  a real number too.  The facts below carry the embedding of the reals through the operations met on the way: finite
  sums, the maximum with a value below `⊤`, a fold of maxima, the exponential and the quotient.
-/
import Idealize.ShloMosaic.PureOps.Ideal
import Idealize.ShloMosaic.PureOps.Ideal.Laws
import Mathlib.Data.Finset.Fold

noncomputable section

open scoped BigOperators

namespace Cert.Pool

open Idealize.ShloMosaic

/-- The embedding of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The maximum of a real number and an extended real below `⊤` is a real number. -/
theorem max_real (μ : ℝ) (y : EReal) (hy : y < ⊤) : ∃ μ' : ℝ, max (μ : EReal) y = (μ' : EReal) := by
  induction y using EReal.rec with
  | bot => exact ⟨μ, max_eq_left bot_le⟩
  | top => exact absurd hy (lt_irrefl _)
  | coe v => exact ⟨max μ v, (EReal.coe_strictMono.monotone.map_max (a := μ) (b := v)).symm⟩

/-- A fold of maxima over real numbers, started below `⊤`, stays below `⊤`. -/
theorem fold_max_lt_top {ι : Type*} (s : Finset ι) (b : EReal) (hb : b < ⊤) (f : ι → ℝ) :
    s.fold max b (fun k => (f k : EReal)) < ⊤ :=
  (Finset.fold_max_lt _).mpr ⟨hb, fun k _ => EReal.coe_lt_top (f k)⟩

/-- A fold of maxima over a nonempty family of real numbers, started at `⊥`, is a real number. -/
theorem fold_max_real {ι : Type*} (s : Finset ι) (hs : s.Nonempty) (f : ι → ℝ) :
    ∃ M : ℝ, s.fold max (⊥ : EReal) (fun k => (f k : EReal)) = (M : EReal) := by
  obtain ⟨k₀, hk₀⟩ := hs
  have hlt := fold_max_lt_top s ⊥ bot_lt_top f
  have hge : (f k₀ : EReal) ≤ s.fold max (⊥ : EReal) (fun k => (f k : EReal)) :=
    (Finset.le_fold_max _).mpr (Or.inr ⟨k₀, hk₀, le_rfl⟩)
  generalize s.fold max (⊥ : EReal) (fun k => (f k : EReal)) = y at hlt hge
  induction y using EReal.rec with
  | bot => exact absurd hge (not_le.mpr (EReal.bot_lt_coe _))
  | top => exact absurd hlt (lt_irrefl _)
  | coe v => exact ⟨v, rfl⟩

/-- The exponential of a real number. -/
theorem exp_coe (r : ℝ) : Ideal.exp (r : EReal) = (Real.exp r : EReal) := rfl

/-- The quotient of two real numbers with a nonzero divisor. -/
theorem div_coe_coe (a b : ℝ) (hb : b ≠ 0) : Ideal.div (a : EReal) (b : EReal) = ((a / b : ℝ) : EReal) := by
  rw [Ideal.div_coe hb, ← EReal.coe_mul]
  exact congrArg _ (by rw [mul_one_div])

/-- The large negative word the running shift is reset to denotes a real number. -/
theorem neg_big_real : ∃ c0 : ℝ, Ideal.ofBits .f32 0xF149F2CA#32 = (c0 : EReal) := by
  refine ⟨-(13234890 * 2 ^ 76), ?_⟩
  simp [Ideal.ofBits, Ideal.ieee]

/-- The word of negative infinity. -/
theorem neg_inf_pattern : Ideal.ofBits .f32 0xFF800000#32 = ⊥ := by simp [Ideal.ofBits, Ideal.ieee]

end Cert.Pool

end
-- ==== Proof.LibOnlineSoftmax.lean ====
/-
  The streaming form of softmax pooling equals the textbook form.

  Scores are real numbers or `⊥` (a masked key); values are real numbers. For a shift `m` and a score `x` put
  `E m x = 0` when `x = ⊥` and `E m x = exp (x - m)` (a real number) otherwise. Whenever `x ≤ m < ⊤` the extended-real
  weight `exp (x - m)` is the real number `E m x`, and the weights change shift by one factor:
  `E m' m · E m x = E m' x`.

  By induction on the number of chunks read, the streaming state `(m, l, a)` satisfies: `m < ⊤`, every score read so far
  is at most `m`, `l = Σ E m s` and `a = Σ E m s · v` over the keys read so far. After the last chunk the quotient `a / l`
  is a quotient of real sums; changing the shift from `m` to the row maximum multiplies numerator and denominator by
  the same positive factor, and dividing the weighted sum by the total weight is weighting by the normalised weights.
-/
import proofs.«113779_j37349035606587_2_alg».proof.Proof.LibSoftmaxSpec
import proofs.«113779_j37349035606587_2_alg».proof.Proof.LibRealValued

noncomputable section

open scoped BigOperators

namespace Attn.Soft

open Idealize.ShloMosaic

/-- The real weight of a score `x` under the shift `m`: `0` for a masked score, `exp (x - m)` otherwise. -/
def E (m x : EReal) : ℝ := if x = ⊥ then 0 else Real.exp (x.toReal - m.toReal)

theorem E_bot (m : EReal) : E m ⊥ = 0 := if_pos rfl

theorem E_coe (m : EReal) (r : ℝ) : E m (r : EReal) = Real.exp (r - m.toReal) := by
  rw [E, if_neg (EReal.coe_ne_bot r), EReal.toReal_coe]

theorem E_nonneg (m x : EReal) : 0 ≤ E m x := by
  unfold E
  split_ifs
  · exact le_rfl
  · exact (Real.exp_pos _).le

theorem E_pos (m : EReal) {x : EReal} (hx : x ≠ ⊥) : 0 < E m x := by
  rw [E, if_neg hx]
  exact Real.exp_pos _

/-- A score that is real or masked is below `⊤`. -/
theorem lt_top_of_real_or_bot {x : EReal} (hx : x = ⊥ ∨ ∃ r : ℝ, x = (r : EReal)) : x < ⊤ := by
  rcases hx with rfl | ⟨r, rfl⟩
  · exact bot_lt_top
  · exact EReal.coe_lt_top r

/-- Below a shift `m < ⊤`, the extended-real weight of a real-or-masked score is the real weight. -/
theorem exp_sub_eq {x m : EReal} (hx : x = ⊥ ∨ ∃ r : ℝ, x = (r : EReal)) (hm : m ≠ ⊤) (hxm : x ≤ m) :
    Ideal.exp (x - m) = ((E m x : ℝ) : EReal) := by
  rcases hx with rfl | ⟨r, rfl⟩
  · rw [EReal.bot_sub, Ideal.exp_bot, E_bot, EReal.coe_zero]
  · induction m using EReal.rec with
    | bot => exact absurd hxm (not_le.mpr (EReal.bot_lt_coe r))
    | top => exact absurd rfl hm
    | coe μ => rw [← EReal.coe_sub, Ideal.exp_coe, E_coe, EReal.toReal_coe]

/-- Changing the shift from `m` to `m'` multiplies every weight below `m` by the weight of `m` under `m'`. -/
theorem E_mul {x m : EReal} (m' : EReal) (hx : x = ⊥ ∨ ∃ r : ℝ, x = (r : EReal)) (hxm : x ≤ m) (hm : m ≠ ⊤) :
    E m' m * E m x = E m' x := by
  rcases hx with rfl | ⟨r, rfl⟩
  · rw [E_bot, E_bot, mul_zero]
  · induction m using EReal.rec with
    | bot => exact absurd hxm (not_le.mpr (EReal.bot_lt_coe r))
    | top => exact absurd rfl hm
    | coe μ =>
      rw [E_coe, E_coe, E_coe, EReal.toReal_coe, ← Real.exp_add]
      congr 1
      ring

variable {n : ℕ} {K : Type} [Fintype K]

/-- The chunks read before chunk `j`. -/
def pre (n j : ℕ) : Finset (Fin n) := Finset.univ.filter fun i => i.val < j

theorem pre_zero : pre n 0 = ∅ := by
  ext i
  simp [pre]

theorem pre_succ (j : ℕ) (h : j + 1 ≤ n) : pre n (j + 1) = insert (⟨j, h⟩ : Fin n) (pre n j) := by
  ext i
  simp only [pre, Finset.mem_filter, Finset.mem_univ, true_and, Finset.mem_insert, Fin.ext_iff]
  omega

theorem not_mem_pre (j : ℕ) (h : j + 1 ≤ n) : (⟨j, h⟩ : Fin n) ∉ pre n j := by
  simp [pre]

theorem pre_self : pre n n = Finset.univ := by
  ext i
  simp [pre]

/-- One streaming step keeps the invariant: reading chunk `i0` after the chunks in `P`. -/
theorem step (s v : Fin n → K → EReal)
    (hs : ∀ j k, s j k = ⊥ ∨ ∃ r : ℝ, s j k = (r : EReal))
    (hv : ∀ j k, ∃ r : ℝ, v j k = (r : EReal))
    (P : Finset (Fin n)) (i0 : Fin n) (hi0 : i0 ∉ P) (m l a : EReal)
    (h1 : m ≠ ⊤)
    (h2 : ∀ i ∈ P, ∀ k, s i k ≤ m)
    (h3 : l = ((∑ i ∈ P, ∑ k, E m (s i k) : ℝ) : EReal))
    (h4 : a = ((∑ i ∈ P, ∑ k, E m (s i k) * (v i k).toReal : ℝ) : EReal)) :
    max m (chunkMax s i0) ≠ ⊤ ∧
    (∀ i ∈ insert i0 P, ∀ k, s i k ≤ max m (chunkMax s i0)) ∧
    Ideal.exp (m - max m (chunkMax s i0)) * l + ∑ k, Ideal.exp (s i0 k - max m (chunkMax s i0))
      = ((∑ i ∈ insert i0 P, ∑ k, E (max m (chunkMax s i0)) (s i k) : ℝ) : EReal) ∧
    Ideal.exp (m - max m (chunkMax s i0)) * a + ∑ k, Ideal.exp (s i0 k - max m (chunkMax s i0)) * v i0 k
      = ((∑ i ∈ insert i0 P, ∑ k, E (max m (chunkMax s i0)) (s i k) * (v i k).toReal : ℝ) : EReal) := by
  have hc : chunkMax s i0 < ⊤ :=
    (Finset.sup_lt_iff bot_lt_top).mpr fun k _ => lt_top_of_real_or_bot (hs i0 k)
  generalize hm' : max m (chunkMax s i0) = m'
  have hm'top : m' ≠ ⊤ := by
    rw [← hm']
    exact ne_of_lt (max_lt (lt_of_le_of_ne le_top h1) hc)
  have hmm' : m ≤ m' := hm' ▸ le_max_left _ _
  have hsm' : ∀ k, s i0 k ≤ m' := fun k =>
    hm' ▸ le_trans (Finset.le_sup (f := s i0) (Finset.mem_univ k)) (le_max_right _ _)
  have hmrb : m = ⊥ ∨ ∃ r : ℝ, m = (r : EReal) := by
    induction m using EReal.rec with
    | bot => exact Or.inl rfl
    | top => exact absurd rfl h1
    | coe μ => exact Or.inr ⟨μ, rfl⟩
  refine ⟨hm'top, ?_, ?_, ?_⟩
  · intro i hi k
    rcases Finset.mem_insert.mp hi with rfl | hi
    · exact hsm' k
    · exact le_trans (h2 i hi k) hmm'
  · rw [exp_sub_eq hmrb hm'top hmm', h3,
      Finset.sum_congr rfl fun k _ => exp_sub_eq (hs i0 k) hm'top (hsm' k),
      ← Cert.Pool.coe_sum, ← EReal.coe_mul, ← EReal.coe_add]
    refine congrArg _ ?_
    rw [Finset.sum_insert hi0, Finset.mul_sum, add_comm]
    congr 1
    refine Finset.sum_congr rfl fun i hi => ?_
    rw [Finset.mul_sum]
    exact Finset.sum_congr rfl fun k _ => E_mul m' (hs i k) (h2 i hi k) h1
  · have hterm : ∀ k, Ideal.exp (s i0 k - m') * v i0 k
        = ((E m' (s i0 k) * (v i0 k).toReal : ℝ) : EReal) := by
      intro k
      obtain ⟨r, hr⟩ := hv i0 k
      rw [exp_sub_eq (hs i0 k) hm'top (hsm' k), hr, EReal.toReal_coe, EReal.coe_mul]
    rw [exp_sub_eq hmrb hm'top hmm', h4, Finset.sum_congr rfl fun k _ => hterm k,
      ← Cert.Pool.coe_sum, ← EReal.coe_mul, ← EReal.coe_add]
    refine congrArg _ ?_
    rw [Finset.sum_insert hi0, Finset.mul_sum, add_comm]
    congr 1
    refine Finset.sum_congr rfl fun i hi => ?_
    rw [Finset.mul_sum]
    refine Finset.sum_congr rfl fun k _ => ?_
    rw [← mul_assoc, E_mul m' (hs i k) (h2 i hi k) h1]

theorem online_succ (s v : Fin n → K → EReal) (j : ℕ) (h : j + 1 ≤ n) :
    online s v (j + 1) h =
      (max (online s v j (Nat.le_of_succ_le h)).1 (chunkMax s ⟨j, h⟩),
       Ideal.exp ((online s v j (Nat.le_of_succ_le h)).1
            - max (online s v j (Nat.le_of_succ_le h)).1 (chunkMax s ⟨j, h⟩))
          * (online s v j (Nat.le_of_succ_le h)).2.1
        + ∑ k, Ideal.exp (s ⟨j, h⟩ k - max (online s v j (Nat.le_of_succ_le h)).1 (chunkMax s ⟨j, h⟩)),
       Ideal.exp ((online s v j (Nat.le_of_succ_le h)).1
            - max (online s v j (Nat.le_of_succ_le h)).1 (chunkMax s ⟨j, h⟩))
          * (online s v j (Nat.le_of_succ_le h)).2.2
        + ∑ k, Ideal.exp (s ⟨j, h⟩ k - max (online s v j (Nat.le_of_succ_le h)).1 (chunkMax s ⟨j, h⟩))
            * v ⟨j, h⟩ k) := rfl

/-- The streaming state after `j` chunks: its maximum is below `⊤` and bounds the scores read, and its two sums
    are the real sums of weights, and of weights times values, over the keys read. -/
theorem online_inv (s v : Fin n → K → EReal)
    (hs : ∀ j k, s j k = ⊥ ∨ ∃ r : ℝ, s j k = (r : EReal))
    (hv : ∀ j k, ∃ r : ℝ, v j k = (r : EReal)) :
    ∀ (j : ℕ) (h : j ≤ n),
      (online s v j h).1 ≠ ⊤ ∧
      (∀ i ∈ pre n j, ∀ k, s i k ≤ (online s v j h).1) ∧
      (online s v j h).2.1 = ((∑ i ∈ pre n j, ∑ k, E (online s v j h).1 (s i k) : ℝ) : EReal) ∧
      (online s v j h).2.2
        = ((∑ i ∈ pre n j, ∑ k, E (online s v j h).1 (s i k) * (v i k).toReal : ℝ) : EReal) := by
  intro j
  induction j with
  | zero =>
    intro h
    rw [pre_zero]
    refine ⟨bot_ne_top, fun i hi => absurd hi (Finset.notMem_empty i), ?_, ?_⟩
    · rw [Finset.sum_empty, EReal.coe_zero]; rfl
    · rw [Finset.sum_empty, EReal.coe_zero]; rfl
  | succ j ih =>
    intro h
    obtain ⟨h1, h2, h3, h4⟩ := ih (Nat.le_of_succ_le h)
    have hstep := step s v hs hv (pre n j) ⟨j, h⟩ (not_mem_pre j h) _ _ _ h1 h2 h3 h4
    rw [← pre_succ j h] at hstep
    rw [online_succ]
    exact hstep

/-- The streaming form and the textbook form of softmax pooling agree on every row that keeps a key. -/
theorem online_eq_whole {n : ℕ} {K : Type} [Fintype K] (s v : Fin n → K → EReal)
    (hs : ∀ j k, s j k = ⊥ ∨ ∃ r : ℝ, s j k = (r : EReal))
    (hv : ∀ j k, ∃ r : ℝ, v j k = (r : EReal))
    (hkept : ∃ j k, s j k ≠ ⊥) :
    onlineOut s v = wholeOut s v := by
  obtain ⟨j0, k0, hk0⟩ := hkept
  obtain ⟨-, -, h3, h4⟩ := online_inv s v hs hv n le_rfl
  rw [pre_self] at h3 h4
  generalize (online s v n le_rfl).1 = m at h3 h4
  -- the row maximum is a real number bounding every score
  have hM1 : rowMax s ≠ ⊤ :=
    ne_of_lt ((Finset.sup_lt_iff bot_lt_top).mpr fun jk _ => lt_top_of_real_or_bot (hs jk.1 jk.2))
  have hM2 : ∀ i k, s i k ≤ rowMax s := fun i k =>
    Finset.le_sup (f := fun jk : Fin n × K => s jk.1 jk.2) (Finset.mem_univ (i, k))
  have hMb : rowMax s ≠ ⊥ := fun hb => hk0 (le_bot_iff.mp (hb ▸ hM2 j0 k0))
  generalize hM : rowMax s = M at hM1 hM2 hMb
  -- the factor between the two shifts, and the textbook denominator, are positive
  have hc : 0 < E m M := E_pos m hMb
  have hD : 0 < ∑ jk : Fin n × K, E M (s jk.1 jk.2) :=
    lt_of_lt_of_le (E_pos M hk0)
      (Finset.single_le_sum (f := fun jk : Fin n × K => E M (s jk.1 jk.2))
        (fun jk _ => E_nonneg M _) (Finset.mem_univ (j0, k0)))
  -- the streaming sums, with the shift moved to the row maximum
  have hL : (∑ i, ∑ k, E m (s i k)) = E m M * ∑ jk : Fin n × K, E M (s jk.1 jk.2) := by
    rw [Fintype.sum_prod_type, Finset.mul_sum]
    refine Finset.sum_congr rfl fun i _ => ?_
    rw [Finset.mul_sum]
    exact Finset.sum_congr rfl fun k _ => (E_mul m (hs i k) (hM2 i k) hM1).symm
  have hA : (∑ i, ∑ k, E m (s i k) * (v i k).toReal)
      = E m M * ∑ jk : Fin n × K, E M (s jk.1 jk.2) * (v jk.1 jk.2).toReal := by
    rw [Fintype.sum_prod_type, Finset.mul_sum]
    refine Finset.sum_congr rfl fun i _ => ?_
    rw [Finset.mul_sum]
    refine Finset.sum_congr rfl fun k _ => ?_
    rw [← mul_assoc, E_mul m (hs i k) (hM2 i k) hM1]
  -- the textbook side in real numbers
  have hw : ∀ i k, weight s i k = ((E M (s i k) : ℝ) : EReal) := fun i k => by
    rw [weight, hM]
    exact exp_sub_eq (hs i k) hM1 (hM2 i k)
  have hden : denom s = ((∑ jk : Fin n × K, E M (s jk.1 jk.2) : ℝ) : EReal) := by
    rw [denom, Cert.Pool.coe_sum]
    exact Finset.sum_congr rfl fun jk _ => hw jk.1 jk.2
  have hterm : ∀ jk : Fin n × K, Ideal.div (weight s jk.1 jk.2) (denom s) * v jk.1 jk.2
      = ((E M (s jk.1 jk.2) / (∑ jk : Fin n × K, E M (s jk.1 jk.2)) * (v jk.1 jk.2).toReal : ℝ) : EReal) := by
    intro jk
    obtain ⟨r, hr⟩ := hv jk.1 jk.2
    rw [hw, hden, Cert.Pool.div_coe_coe _ _ hD.ne', hr, EReal.toReal_coe, EReal.coe_mul]
  rw [onlineOut, wholeOut, h3, h4, Finset.sum_congr rfl fun jk _ => hterm jk, ← Cert.Pool.coe_sum,
    Cert.Pool.div_coe_coe _ _ (by rw [hL]; exact (mul_pos hc hD).ne'), hL, hA]
  refine congrArg _ ?_
  rw [mul_div_mul_left _ _ hc.ne', Finset.sum_div]
  exact Finset.sum_congr rfl fun jk _ => (div_mul_eq_mul_div _ _ _).symm

end Attn.Soft

end
-- ==== Proof.AttnValue.lean ====
/-
  The attention region's output array after the region, as one function of the contents the region finds.

  The grid is 8 batches × 2 query tiles × 4 key chunks, the key chunk fastest: point `t` works on batch `t / 8`,
  query tile `(t / 4) mod 2` and key chunk `t mod 4`. Over the four points of one (batch, query tile) pair the kernel
  carries, for each of the tile's 1024 query rows, the streaming-softmax state: the running maximum, the running
  denominator, and per output feature the running numerator. After the chunk `j` that state is the streaming form's
  state after `j + 1` chunks of the row's masked, scaled scores against the projected queries (`sK`) and of the values
  (`vK`); at the last chunk the tile written back is numerator over denominator, the streaming form's result. The
  sixteen tiles written back cover the output array.
-/
import proofs.«113779_j37349035606587_2_alg».proof.Proof.FrameAttnVal
import proofs.«113779_j37349035606587_2_alg».proof.Proof.AttnCover
import proofs.«113779_j37349035606587_2_alg».proof.Proof.StepValue
import proofs.«113779_j37349035606587_2_alg».proof.Proof.AttnSpec
import proofs.«113779_j37349035606587_2_alg».proof.Proof.LibOnlineSoftmax
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The blocks the windows are on -/

/-- The index maps over the grid: batch `t / 8`, query tile `(t / 4) mod 2`, key chunk `t mod 4`. -/
theorem idx_facts2 : ∀ t : Fin cfg2.N,
    (win2_0.index t (0 : Fin 3) = t.val / 8 ∧ win2_0.index t (1 : Fin 3) = t.val / 4 % 2 ∧ win2_0.index t (2 : Fin 3) = 0)
    ∧ (win2_1.index t (0 : Fin 3) = t.val / 8 ∧ win2_1.index t (1 : Fin 3) = t.val % 4 ∧ win2_1.index t (2 : Fin 3) = 0)
    ∧ (win2_2.index t (0 : Fin 3) = t.val / 8 ∧ win2_2.index t (1 : Fin 3) = t.val % 4 ∧ win2_2.index t (2 : Fin 3) = 0)
    ∧ (win2_3.index t (0 : Fin 3) = t.val / 8 ∧ win2_3.index t (1 : Fin 3) = t.val / 4 % 2 ∧ win2_3.index t (2 : Fin 3) = t.val % 4)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 3) = t.val / 8 ∧ win2_6.index t (1 : Fin 3) = t.val / 4 % 2 ∧ win2_6.index t (2 : Fin 3) = 0) :=
  (by decide +kernel : ∀ t : Fin grid2.N, _)

/-- The query tile at point `t`: rows `1024 · qi …` of batch `t / 8` of the queries. -/
theorem iblk2_0_apply (c : Dev nD) (t : Fin cfg2.N) (x : S1x1024x768.Idx) (k : S8x2048x768.Idx)
    (hk0 : (k 0).val = t.val / 8) (hk1 : (k 1).val = 1024 * (t.val / 4 % 2) + (x 1).val) (hk2 : (k 2).val = (x 2).val) :
    (iblk2 V c 0 t : Vec Ideal S1x1024x768 .f32) x = (V c main_arg0 : S8x2048x768.Idx → EReal) k := by
  obtain ⟨⟨e0, e1, e2⟩, -⟩ := idx_facts2 t
  have hx0 : (x 0).val = 0 := by have : (x 0).val < 1 := (x 0).isLt; omega
  unfold iblk2
  rw [View.read_apply]
  show V c main_arg0 _ = V c main_arg0 _
  congr 1
  funext a
  apply Fin.ext
  match a with
  | ⟨0, _⟩ => show win2_0.index t 0 * 1 + 1 * (x 0).val = (k 0).val; rw [e0, hk0, hx0]; omega
  | ⟨1, _⟩ => show win2_0.index t 1 * 1024 + 1 * (x 1).val = (k 1).val; rw [e1, hk1]; omega
  | ⟨2, _⟩ => show win2_0.index t 2 * 768 + 1 * (x 2).val = (k 2).val; rw [e2, hk2]; omega

/-- The key chunk at point `t`: rows `512 · ki …` of batch `t / 8` of the projected keys. -/
theorem iblk2_1_apply (c : Dev nD) (t : Fin cfg2.N) (x : S1x512x768.Idx) (k : S8x2048x768.Idx)
    (hk0 : (k 0).val = t.val / 8) (hk1 : (k 1).val = 512 * (t.val % 4) + (x 1).val) (hk2 : (k 2).val = (x 2).val) :
    (iblk2 V c 1 t : Vec Ideal S1x512x768 .bf16) x = (V c main_v6 : S8x2048x768.Idx → EReal) k := by
  obtain ⟨-, ⟨e0, e1, e2⟩, -⟩ := idx_facts2 t
  have hx0 : (x 0).val = 0 := by have : (x 0).val < 1 := (x 0).isLt; omega
  unfold iblk2
  rw [View.read_apply]
  show V c main_v6 _ = V c main_v6 _
  congr 1
  funext a
  apply Fin.ext
  match a with
  | ⟨0, _⟩ => show win2_1.index t 0 * 1 + 1 * (x 0).val = (k 0).val; rw [e0, hk0, hx0]; omega
  | ⟨1, _⟩ => show win2_1.index t 1 * 512 + 1 * (x 1).val = (k 1).val; rw [e1, hk1]; omega
  | ⟨2, _⟩ => show win2_1.index t 2 * 768 + 1 * (x 2).val = (k 2).val; rw [e2, hk2]; omega

/-- The value chunk at point `t`: rows `512 · ki …` of batch `t / 8` of the projected values. -/
theorem iblk2_2_apply (c : Dev nD) (t : Fin cfg2.N) (x : S1x512x768.Idx) (k : S8x2048x768.Idx)
    (hk0 : (k 0).val = t.val / 8) (hk1 : (k 1).val = 512 * (t.val % 4) + (x 1).val) (hk2 : (k 2).val = (x 2).val) :
    (iblk2 V c 2 t : Vec Ideal S1x512x768 .bf16) x = (V c main_v8 : S8x2048x768.Idx → EReal) k := by
  obtain ⟨-, -, ⟨e0, e1, e2⟩, -⟩ := idx_facts2 t
  have hx0 : (x 0).val = 0 := by have : (x 0).val < 1 := (x 0).isLt; omega
  unfold iblk2
  rw [View.read_apply]
  show V c main_v8 _ = V c main_v8 _
  congr 1
  funext a
  apply Fin.ext
  match a with
  | ⟨0, _⟩ => show win2_2.index t 0 * 1 + 1 * (x 0).val = (k 0).val; rw [e0, hk0, hx0]; omega
  | ⟨1, _⟩ => show win2_2.index t 1 * 512 + 1 * (x 1).val = (k 1).val; rw [e1, hk1]; omega
  | ⟨2, _⟩ => show win2_2.index t 2 * 768 + 1 * (x 2).val = (k 2).val; rw [e2, hk2]; omega

/-- The mask tile at point `t`: query rows `1024 · qi …` against key positions `512 · ki …` of batch `t / 8`. -/
theorem iblk2_3_apply (c : Dev nD) (t : Fin cfg2.N) (x : S1x1024x512.Idx) (k : S8x2048x2048.Idx)
    (hk0 : (k 0).val = t.val / 8) (hk1 : (k 1).val = 1024 * (t.val / 4 % 2) + (x 1).val)
    (hk2 : (k 2).val = 512 * (t.val % 4) + (x 2).val) :
    (iblk2 V c 3 t : Vec Ideal S1x1024x512 .i32) x = (V c main_arg3 : S8x2048x2048.Idx → BitVec 32) k := by
  obtain ⟨-, -, -, ⟨e0, e1, e2⟩, -⟩ := idx_facts2 t
  have hx0 : (x 0).val = 0 := by have : (x 0).val < 1 := (x 0).isLt; omega
  unfold iblk2
  rw [View.read_apply]
  show V c main_arg3 _ = V c main_arg3 _
  congr 1
  funext a
  apply Fin.ext
  match a with
  | ⟨0, _⟩ => show win2_3.index t 0 * 1 + 1 * (x 0).val = (k 0).val; rw [e0, hk0, hx0]; omega
  | ⟨1, _⟩ => show win2_3.index t 1 * 1024 + 1 * (x 1).val = (k 1).val; rw [e1, hk1]; omega
  | ⟨2, _⟩ => show win2_3.index t 2 * 512 + 1 * (x 2).val = (k 2).val; rw [e2, hk2]; omega

/-- The weights' block is the weights' array at every point. -/
theorem iblk2_4_apply (c : Dev nD) (t : Fin cfg2.N) (x : S768x768.Idx) :
    (iblk2 V c 4 t : Vec Ideal S768x768 .bf16) x = (V c main_v3 : S768x768.Idx → EReal) x := by
  obtain ⟨-, -, -, -, ⟨e0, e1⟩, -⟩ := idx_facts2 t
  unfold iblk2
  rw [View.read_apply]
  show V c main_v3 _ = V c main_v3 _
  congr 1
  funext a
  apply Fin.ext
  match a with
  | ⟨0, _⟩ => show win2_4.index t 0 * 768 + 1 * (x 0).val = (x 0).val; rw [e0]; omega
  | ⟨1, _⟩ => show win2_4.index t 1 * 768 + 1 * (x 1).val = (x 1).val; rw [e1]; omega

/-- The bias' block is the bias' array at every point. -/
theorem iblk2_5_apply (c : Dev nD) (t : Fin cfg2.N) (x : S1x768.Idx) :
    (iblk2 V c 5 t : Vec Ideal S1x768 .f32) x = (V c main_v4 : S1x768.Idx → EReal) x := by
  obtain ⟨-, -, -, -, -, ⟨e0, e1⟩, -⟩ := idx_facts2 t
  unfold iblk2
  rw [View.read_apply]
  show V c main_v4 _ = V c main_v4 _
  congr 1
  funext a
  apply Fin.ext
  match a with
  | ⟨0, _⟩ => show win2_5.index t 0 * 1 + 1 * (x 0).val = (x 0).val; rw [e0]; omega
  | ⟨1, _⟩ => show win2_5.index t 1 * 768 + 1 * (x 1).val = (x 1).val; rw [e1]; omega

/-! ## The row's scores and values, from the contents the region finds -/

/-- Row `p` of batch `bb` of `X` against column `e` of `W`, plus the bias. -/
def qpOf (X : S8x2048x768.Idx → EReal) (W : S768x768.Idx → EReal) (B : S1x768.Idx → EReal)
    (bb : Fin 8) (p : Fin 2048) (e : Fin 768) : EReal :=
  (∑ e' : Fin 768, X (ix3 bb p e') * W (ix2 e' e)) + B (ix2 0 e)

/-- The masked, scaled score of the query row `qrow` (query position `p`) against key `kk` of chunk `j` of `Kp`. -/
def scoreOf (M : S8x2048x2048.Idx → BitVec 32) (Kp : S8x2048x768.Idx → EReal) (qrow : Fin 768 → EReal)
    (bb : Fin 8) (p : Fin 2048) (j : Fin 4) (kk : Fin 512) : EReal :=
  if M (ix3 bb p (Attn.Spec.key j kk)) = 1#32 then ⊥
  else (∑ e : Fin 768, qrow e * Kp (ix3 bb (Attn.Spec.key j kk) e)) * ((524288 / 14529495 : ℝ) : EReal)

/-- Feature `o` of row `kk` of chunk `j` of `Vp`. -/
def valOf (Vp : S8x2048x768.Idx → EReal) (bb : Fin 8) (o : Fin 768) (j : Fin 4) (kk : Fin 512) : EReal :=
  Vp (ix3 bb (Attn.Spec.key j kk) o)

/-- The projected query row `p` of batch `bb`, feature `e`. -/
def qpK (c : Dev nD) (bb : Fin 8) (p : Fin 2048) (e : Fin 768) : EReal :=
  qpOf (V c main_arg0) (V c main_v3) (V c main_v4) bb p e

/-- The masked, scaled score of query row `p` against key `kk` of chunk `j`. -/
def sK (c : Dev nD) (bb : Fin 8) (p : Fin 2048) (j : Fin 4) (kk : Fin 512) : EReal :=
  scoreOf (V c main_arg3) (V c main_v6) (qpK V c bb p) bb p j kk

/-- Feature `o` of the value at key `kk` of chunk `j`. -/
def vK (c : Dev nD) (bb : Fin 8) (o : Fin 768) (j : Fin 4) (kk : Fin 512) : EReal :=
  valOf (V c main_v8) bb o j kk

/-! ## One chunk of the streaming form, on arrays -/

section Pure
open Cert.KernelIdeal.Attn

/-- A chunk's masked, scaled scores of row `r`, from the row of projected queries, the chunk's key rows and the row of
    the mask. -/
theorem csc_eq_of_rows (qp : Vec Ideal S1x1024x768 .bf16) (xk : Vec Ideal S1x512x768 .bf16) (xm : Vec Ideal S1x1024x512 .i32)
    (r : Fin 1024) (qrow : Fin 768 → EReal) (krow : Fin 512 → Fin 768 → EReal) (mrow : Fin 512 → BitVec 32)
    (hq : ∀ e, qp (ix3 0 r e) = qrow e) (hk : ∀ k e, xk (ix3 0 k e) = krow k e) (hm : ∀ k, xm (ix3 0 r k) = mrow k) :
    csc qp xk xm r = fun k => if mrow k = 1#32 then ⊥
      else (∑ e : Fin 768, qrow e * krow k e) * ((524288 / 14529495 : ℝ) : EReal) := by
  funext k
  unfold csc
  rw [hm k]
  refine congrArg (fun z : EReal => if mrow k = 1#32 then ⊥ else z * ((524288 / 14529495 : ℝ) : EReal)) ?_
  exact Finset.sum_congr rfl fun e _ => by rw [hq e, hk k e]

/-- One key chunk takes the streaming form's state after `j` chunks to its state after `j + 1`. -/
theorem step_state (mx dn : Vec Ideal S1x1024x1 .f32) (ac : Vec Ideal S1x1024x768 .f32) (qp : Vec Ideal S1x1024x768 .bf16)
    (xk xv : Vec Ideal S1x512x768 .bf16) (xm : Vec Ideal S1x1024x512 .i32) (r : Fin 1024) (e : Fin 768)
    (s v : Fin 4 → Fin 512 → EReal) (j : ℕ) (h : j + 1 ≤ 4)
    (hs : csc qp xk xm r = s ⟨j, h⟩) (hv : ∀ k, xv (ix3 0 k e) = v ⟨j, h⟩ k)
    (hprev : (mx (ix3 0 r 0), dn (ix3 0 r 0), ac (ix3 0 r e)) = Attn.Soft.online s v j (Nat.le_of_succ_le h)) :
    (stepMx (F := Ideal) mx qp xk xm (ix3 0 r 0), stepDn (F := Ideal) mx dn qp xk xm (ix3 0 r 0),
        stepAc (F := Ideal) mx ac qp xk xv xm (ix3 0 r e))
      = Attn.Soft.online s v (j + 1) h := by
  have hm : stepMx (F := Ideal) mx qp xk xm (ix3 0 r 0) = max (mx (ix3 0 r 0)) (Attn.Soft.chunkMax s ⟨j, h⟩) := by
    rw [stepMx_apply, hs]; rfl
  rw [Attn.Soft.online_succ, ← hprev]
  refine Prod.ext hm (Prod.ext ?_ ?_)
  · show stepDn (F := Ideal) mx dn qp xk xm (ix3 0 r 0) = _
    rw [stepDn_apply, hm, hs]
  · show stepAc (F := Ideal) mx ac qp xk xv xm (ix3 0 r e) = _
    rw [stepAc_apply, hm, hs]
    exact congrArg (_ + ·) (Finset.sum_congr rfl fun k _ => by rw [hv k])

end Pure

/-! ## The carried state after each point -/

section State
open Cert.KernelIdeal.Attn

/-- After the point `n`, which works on chunk `j = n mod 4` of its (batch, query tile) pair: the carried projected
    queries of row `r` are the projected query row `p`, and the carried maximum, denominator and numerator of the row are
    the streaming form's state after `j + 1` chunks. -/
theorem state2 (c : Dev nD) (r : Fin 1024) (bb : Fin 8) (p : Fin 2048) :
    ∀ (n : ℕ) (hn : n < cfg2.N) (j : ℕ) (h4 : j + 1 ≤ 4), n % 4 = j → bb.val = n / 8 → p.val = 1024 * (n / 4 % 2) + r.val →
      (∀ o : Fin 768, (outsAt2 V c n hn).2.2.2.2 (ix3 0 r o) = qpK V c bb p o)
      ∧ ∀ e : Fin 768,
          ((outsAt2 V c n hn).2.1 (ix3 0 r 0), (outsAt2 V c n hn).2.2.1 (ix3 0 r 0), (outsAt2 V c n hn).2.2.2.1 (ix3 0 r e))
            = Attn.Soft.online (sK V c bb p) (vK V c bb e) (j + 1) h4 := by
  intro n
  induction n using Nat.strong_induction_on with
  | _ n ih =>
    intro hn j h4 hj hbb hp
    have hN : cfg2.N = 64 := N_2
    -- the chunk's scores and values at this point, from the arrays
    have hsK : ∀ qp : Vec Ideal S1x1024x768 .bf16, (∀ o, qp (ix3 0 r o) = qpK V c bb p o) →
        csc qp (iblk2 V c 1 ⟨n, hn⟩) (iblk2 V c 3 ⟨n, hn⟩) r = sK V c bb p ⟨j, h4⟩ := by
      intro qp hq
      refine (csc_eq_of_rows qp (iblk2 V c 1 ⟨n, hn⟩) (iblk2 V c 3 ⟨n, hn⟩) r (qpK V c bb p)
        (fun k e => (V c main_v6 : S8x2048x768.Idx → EReal) (ix3 bb (Attn.Spec.key ⟨j, h4⟩ k) e))
        (fun k => (V c main_arg3 : S8x2048x2048.Idx → BitVec 32) (ix3 bb p (Attn.Spec.key ⟨j, h4⟩ k))) hq ?_ ?_).trans rfl
      · intro k e
        exact iblk2_1_apply V c ⟨n, hn⟩ (ix3 0 k e) (ix3 bb (Attn.Spec.key ⟨j, h4⟩ k) e) hbb
          (by show 512 * j + k.val = 512 * (n % 4) + k.val; rw [hj]) rfl
      · intro k
        exact iblk2_3_apply V c ⟨n, hn⟩ (ix3 0 r k) (ix3 bb p (Attn.Spec.key ⟨j, h4⟩ k)) hbb hp
          (by show 512 * j + k.val = 512 * (n % 4) + k.val; rw [hj])
    have hvK : ∀ (e : Fin 768) (k : Fin 512), ((iblk2 V c 2 ⟨n, hn⟩) : Vec Ideal S1x512x768 .bf16) (ix3 0 k e) = vK V c bb e ⟨j, h4⟩ k :=
      fun e k => iblk2_2_apply V c ⟨n, hn⟩ (ix3 0 k e) (ix3 bb (Attn.Spec.key ⟨j, h4⟩ k) e) hbb
        (by show 512 * j + k.val = 512 * (n % 4) + k.val; rw [hj]) rfl
    by_cases h0 : n % 4 = 0
    · -- the first chunk: the state is reset and the queries are projected
      obtain rfl : j = 0 := by omega
      have hA : (outsAt2 V c n hn).2 = _ := outsAt2_A_val V c ⟨n, hn⟩ h0
      have hqp : ∀ o : Fin 768, resetQp (F := Ideal) (iblk2 V c 0 ⟨n, hn⟩) (iblk2 V c 4 ⟨n, hn⟩) (iblk2 V c 5 ⟨n, hn⟩) (ix3 0 r o) = qpK V c bb p o := by
        intro o
        refine (resetQp_apply (iblk2 V c 0 ⟨n, hn⟩) (iblk2 V c 4 ⟨n, hn⟩) (iblk2 V c 5 ⟨n, hn⟩) r o).trans ?_
        refine congrArg₂ (· + ·) (Finset.sum_congr rfl fun e' _ => congrArg₂ (· * ·) ?_ ?_) ?_
        · exact iblk2_0_apply V c ⟨n, hn⟩ (ix3 0 r e') (ix3 bb p e') hbb hp rfl
        · exact iblk2_4_apply V c ⟨n, hn⟩ (ix2 e' o)
        · exact iblk2_5_apply V c ⟨n, hn⟩ (ix2 0 o)
      rw [hA]
      refine ⟨hqp, fun e => ?_⟩
      refine step_state (resetMx (F := Ideal)) (resetDn (F := Ideal)) (resetAc (F := Ideal))
        (resetQp (F := Ideal) (iblk2 V c 0 ⟨n, hn⟩) (iblk2 V c 4 ⟨n, hn⟩) (iblk2 V c 5 ⟨n, hn⟩)) (iblk2 V c 1 ⟨n, hn⟩) (iblk2 V c 2 ⟨n, hn⟩) (iblk2 V c 3 ⟨n, hn⟩) r e (sK V c bb p) (vK V c bb e) 0 h4
        (hsK _ hqp) (hvK e) ?_
      show _ = ((⊥ : EReal), (0 : EReal), (0 : EReal))
      rw [resetMx_apply, resetDn_apply, resetAc_apply]
    · -- a later chunk: the state of the point before, stepped
      obtain ⟨j', rfl⟩ : ∃ j', j = j' + 1 := ⟨j - 1, by omega⟩
      have hlt : n - 1 < cfg2.N := by omega
      obtain ⟨ihq, ihs⟩ := ih (n - 1) (by omega) hlt j' (Nat.le_of_succ_le h4) (by omega) (by omega) (by omega)
      have hBC : (outsAt2 V c n hn).2
          = (stepMx (F := Ideal) (outsAt2 V c (n - 1) hlt).2.1 (outsAt2 V c (n - 1) hlt).2.2.2.2 (iblk2 V c 1 ⟨n, hn⟩) (iblk2 V c 3 ⟨n, hn⟩),
             stepDn (F := Ideal) (outsAt2 V c (n - 1) hlt).2.1 (outsAt2 V c (n - 1) hlt).2.2.1 (outsAt2 V c (n - 1) hlt).2.2.2.2 (iblk2 V c 1 ⟨n, hn⟩) (iblk2 V c 3 ⟨n, hn⟩),
             stepAc (F := Ideal) (outsAt2 V c (n - 1) hlt).2.1 (outsAt2 V c (n - 1) hlt).2.2.2.1 (outsAt2 V c (n - 1) hlt).2.2.2.2 (iblk2 V c 1 ⟨n, hn⟩) (iblk2 V c 2 ⟨n, hn⟩) (iblk2 V c 3 ⟨n, hn⟩),
             (outsAt2 V c (n - 1) hlt).2.2.2.2) := by
        by_cases h3 : n % 4 = 3
        · exact (outsAt2_C_val V c ⟨n, hn⟩ h3).1
        · exact outsAt2_B_val V c ⟨n, hn⟩ h0 h3
      rw [hBC]
      refine ⟨ihq, fun e => ?_⟩
      exact step_state (outsAt2 V c (n - 1) hlt).2.1 (outsAt2 V c (n - 1) hlt).2.2.1 (outsAt2 V c (n - 1) hlt).2.2.2.1 (outsAt2 V c (n - 1) hlt).2.2.2.2 (iblk2 V c 1 ⟨n, hn⟩) (iblk2 V c 2 ⟨n, hn⟩) (iblk2 V c 3 ⟨n, hn⟩) r e
        (sK V c bb p) (vK V c bb e) (j' + 1) h4 (hsK _ ihq) (hvK e) (ihs e)

end State

/-! ## The tile written back at a pair's last chunk -/

section Tile
open Cert.KernelIdeal.Attn

/-- At the last chunk of a (batch, query tile) pair the output tile holds, at row `r` and feature `e`, the streaming
    form's result for query row `p` of batch `bb`. -/
theorem tile2_of (c : Dev nD) (t : Fin cfg2.N) (h3 : t.val % 4 = 3) (r : Fin 1024) (e : Fin 768) (bb : Fin 8) (p : Fin 2048)
    (hbb : bb.val = t.val / 8) (hp : p.val = 1024 * (t.val / 4 % 2) + r.val) :
    (outsAt2 V c t.val t.isLt).1 (ix3 0 r e) = Attn.Soft.onlineOut (sK V c bb p) (vK V c bb e) := by
  have hC := outsAt2_C_val V c t h3
  have hout : (outsAt2 V c t.val t.isLt).1
      = finish (F := Ideal) (outsAt2 V c t.val t.isLt).2.2.2.1 (outsAt2 V c t.val t.isLt).2.2.1 :=
    hC.2.trans (by rw [hC.1])
  obtain ⟨-, hs⟩ := state2 V c r bb p t.val t.isLt 3 (by omega) h3 hbb hp
  have hse := hs e
  rw [hout]
  refine (finish_apply (outsAt2 V c t.val t.isLt).2.2.2.1 (outsAt2 V c t.val t.isLt).2.2.1 r e).trans ?_
  unfold Attn.Soft.onlineOut
  rw [← hse]

/-- The same with the batch and the query row spelt from the point. -/
theorem tile2 (c : Dev nD) (t : Fin cfg2.N) (h3 : t.val % 4 = 3) (r : Fin 1024) (e : Fin 768) :
    (outsAt2 V c t.val t.isLt).1 (ix3 0 r e)
      = Attn.Soft.onlineOut
          (sK V c ⟨t.val / 8, by have hN : cfg2.N = 64 := N_2; have := t.isLt; omega⟩
            ⟨1024 * (t.val / 4 % 2) + r.val, by have := r.isLt; omega⟩)
          (vK V c ⟨t.val / 8, by have hN : cfg2.N = 64 := N_2; have := t.isLt; omega⟩ e) :=
  tile2_of V c t h3 r e _ _ rfl rfl

end Tile

/-! ## The output array after the region -/

/-- The output array after the region, at (batch, query row, feature): the streaming form's result for the row's masked,
    scaled scores against the projected queries, and the values' feature. -/
theorem arr2 (c : Dev nD) (bb : Fin 8) (p : Fin 2048) (o : Fin 768) :
    (dat2 (F := Ideal) V c).arrAt 6 cfg2.N (ix3 bb p o) = Attn.Soft.onlineOut (sK V c bb p) (vK V c bb o) :=
  arr2_of_tile V c (fun bb p o => Attn.Soft.onlineOut (sK V c bb p) (vK V c bb o))
    (fun t h3 r e => tile2 V c t h3 r e) bb p o

end Cert.KernelIdeal.Hand

end
-- ==== Proof.LibOnlineAdapters.lean ====
/-
  Small bridges between equivalent ways of writing the same quantity.

  * A maximum taken by folding `max` from `⊥` is the supremum of the family.
  * Multiplying by the reciprocal of a nonzero real number is dividing by it, for every extended real (the
    infinities included); the same with the reciprocal written as a quotient `p / q` of the divisor `q / p`.
  * A row of 2048 keys read as 4 chunks of 512 keys: key `512·j + k` is key `k` of chunk `j`. Sums and suprema over
    the row are sums and suprema over the pairs (chunk, key in chunk).
-/
import Idealize.ShloMosaic.PureOps.Ideal
import Mathlib.Data.Finset.Fold
import Mathlib.Data.Finset.Lattice.Fold
import Mathlib.Logic.Equiv.Fin.Basic

noncomputable section

open scoped BigOperators

namespace Attn.Soft

open Idealize.ShloMosaic

/-- Folding `max` from `⊥` over a finite set is taking the supremum. -/
theorem fold_max_eq_sup_finset {ι : Type*} (t : Finset ι) (f : ι → EReal) :
    t.fold max ⊥ f = t.sup f := by
  classical
  refine Finset.induction_on t ?_ ?_
  · rw [Finset.fold_empty, Finset.sup_empty]
  · intro a t ha ih
    rw [Finset.fold_insert ha, Finset.sup_insert, ih]

/-- Folding `max` from `⊥` over a whole finite type is taking the supremum. -/
theorem fold_max_eq_sup {ι : Type} [Fintype ι] (f : ι → EReal) :
    (Finset.univ : Finset ι).fold max ⊥ f = Finset.univ.sup f :=
  fold_max_eq_sup_finset Finset.univ f

/-- Multiplying by the reciprocal of a nonzero real number is dividing by it. -/
theorem mul_inv_eq_div (x : EReal) (D : ℝ) (hD : D ≠ 0) :
    x * (((1 / D : ℝ)) : EReal) = Ideal.div x (D : EReal) :=
  (Ideal.div_coe hD x).symm

/-- Multiplying by `p / q` is dividing by `q / p`. -/
theorem mul_ratio_eq_div (x : EReal) (p q : ℝ) (hq : q ≠ 0) (hp : p ≠ 0) :
    x * ((p / q : ℝ) : EReal) = Ideal.div x ((q / p : ℝ) : EReal) := by
  rw [Ideal.div_coe (div_ne_zero hq hp) x, one_div_div]

/-- Key `512·j + k` of a row of 2048 keys. -/
def chunkKey (jk : Fin 4 × Fin 512) : Fin 2048 := ⟨512 * jk.1.val + jk.2.val, by omega⟩

theorem chunkKey_eq (jk : Fin 4 × Fin 512) :
    chunkKey jk = (finProdFinEquiv : Fin 4 × Fin 512 ≃ Fin (4 * 512)) jk := by
  apply Fin.ext
  show 512 * jk.1.val + jk.2.val = jk.2.val + 512 * jk.1.val
  omega

/-- A sum over a row of 2048 keys is the sum over 4 chunks of 512 keys. -/
theorem sum_prod_chunks {M : Type*} [AddCommMonoid M] (f : Fin 2048 → M) :
    ∑ k : Fin 2048, f k = ∑ jk : Fin 4 × Fin 512, f ⟨512 * jk.1.val + jk.2.val, by omega⟩ := by
  rw [← Equiv.sum_comp (finProdFinEquiv : Fin 4 × Fin 512 ≃ Fin (4 * 512)) f]
  exact Finset.sum_congr rfl fun jk _ => congrArg f (chunkKey_eq jk).symm

/-- A supremum over a row of 2048 keys is the supremum over 4 chunks of 512 keys. -/
theorem sup_prod_chunks (f : Fin 2048 → EReal) :
    Finset.univ.sup f
      = Finset.univ.sup fun jk : Fin 4 × Fin 512 => f ⟨512 * jk.1.val + jk.2.val, by omega⟩ := by
  rw [← Finset.map_univ_equiv (finProdFinEquiv : Fin 4 × Fin 512 ≃ Fin (4 * 512)), Finset.sup_map]
  exact Finset.sup_congr rfl fun jk _ => congrArg f (chunkKey_eq jk).symm

end Attn.Soft

end
-- ==== Proof.SpecReal.lean ====
/-
  The specification's terms are real-valued on real inputs.

  On arrays whose entries are real numbers the linear layer's entries are real, a score is `⊥` (a key the mask removes)
  or a real number, and a row that keeps a key has a score above `⊥`; so the streaming form of the row's pooling is the
  textbook form (LibOnlineSoftmax.lean). The reference's divisor is the single-precision word `14529495 / 2^19`, and
  multiplying by `2^19 / 14529495` is dividing by it.
-/
import proofs.«113779_j37349035606587_2_alg».proof.Proof.AttnSpec
import proofs.«113779_j37349035606587_2_alg».proof.Proof.LibOnlineSoftmax
import proofs.«113779_j37349035606587_2_alg».proof.Proof.LibOnlineAdapters
import proofs.«113779_j37349035606587_2_alg».proof.Proof.LibRealValued
import Idealize.ShloMosaic.Lib.ValueIdx

noncomputable section

open scoped BigOperators

namespace Attn.Spec

open Idealize.ShloMosaic Idealize.ShloMosaic.ValueIdx

/-- The divisor's word denotes `14529495 / 2^19`. -/
theorem D_val : D = ((14529495 / 524288 : ℝ) : EReal) := by
  unfold D
  simp [Ideal.ofBits, Ideal.ieee, -EReal.coe_mul]; norm_num

/-- Multiplying by `2^19 / 14529495` is dividing by the divisor. -/
theorem scale_eq_div (x : EReal) : x * ((524288 / 14529495 : ℝ) : EReal) = Ideal.div x D := by
  rw [D_val]
  exact Attn.Soft.mul_ratio_eq_div x 524288 14529495 (by norm_num) (by norm_num)

/-- A finite sum of products of real numbers is a real number. -/
theorem sum_mul_real {ι : Type} [Fintype ι] (f g : ι → EReal) (hf : ∀ e, ∃ r : ℝ, f e = (r : EReal))
    (hg : ∀ e, ∃ r : ℝ, g e = (r : EReal)) : ∃ r : ℝ, ∑ e, f e * g e = (r : EReal) := by
  choose f' hf' using hf
  choose g' hg' using hg
  refine ⟨∑ e, f' e * g' e, ?_⟩
  rw [Cert.Pool.coe_sum]
  exact Finset.sum_congr rfl fun e _ => by rw [hf', hg', EReal.coe_mul]

section
variable (q k v : Sbpf.Idx → EReal) (mask : Sbqk.Idx → BitVec 32) (W : Soi.Idx → EReal) (b : Sf.Idx → EReal)

/-- The linear layer of real arrays is real. -/
theorem proj_real (hq : ∀ i, ∃ r : ℝ, q i = (r : EReal)) (hW : ∀ i, ∃ r : ℝ, W i = (r : EReal))
    (hb : ∀ i, ∃ r : ℝ, b i = (r : EReal)) (bb : Fin 8) (p : Fin 2048) (o : Fin 768) :
    ∃ r : ℝ, proj q W b bb p o = (r : EReal) := by
  have hs : ∃ s : ℝ, (∑ e : Fin 768, q (ix3 bb p e) * W (ix2 o e)) = (s : EReal) :=
    sum_mul_real (fun e => q (ix3 bb p e)) (fun e => W (ix2 o e)) (fun e => hq _) (fun e => hW _)
  obtain ⟨s, hs⟩ := hs
  obtain ⟨t, ht⟩ := hb (ix1 o)
  refine ⟨s + t, ?_⟩
  unfold proj
  rw [hs, ht, EReal.coe_add]

/-- The score against a key the mask keeps is a real number. -/
theorem score_real_of_kept (hq : ∀ i, ∃ r : ℝ, q i = (r : EReal)) (hk : ∀ i, ∃ r : ℝ, k i = (r : EReal))
    (hW : ∀ i, ∃ r : ℝ, W i = (r : EReal)) (hb : ∀ i, ∃ r : ℝ, b i = (r : EReal))
    (bb : Fin 8) (p : Fin 2048) (j : Fin 4) (kk : Fin 512) (h : mask (ix3 bb p (key j kk)) ≠ 1#32) :
    ∃ r : ℝ, score q k mask W b bb p j kk = (r : EReal) := by
  have hs : ∃ s : ℝ, (∑ e : Fin 768, proj q W b bb p e * proj k W b bb (key j kk) e) = (s : EReal) :=
    sum_mul_real (fun e => proj q W b bb p e) (fun e => proj k W b bb (key j kk) e)
      (fun e => proj_real q W b hq hW hb bb p e) (fun e => proj_real k W b hk hW hb bb (key j kk) e)
  obtain ⟨s, hs⟩ := hs
  unfold score
  rw [if_neg h, hs, D_val, Cert.Pool.div_coe_coe _ _ (by norm_num)]
  exact ⟨_, rfl⟩

/-- A score is `⊥` or a real number. -/
theorem score_bot_or_real (hq : ∀ i, ∃ r : ℝ, q i = (r : EReal)) (hk : ∀ i, ∃ r : ℝ, k i = (r : EReal))
    (hW : ∀ i, ∃ r : ℝ, W i = (r : EReal)) (hb : ∀ i, ∃ r : ℝ, b i = (r : EReal))
    (bb : Fin 8) (p : Fin 2048) (j : Fin 4) (kk : Fin 512) :
    score q k mask W b bb p j kk = ⊥ ∨ ∃ r : ℝ, score q k mask W b bb p j kk = (r : EReal) := by
  by_cases h : mask (ix3 bb p (key j kk)) = 1#32
  · left; unfold score; rw [if_pos h]
  · exact Or.inr (score_real_of_kept q k mask W b hq hk hW hb bb p j kk h)

/-- Every key position is key `t % 512` of chunk `t / 512`. -/
theorem key_div_mod (t : Fin 2048) :
    key ⟨t.val / 512, by have := t.isLt; omega⟩ ⟨t.val % 512, Nat.mod_lt _ (by decide)⟩ = t :=
  Fin.ext (by show 512 * (t.val / 512) + t.val % 512 = t.val; omega)

/-- On real arrays, for a row that keeps a key, the streaming form of the pooling is the specification's output. -/
theorem onlineOut_eq_outAt (hq : ∀ i, ∃ r : ℝ, q i = (r : EReal)) (hk : ∀ i, ∃ r : ℝ, k i = (r : EReal))
    (hv : ∀ i, ∃ r : ℝ, v i = (r : EReal)) (hW : ∀ i, ∃ r : ℝ, W i = (r : EReal)) (hb : ∀ i, ∃ r : ℝ, b i = (r : EReal))
    (bb : Fin 8) (p : Fin 2048) (o : Fin 768) (hrow : ∃ t : Fin 2048, mask (ix3 bb p t) ≠ 1#32) :
    Attn.Soft.onlineOut (score q k mask W b bb p) (value v W b bb o) = outAt q k v mask W b bb p o := by
  unfold outAt
  refine Attn.Soft.online_eq_whole _ _ (fun j kk => score_bot_or_real q k mask W b hq hk hW hb bb p j kk)
    (fun j kk => proj_real v W b hv hW hb bb (key j kk) o) ?_
  obtain ⟨t, ht⟩ := hrow
  refine ⟨⟨t.val / 512, by have := t.isLt; omega⟩, ⟨t.val % 512, Nat.mod_lt _ (by decide)⟩, ?_⟩
  obtain ⟨r, hr⟩ := score_real_of_kept q k mask W b hq hk hW hb bb p _ _ (by rw [key_div_mod]; exact ht)
  rw [hr]
  exact EReal.coe_ne_bot r

end

end Attn.Spec

end
-- ==== Proof.Bridge.lean ====
/-
  The attention launch's output array is the specification.

  The launch finds the queries and the mask as launched, the transposed weights, the bias as a row, and the projected
  keys and values the two projection launches left. So the scores it streams over are the specification's scores
  (the scale `2^19 / 14529495` it multiplies by is the division by the reference's divisor), the values it pools are the
  specification's values, and on real inputs with a kept key in every row the streaming pooling is the textbook one.
-/
import proofs.«113779_j37349035606587_2_alg».proof.Proof.HostReads
import proofs.«113779_j37349035606587_2_alg».proof.Proof.AttnValue
import proofs.«113779_j37349035606587_2_alg».proof.Proof.AttnSpec
import proofs.«113779_j37349035606587_2_alg».proof.Proof.SpecReal
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-- The projected query row the attention launch computes is the linear layer of the queries. -/
theorem qpK_eq (bb : Fin 8) (p : Fin 2048) (e : Fin 768) :
    qpK (rd (W5 m)) c bb p e = Attn.Spec.proj (A0 m c) (A4 m c) (A5 m c) bb p e := by
  unfold qpK qpOf Attn.Spec.proj
  exact congrArg₂ (· + ·)
    (Finset.sum_congr rfl fun e' _ => congrArg₂ (· * ·) (congrFun (e5_q m c) (ix3 bb p e')) (e5_w m c e' e))
    (e5_b m c e)

/-- The scores the attention launch streams over are the specification's. -/
theorem sK_eq (bb : Fin 8) (p : Fin 2048) :
    sK (rd (W5 m)) c bb p = Attn.Spec.score (A0 m c) (A1 m c) (A3 m c) (A4 m c) (A5 m c) bb p := by
  funext j kk
  unfold sK scoreOf Attn.Spec.score
  have hm : (rd (W5 m) c main_arg3 : S8x2048x2048.Idx → BitVec 32) (ix3 bb p (Attn.Spec.key j kk))
      = A3 m c (ix3 bb p (Attn.Spec.key j kk)) := congrFun (e5_mask m c) _
  rw [hm]
  refine if_congr Iff.rfl rfl ?_
  rw [Attn.Spec.scale_eq_div]
  exact congrArg (fun x => Ideal.div x Attn.Spec.D)
    (Finset.sum_congr rfl fun e _ => congrArg₂ (· * ·) (qpK_eq m c bb p e) (e5_k m c bb (Attn.Spec.key j kk) e))

/-- The values the attention launch pools are the specification's. -/
theorem vK_eq (bb : Fin 8) (o : Fin 768) :
    vK (rd (W5 m)) c bb o = Attn.Spec.value (A2 m c) (A4 m c) (A5 m c) bb o := by
  funext j kk
  unfold vK valOf Attn.Spec.value
  exact e5_v m c bb (Attn.Spec.key j kk) o

/-- On real arguments whose mask keeps a key in every row, the attention launch leaves the specification's output. -/
theorem o6_eq (h0 : ∀ i, ∃ r : ℝ, A0 m c i = (r : EReal)) (h1 : ∀ i, ∃ r : ℝ, A1 m c i = (r : EReal))
    (h2 : ∀ i, ∃ r : ℝ, A2 m c i = (r : EReal)) (h4 : ∀ i, ∃ r : ℝ, A4 m c i = (r : EReal))
    (h5 : ∀ i, ∃ r : ℝ, A5 m c i = (r : EReal))
    (hrow : ∀ (bb : Fin 8) (p : Fin 2048), ∃ t : Fin 2048, A3 m c (ix3 bb p t) ≠ 1#32) :
    (o6 m c : S8x2048x768.Idx → EReal) = Attn.Spec.out (A0 m c) (A1 m c) (A2 m c) (A3 m c) (A4 m c) (A5 m c) := by
  refine funext fun (i : S8x2048x768.Idx) => ?_
  obtain ⟨bb, p, o, rfl⟩ : ∃ (bb : Fin 8) (p : Fin 2048) (o : Fin 768), i = ix3 bb p o := ⟨i 0, i 1, i 2, eq_ix3 i⟩
  show (dat2 (F := Ideal) (rd (W5 m)) c).arrAt 6 cfg2.N (ix3 bb p o)
    = Attn.Spec.outAt (A0 m c) (A1 m c) (A2 m c) (A3 m c) (A4 m c) (A5 m c) bb p o
  rw [arr2, sK_eq, vK_eq]
  exact Attn.Spec.onlineOut_eq_outAt _ _ _ _ _ _ h0 h1 h2 h4 h5 bb p o (hrow bb p)

end Cert.KernelIdeal.Hand

end
-- ==== Proof.lean ====
/-
  Masked single-head attention with a shared linear layer: a tiled kernel against the plain formula.

  The kernel projects keys and values once (two launches of a matrix product with bias), then runs a third launch over
  (batch, query tile, key chunk): at a tile's first chunk it projects the queries and resets a running maximum, a running
  denominator and a running numerator; at every chunk it rescales the two sums by `exp (old maximum − new maximum)` and
  adds the chunk's weights `exp (score − new maximum)` and weighted values; at the last chunk the tile is numerator over
  denominator. Scores are the projected rows' dot products times the reciprocal of the reference's divisor `√768` as its
  single-precision literal spells it, or `−∞` where the mask holds a one. The reference computes the three projections,
  all scores, a whole-row softmax and the weighted sum of the projected values.

  On the extended reals the two agree wherever every query row keeps at least one key: all scores are then real or
  `−∞`, the row maximum is real, the streaming sums rescaled chunk by chunk are the whole-row sums at the final maximum
  (LibOnlineSoftmax.lean), and a numerator divided by a positive real denominator is the sum of the normalised weights times
  the values. The kernel's side is read off the run of its three launches (FrameRun.lean: the result array ends at what
  the attention launch leaves in it, AttnValue.lean and Bridge.lean: that array as a function of the arguments), the
  reference's off its run read one operation at a time (RefIsSpec.lean). Both idealized constants are the values the
  kernel's text means: the scale is the exact reciprocal of the reference's divisor and the mask fill is `−∞`.
-/
import proofs.«113779_j37349035606587_2_alg».proof.Defs
import proofs.«113779_j37349035606587_2_alg».proof.Proof.Gen.Kernel
import proofs.«113779_j37349035606587_2_alg».proof.Proof.Gen.KernelIdeal
import proofs.«113779_j37349035606587_2_alg».proof.Proof.Gen.ReferenceIdeal
import proofs.«113779_j37349035606587_2_alg».proof.Proof.Gen.Pre_finite_inputs
import proofs.«113779_j37349035606587_2_alg».proof.Proof.RefIsSpec
import proofs.«113779_j37349035606587_2_alg».proof.Proof.PreReal
import proofs.«113779_j37349035606587_2_alg».proof.Proof.FrameRun
import proofs.«113779_j37349035606587_2_alg».proof.Proof.KFrameRun
import proofs.«113779_j37349035606587_2_alg».proof.Proof.Bridge
import Idealize.ShloMosaic.PureOps.IdealRules

noncomputable section

namespace Cert.Proof

open Idealize.ShloMosaic Idealize.SL.Sem

/-- The word-level program runs to the end, faults nowhere and leaves its arguments unchanged. -/
theorem frame_k : Cert.frame_Kernel := fun m ρ _ =>
  (θ_run Cert.Kernel.defs _ _).mono (fun _ h c => (h c).2) (Cert.Kernel.Hand.run_named (F := Bits) m ρ)

/-- So does the idealized program. -/
theorem frame_ki : Cert.frame_KernelIdeal := fun m ρ _ =>
  (θ_run Cert.KernelIdeal.defs _ _).mono (fun _ h c => (h c).2) (Cert.KernelIdeal.Hand.run_named (F := Ideal) m ρ)

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two named constants: the scale word is the reciprocal of the reference's divisor, the mask fill is `−∞`. -/
theorem preserves : Cert.preserves_Kernel_KernelIdeal :=
  ⟨IdealRules.named_const.statement Cert.KernelIdeal.κ "inv_sqrt_emb" .f32 0x3D13CD3A#32 ((524288 / 14529495 : ℝ) : EReal) rfl,
   IdealRules.named_const.statement Cert.KernelIdeal.κ "neg_big" .f32 0xFF333332#32 ⊥ rfl⟩

/-- From memories that agree on the arguments both programs end with the attention output `Attn.Spec.out` of the
    arguments in their result arrays. -/
theorem algebraic : Cert.algebraic_KernelIdeal_ReferenceIdeal := by
  intro m ρ m' ρ' hpre hagree
  refine ⟨fun c => Cert.KernelIdeal.Hand.o6 (F := Ideal) m c, Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h4, h5, hrow⟩ := Cert.PreReal.pre_real _ _ _ _ _ _ (hpre c)
  rw [Cert.ReferenceIdeal.Read.val_main_v29_eq, Cert.ReferenceIdeal.RefValue.ref_eq_spec,
    (hagree c).1, (hagree c).2.1, (hagree c).2.2.1, (hagree c).2.2.2.1, (hagree c).2.2.2.2.1, (hagree c).2.2.2.2.2]
  exact (Cert.KernelIdeal.Hand.o6_eq m c h0 h1 h2 h4 h5 hrow).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
